-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S2x128x128 : Shape := ⟨3, ![2, 128, 128]⟩
abbrev S128x128 : Shape := ⟨2, ![128, 128]⟩
abbrev S128 : Shape := ⟨1, ![128]⟩
abbrev S2x128x40 : Shape := ⟨3, ![2, 128, 40]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x40 : S_.BroadcastsInDim S2x128x40 (![] : Fin 0 → Fin S2x128x40.rank)
  reducesTo_S2x128x40_S_d0_1_2 : S2x128x40.ReducesTo [0, 1, 2] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S128 .f32) (main_arg6 : FVec F S2x128x40 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x40 .f32 := Host.absf main_arg6
  let main_cst_8 : FVec F S_ .f32 := constant S_ .f32 0x7F800000#32
  let main_v25 : FVec F S2x128x40 .f32 := broadcastInDim S2x128x40 ![] bcast_S_S2x128x40 main_cst_8
  let main_v26 : IVec S2x128x40 1 := cmpf .olt main_v24 main_v25
  let main_c_9 : IVec S_ 1 := constantI S_ 1 1#1
  let main_v27 : IVec S_ 1 := (fun x v => Host.reduce IntOp.andi x v reducesTo_S2x128x40_S_d0_1_2 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x1 .f32) (main_arg3 : FVec F S2x128x128 .f32) (main_arg4 : FVec F S128x128 .f32) (main_arg5 : FVec F S128 .f32) (main_arg6 : FVec F S2x128x40 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S2x128x128 : Shape := ⟨3, ![2, 128, 128]⟩
abbrev S128x128 : Shape := ⟨2, ![128, 128]⟩
abbrev S128 : Shape := ⟨1, ![128]⟩
abbrev S2x128x40 : Shape := ⟨3, ![2, 128, 40]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S1x128x128 : Shape := ⟨3, ![1, 128, 128]⟩
abbrev S2000x128 : Shape := ⟨2, ![2000, 128]⟩
abbrev S1600000x128 : Shape := ⟨2, ![1600000, 128]⟩
abbrev S4000x128 : Shape := ⟨2, ![4000, 128]⟩
abbrev S4000x1 : Shape := ⟨2, ![4000, 1]⟩
abbrev S1x128 : Shape := ⟨2, ![1, 128]⟩
abbrev S2000x1 : Shape := ⟨2, ![2000, 1]⟩
abbrev S1x128x40 : Shape := ⟨3, ![1, 128, 40]⟩
abbrev S100000x40 : Shape := ⟨2, ![100000, 40]⟩
abbrev S2000x40 : Shape := ⟨2, ![2000, 40]⟩
abbrev S1600000x40 : Shape := ⟨2, ![1600000, 40]⟩
abbrev S4000x40 : Shape := ⟨2, ![4000, 40]⟩
abbrev S1x40 : Shape := ⟨2, ![1, 40]⟩

abbrev nBuf : Space → Nat
  | .hbm => 90
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S2x128x128, .f32⟩
  | .hbm, ⟨4, _⟩ => ⟨S128x128, .f32⟩
  | .hbm, ⟨5, _⟩ => ⟨S128, .f32⟩
  | .hbm, ⟨6, _⟩ => ⟨S2x128x40, .f32⟩
  | .hbm, ⟨7, _⟩ => ⟨S128x40, .f32⟩
  | .hbm, ⟨8, _⟩ => ⟨S40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S1x128x128, .f32⟩
  | .hbm, ⟨27, _⟩ => ⟨S128x128, .f32⟩
  | .hbm, ⟨28, _⟩ => ⟨S1x128x128, .f32⟩
  | .hbm, ⟨29, _⟩ => ⟨S128x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S1x128x40, .f32⟩
  | .hbm, ⟨59, _⟩ => ⟨S128x40, .f32⟩
  | .hbm, ⟨60, _⟩ => ⟨S1x128x40, .f32⟩
  | .hbm, ⟨61, _⟩ => ⟨S128x40, .f32⟩
  | .hbm, ⟨62, _⟩ => ⟨S100000x40, .f32⟩
  | .hbm, ⟨63, _⟩ => ⟨S100000x40, .f32⟩
  | .hbm, ⟨64, _⟩ => ⟨S100000x40, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x40, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x40, .f32⟩
  | .hbm, ⟨83, _⟩ => ⟨S1600000x40, .f32⟩
  | .hbm, ⟨84, _⟩ => ⟨S_, .f32⟩
  | .hbm, ⟨85, _⟩ => ⟨S100000x40, .f32⟩
  | .hbm, ⟨86, _⟩ => ⟨S1600000x1, .i32⟩
  | .hbm, ⟨87, _⟩ => ⟨S100000x40, .f32⟩
  | .hbm, ⟨88, _⟩ => ⟨S1x40, .f32⟩
  | .hbm, ⟨89, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S4000x128, .f32⟩
  | .local _ .vmem, ⟨18, _⟩ => ⟨S4000x128, .f32⟩
  | .local _ .vmem, ⟨19, _⟩ => ⟨S2000x128, .f32⟩
  | .local _ .vmem, ⟨20, _⟩ => ⟨S2000x128, .f32⟩
  | .local _ .vmem, ⟨21, _⟩ => ⟨S2000x1, .f32⟩
  | .local _ .vmem, ⟨22, _⟩ => ⟨S2000x1, .f32⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x40, .f32⟩
  | .local _ .vmem, ⟨31, _⟩ => ⟨S128x40, .f32⟩
  | .local _ .vmem, ⟨32, _⟩ => ⟨S128x40, .f32⟩
  | .local _ .vmem, ⟨33, _⟩ => ⟨S2000x40, .f32⟩
  | .local _ .vmem, ⟨34, _⟩ => ⟨S2000x40, .f32⟩
  | .local _ .vmem, ⟨35, _⟩ => ⟨S2000x40, .f32⟩
  | .local _ .vmem, ⟨36, _⟩ => ⟨S2000x40, .f32⟩
  | .local _ .vmem, ⟨37, _⟩ => ⟨S2000x40, .f32⟩
  | .local _ .vmem, ⟨38, _⟩ => ⟨S2000x40, .f32⟩
  | .local _ .vmem, ⟨39, _⟩ => ⟨S4000x40, .f32⟩
  | .local _ .vmem, ⟨40, _⟩ => ⟨S4000x40, .f32⟩
  | .local _ .vmem, ⟨41, _⟩ => ⟨S4000x40, .f32⟩
  | .local _ .vmem, ⟨42, _⟩ => ⟨S4000x40, .f32⟩
  | .local _ .vmem, ⟨43, _⟩ => ⟨S4000x1, .f32⟩
  | .local _ .vmem, ⟨44, _⟩ => ⟨S4000x1, .f32⟩
  | .local _ .vmem, ⟨45, _⟩ => ⟨S4000x40, .f32⟩
  | .local _ .vmem, ⟨46, _⟩ => ⟨S4000x40, .f32⟩
  | .local _ .vmem, ⟨47, _⟩ => ⟨S2000x40, .f32⟩
  | .local _ .vmem, ⟨48, _⟩ => ⟨S2000x40, .f32⟩
  | .local _ .vmem, ⟨49, _⟩ => ⟨S2000x1, .f32⟩
  | .local _ .vmem, ⟨50, _⟩ => ⟨S2000x1, .f32⟩
  | .local _ .vmem, ⟨51, _⟩ => ⟨S2000x40, .f32⟩
  | .local _ .vmem, ⟨52, _⟩ => ⟨S2000x40, .f32⟩
  | .local _ .vmem, ⟨53, _⟩ => ⟨S1x40, .f32⟩
  | .local _ .vmem, ⟨54, _⟩ => ⟨S2000x40, .f32⟩
  | .local _ .vmem, ⟨55, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42_0 : Ref sig .tc := ⟨.hbm, 62, rfl⟩
abbrev main_v42_1 : Ref sig .tc := ⟨.hbm, 63, rfl⟩
abbrev main_v42_2 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem4_1 : DmaSem sig := 34
abbrev cc3_sem5_0 : DmaSem sig := 35
abbrev cc3_sem5_1 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem3_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem4_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x40 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x40 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x40 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S2000x1_S2000x128 : S2000x1.Broadcasts S2000x128
  slices_S2x128x40_S1x128x40_0_0_0 : S2x128x40.Slices ![0, 0, 0] S1x128x40
  shapeCasts_S1x128x40_S128x40 : S1x128x40.ShapeCasts S128x40
  slices_S2x128x40_S1x128x40_1_0_0 : S2x128x40.Slices ![1, 0, 0] S1x128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  inb_S4000x40_S4000x40_0_0 : ∀ a, (![0, 0] : Fin 2 → Nat) a + S4000x40.size a ≤ S4000x40.size a
  h_S4000x40 : 0 < S4000x40.numel
  shapeCasts_S4000x40_S4000x40 : S4000x40.ShapeCasts S4000x40
  broadcasts_S4000x1_S4000x40 : S4000x1.Broadcasts S4000x40
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  broadcasts_S2000x1_S2000x40 : S2000x1.Broadcasts S2000x40
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x40_S2000x40_1_0_0_1_n_n_wf : DotDims.WF S2000x128 S128x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1600000x128.size a
  hwx1_0 : ∀ i : grid1.Coords, EltTy.bits .f32 = 32 ∨ (Rect.block (s := S1600000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S1600000x128.size a
  hwx1_1 : ∀ i : grid1.Coords, EltTy.bits .f32 = 32 ∨ (Rect.block (s := S1600000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S1600000x1.size a
  hwx1_2 : ∀ i : grid1.Coords, EltTy.bits .f32 = 32 ∨ (Rect.block (s := S1600000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S1600000x128.size a
  hwx1_3 : ∀ i : grid1.Coords, EltTy.bits .f32 = 32 ∨ (Rect.block (s := S1600000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x40.size a ≤ S128x40.size a
  hwx3_2 : ∀ i : grid3.Coords, EltTy.bits .f32 = 32 ∨ (Rect.block (s := S128x40) S128x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x40.size a ≤ S100000x40.size a
  hwx3_4 : ∀ i : grid3.Coords, EltTy.bits .f32 = 32 ∨ (Rect.block (s := S100000x40) S2000x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x40.size a ≤ S100000x40.size a
  hwx3_5 : ∀ i : grid3.Coords, EltTy.bits .f32 = 32 ∨ (Rect.block (s := S100000x40) S2000x40.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x40.size a ≤ S100000x40.size a
  hwx3_6 : ∀ i : grid3.Coords, EltTy.bits .f32 = 32 ∨ (Rect.block (s := S100000x40) S2000x40.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x40.size a ≤ S1600000x40.size a
  hwx4_0 : ∀ i : grid4.Coords, EltTy.bits .f32 = 32 ∨ (Rect.block (s := S1600000x40) S4000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x40.size a ≤ S1600000x40.size a
  hwx4_1 : ∀ i : grid4.Coords, EltTy.bits .f32 = 32 ∨ (Rect.block (s := S1600000x40) S4000x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S1600000x1.size a
  hwx4_2 : ∀ i : grid4.Coords, EltTy.bits .f32 = 32 ∨ (Rect.block (s := S1600000x1) S4000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x40.size a ≤ S1600000x40.size a
  hwx4_3 : ∀ i : grid4.Coords, EltTy.bits .f32 = 32 ∨ (Rect.block (s := S1600000x40) S4000x40.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S100000x40.size a
  hwx5_0 : ∀ i : grid5.Coords, EltTy.bits .f32 = 32 ∨ (Rect.block (s := S100000x40) S2000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S100000x40.size a
  hwx5_2 : ∀ i : grid5.Coords, EltTy.bits .f32 = 32 ∨ (Rect.block (s := S100000x40) S2000x40.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x40.size a ≤ S1x40.size a
  hwx5_3 : ∀ i : grid5.Coords, EltTy.bits .f32 = 32 ∨ (Rect.block (s := S1x40) S1x40.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x40.size a ≤ S100000x40.size a
  hwx5_4 : ∀ i : grid5.Coords, EltTy.bits .f32 = 32 ∨ (Rect.block (s := S100000x40) S2000x40.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_2) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17_2) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v37) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S128x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42_0) S2000x40.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v42_1) S2000x40.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v42_2) S2000x40.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v49) S4000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S4000x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v57) S4000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v60) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42_2) S2000x40.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v61) S1x40.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S2000x40.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S2x128x128 : Shape := ⟨3, ![2, 128, 128]⟩
abbrev S128x128 : Shape := ⟨2, ![128, 128]⟩
abbrev S128 : Shape := ⟨1, ![128]⟩
abbrev S2x128x40 : Shape := ⟨3, ![2, 128, 40]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1x128x128 : Shape := ⟨3, ![1, 128, 128]⟩
abbrev S_ : Shape := ⟨0, ![]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x128x40 : Shape := ⟨3, ![1, 128, 40]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S2x128x128, .f32⟩
  | 4 => ⟨S128x128, .f32⟩
  | 5 => ⟨S128, .f32⟩
  | 6 => ⟨S2x128x40, .f32⟩
  | 7 => ⟨S128x40, .f32⟩
  | 8 => ⟨S40, .f32⟩
  | 9 => ⟨S1x1600000, .i32⟩
  | 10 => ⟨S1600000, .i32⟩
  | 11 => ⟨S1x1600000, .i32⟩
  | 12 => ⟨S1600000, .i32⟩
  | 13 => ⟨S1x128x128, .f32⟩
  | 14 => ⟨S128x128, .f32⟩
  | 15 => ⟨S100000x128, .f32⟩
  | 16 => ⟨S1x128x128, .f32⟩
  | 17 => ⟨S128x128, .f32⟩
  | 18 => ⟨S100000x128, .f32⟩
  | 19 => ⟨S1600000, .f32⟩
  | 20 => ⟨S_, .f32⟩
  | 21 => ⟨S1600000, .f32⟩
  | 22 => ⟨S1600000, .f32⟩
  | 23 => ⟨S1600000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S1600000x128, .f32⟩
  | 34 => ⟨S1600000x128, .f32⟩
  | 35 => ⟨S1600000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S1600000x128, .f32⟩
  | 46 => ⟨S1600000x128, .f32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S_, .f32⟩
  | 53 => ⟨S1600000, .f32⟩
  | 54 => ⟨S_, .f32⟩
  | 55 => ⟨S100000, .f32⟩
  | 56 => ⟨S1600000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .i1⟩
  | 72 => ⟨S_, .f32⟩
  | 73 => ⟨S100000x128, .f32⟩
  | 74 => ⟨S100000x128, .i1⟩
  | 75 => ⟨S_, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S1x128x40, .f32⟩
  | 85 => ⟨S128x40, .f32⟩
  | 86 => ⟨S100000x40, .f32⟩
  | 87 => ⟨S1x128x40, .f32⟩
  | 88 => ⟨S128x40, .f32⟩
  | 89 => ⟨S100000x40, .f32⟩
  | 90 => ⟨S1600000, .f32⟩
  | 91 => ⟨S_, .f32⟩
  | 92 => ⟨S1600000, .f32⟩
  | 93 => ⟨S1600000, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x40, .f32⟩
  | 104 => ⟨S1600000x40, .f32⟩
  | 105 => ⟨S1600000x40, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x40, .f32⟩
  | 116 => ⟨S1600000x40, .f32⟩
  | 117 => ⟨S1600000x40, .f32⟩
  | 118 => ⟨S1600000x40, .f32⟩
  | 119 => ⟨S_, .f32⟩
  | 120 => ⟨S100000x40, .f32⟩
  | 121 => ⟨S1600000x1, .i32⟩
  | 122 => ⟨S100000x40, .f32⟩
  | 123 => ⟨S_, .f32⟩
  | 124 => ⟨S1600000, .f32⟩
  | 125 => ⟨S_, .f32⟩
  | 126 => ⟨S100000, .f32⟩
  | 127 => ⟨S1600000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x40, .f32⟩
  | 6 => ⟨S100000x40, .f32⟩
  | 7 => ⟨S100000x40, .f32⟩
  | 8 => ⟨S100000x40, .f32⟩
  | 9 => ⟨S1x40, .f32⟩
  | 10 => ⟨S100000x40, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_cst_1 : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_v4 : Ref sig .tc := ⟨.hbm, 78, rfl⟩
abbrev main_call0_v5 : Ref sig .tc := ⟨.hbm, 79, rfl⟩
abbrev main_call0_cst_2 : Ref sig .tc := ⟨.hbm, 80, rfl⟩
abbrev main_call0_v6 : Ref sig .tc := ⟨.hbm, 81, rfl⟩
abbrev main_call0_v7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_8 : Ref sig .tc := ⟨.hbm, 95, rfl⟩
abbrev main_v62 : Ref sig .tc := ⟨.hbm, 96, rfl⟩
abbrev main_v63 : Ref sig .tc := ⟨.hbm, 97, rfl⟩
abbrev main_c_9 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_10 : Ref sig .tc := ⟨.hbm, 107, rfl⟩
abbrev main_v72 : Ref sig .tc := ⟨.hbm, 108, rfl⟩
abbrev main_v73 : Ref sig .tc := ⟨.hbm, 109, rfl⟩
abbrev main_c_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_12 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_13 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_15 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x40_S1x128x40_0_0_0 : S2x128x40.Slices ![0, 0, 0] S1x128x40
  shapeCasts_S1x128x40_S128x40 : S1x128x40.ShapeCasts S128x40
  slices_S2x128x40_S1x128x40_1_0_0 : S2x128x40.Slices ![1, 0, 0] S1x128x40
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result NAMED.

  The program is six pipelined regions among stretches of host operations. Its frame certificate carries the
  TensorCore's buffer contents through the program as a fold `W0, W1, …, W12` — a host stretch applies its
  operations, a region replaces its output arrays by what its write-backs leave — and reads the final state
  against `W12`. The frame claim keeps only the nine argument arrays of that reading. Here the same launch is
  read at one more buffer, the result `main_v62`: every weakly fair execution terminates, nothing faults, the
  result array ends at `W12 … main_v62` and the arguments end as launched.
-/
import proofs.«121759_j17231408791938_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last
    boundary's contents `W12` read at `main_v62`, and every argument array ends as launched. -/
theorem run : θ_run defs (onTc (τ := τ) (main (F := F))) ⟨m, fun _ => 0, ρ⟩ (fun r => ∀ c : Dev nD,
      r.2.mem ((c.tc : Thread nD τ).loc main_v62) = W12 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v62 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.ValueRun

end
-- ==== Proof.Spec.lean ====
/-
  The layer's mathematics, as functions of whole arrays read index by index.

  One layer of the network takes node features `x` (rows = nodes), and for every edge `e` from node `s e` to
  node `d e` with coordinate `u e ∈ [0, 1]` forms the message `(1 - u e) · (x W₀)[s e] + u e · (x W₁)[s e]` (a linear
  B-spline blend of two transforms of the source node); a node's output is the mean of the messages arriving at it
  (their sum times the reciprocal of the count, the count taken as at least 1) plus `x R` plus a bias row, and the
  first layer is followed by `ELU`. The four dense stages of that — the transform, the blend, the combination and
  the activation — are stated here once, over any number of rows and lanes; which rows are gathered and where the
  messages are summed is the host's business and is not stated here.
-/
import Idealize.ShloMosaic.PureOps.Ideal
import Idealize.ShloMosaic.Lib.ValueIdx

noncomputable section

namespace Cert.Spline

open Idealize.ShloMosaic Idealize.ShloMosaic.ValueIdx

variable {F : FTy → Type} [FloatOps F]

/-- The blend of two arrays by a column: at the index `i`, with `r` its row, `(1 - u r) · a i + u r · b i`. -/
def blend {n k : Nat} (a b : (⟨2, ![n, k]⟩ : Shape).Idx → Elt F .f32) (u : (⟨2, ![n, 1]⟩ : Shape).Idx → Elt F .f32) :
    (⟨2, ![n, k]⟩ : Shape).Idx → Elt F .f32 :=
  fun i => FloatOps.addf (FloatOps.mulf (FloatOps.subf (Scalar.ofBits .f32 0x3F800000#32) (u (ix2 (i 0) (0 : Fin 1)))) (a i))
    (FloatOps.mulf (u (ix2 (i 0) (0 : Fin 1))) (b i))

/-- The combination: at the index `i`, with `r` its row and `l` its lane, `(s i · c r + x i) + β l` — the summed
    messages scaled by the row's reciprocal count, plus the node's own term, plus the bias row. -/
def combine {n k : Nat} (s : (⟨2, ![n, k]⟩ : Shape).Idx → Elt F .f32) (c : (⟨2, ![n, 1]⟩ : Shape).Idx → Elt F .f32)
    (x : (⟨2, ![n, k]⟩ : Shape).Idx → Elt F .f32) (β : (⟨2, ![1, k]⟩ : Shape).Idx → Elt F .f32) :
    (⟨2, ![n, k]⟩ : Shape).Idx → Elt F .f32 :=
  fun i => FloatOps.addf (FloatOps.addf (FloatOps.mulf (s i) (c (ix2 (i 0) (0 : Fin 1)))) (x i)) (β (ix2 (0 : Fin 1) (i 1)))

/-- `ELU` of one value as the kernel spells it: `v` where `v > 0`, else `exp v - 1`. -/
def elu (v : Elt F .f32) : Elt F .f32 :=
  Scalar.select (FloatOps.cmpf .ogt v (Scalar.ofBits .f32 0x00000000#32)) v
    (FloatOps.subf (FloatOps.exp v) (Scalar.ofBits .f32 0x3F800000#32))

/-- The combination followed by `ELU`, entry by entry. -/
def combineElu {n k : Nat} (s : (⟨2, ![n, k]⟩ : Shape).Idx → Elt F .f32) (c : (⟨2, ![n, 1]⟩ : Shape).Idx → Elt F .f32)
    (x : (⟨2, ![n, k]⟩ : Shape).Idx → Elt F .f32) (β : (⟨2, ![1, k]⟩ : Shape).Idx → Elt F .f32) :
    (⟨2, ![n, k]⟩ : Shape).Idx → Elt F .f32 :=
  fun i => elu (combine s c x β i)

/-- The dense transform on the extended reals: row `r`, lane `l` of `x w` is `∑ j, x r j · w j l` over the 128
    input lanes. -/
def dense {n k : Nat} (x : (⟨2, ![n, 128]⟩ : Shape).Idx → EReal) (w : (⟨2, ![128, k]⟩ : Shape).Idx → EReal) :
    (⟨2, ![n, k]⟩ : Shape).Idx → EReal :=
  fun i => ∑ j : Fin 128, x (ix2 (i 0) j) * w (ix2 j (i 1))

end Cert.Spline

end
-- ==== Proof.Dense128.lean ====
/-
  Region 0: three dense transforms of one 100000 × 128 array at 128 output lanes, each as ONE function of the arrays
  the region finds.

  The region's grid has 50 points; point `t` stages rows `2000 t … 2000 t + 1999` of the array `x`
  (100000 × 128) and the three whole 128 × 128 weight matrices, and writes back the same rows of its three outputs.
  Its body computes, for each weight matrix `w`, the product of the staged block of `x` by `w` accumulated into
  zero. On the extended reals the changes of number format are the identity and the zero accumulator drops, so the
  entry at row `p`, lane `q` of a block is `∑ j, x p j · w j q` over the 128 input lanes. Every row is in exactly
  the block of point `p / 2000`, so each output array ends holding the whole product `x w`.
-/
import proofs.«121759_j17231408791938_1_alg».proof.Proof.Gen.KernelIdeal.Frame
import Idealize.ShloMosaic.Lib.Pipeline.Value
import Idealize.ShloMosaic.Lib.ValueIdx
import Idealize.ShloMosaic.PureOps.Ideal.Laws
import proofs.«121759_j17231408791938_1_alg».proof.Proof.Spec

set_option maxRecDepth 16384

noncomputable section

namespace Cert.KernelIdeal.Dense128

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spline

theorem hz : (![0, 0] : Fin 2 → Nat) = fun _ => 0 := funext fun a => by fin_cases a <;> rfl

/-- A product of a 2000 × 128 block by a 128 × 128 matrix, accumulated into zero, read at row `p`, lane `q`:
    the format changes are the identity on extended reals, the zero accumulator drops, and the contraction
    index is its one coordinate, so the entry is `∑ j, x p j · w j q`. -/
theorem matmul_apply (x : FVec Ideal S2000x128 .f32) (w : FVec Ideal S128x128 .f32) (p : Fin 2000) (q : Fin 128) :
    matmul (F := Ideal) dot_S2000x128_S128x128_S2000x128_1_0_0_1_n_n none (truncf .bf16 x bitsLt_bf16_f32)
        (truncf .bf16 w bitsLt_bf16_f32) (constant (F := Ideal) S2000x128 .f32 0x00000000#32) (ix2 p q)
      = ∑ j : Fin 128, x (ix2 p j) * w (ix2 j q) := by
  show FloatOps.matmul dot_S2000x128_S128x128_S2000x128_1_0_0_1_n_n none (truncf .bf16 x bitsLt_bf16_f32)
      (truncf .bf16 w bitsLt_bf16_f32) (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  show x (dot_S2000x128_S128x128_S2000x128_1_0_0_1_n_n.lhsIdx (ix2 p q) ((contrEquiv1 _ 128 rfl rfl).symm c))
      * w (dot_S2000x128_S128x128_S2000x128_1_0_0_1_n_n.rhsIdx (ix2 p q) ((contrEquiv1 _ 128 rfl rfl).symm c)) = _
  rw [l2, r2]

/-- The body's arithmetic for output 0 on one block, read at row `p`, lane `q`: the block of `x` times the weight matrix there. -/
theorem pay2_apply (x : Vec Ideal S2000x128 .f32) (w : Vec Ideal S128x128 .f32) (p : Fin 2000) (q : Fin 128) :
    k0_pay2 (F := Ideal) x w (ix2 p q) = ∑ j : Fin 128, x (ix2 p j) * w (ix2 j q) := by
  unfold k0_pay2 k0_pay1
  simp only [shapeCast_self]
  exact matmul_apply x w p q

/-- The body's arithmetic for output 1 on one block, read at row `p`, lane `q`: the block of `x` times the weight matrix there. -/
theorem pay3_apply (x : Vec Ideal S2000x128 .f32) (w : Vec Ideal S128x128 .f32) (p : Fin 2000) (q : Fin 128) :
    k0_pay3 (F := Ideal) x w (ix2 p q) = ∑ j : Fin 128, x (ix2 p j) * w (ix2 j q) := by
  unfold k0_pay3 k0_pay1
  simp only [shapeCast_self]
  exact matmul_apply x w p q

/-- The body's arithmetic for output 2 on one block, read at row `p`, lane `q`: the block of `x` times the weight matrix there. -/
theorem pay4_apply (x : Vec Ideal S2000x128 .f32) (w : Vec Ideal S128x128 .f32) (p : Fin 2000) (q : Fin 128) :
    k0_pay4 (F := Ideal) x w (ix2 p q) = ∑ j : Fin 128, x (ix2 p j) * w (ix2 j q) := by
  unfold k0_pay4 k0_pay1
  exact matmul_apply x w p q

variable (V : (c : Dev nD) → (b : Ref sig .tc) → Buf (Elt Ideal) ((c : Thread nD τ).loc b))

/-- The printed index maps over the grid: the block index of `x` and of the three outputs is the point's number on
    the row axis and zero on the lane axis; the three weight matrices are whole, at block index zero on both axes. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back to output 0 is its block of the product of the arrays the region finds. -/
theorem flushed_eq4 (c : Dev nD) (t : Fin cfg0.N) :
    (dat0 V c).flushed 4 t = ((cfg0.win 4).blk t).view.read (Elt Ideal) (dense (V c main_arg0) (V c main_v14)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz]
  obtain ⟨e00, e01, e10, e11, e20, e21, e30, e31, e40, e41, e50, e51, e60, e61⟩ := idx_facts t
  funext j
  obtain ⟨p, q, rfl⟩ : ∃ (p : Fin 2000) (q : Fin 128), j = ix2 p q := ⟨j 0, j 1, eq_ix2 j⟩
  refine (pay2_apply _ _ p q).trans ?_
  have key : ∀ (X : S100000x128.Idx → EReal) (W : S128x128.Idx → EReal),
      (∑ k : Fin 128, X (((cfg0.win 0).blk t).view.emb (ix2 p k)) * W (((cfg0.win 1).blk t).view.emb (ix2 k q)))
        = ∑ k : Fin 128, X (ix2 ((((cfg0.win 4).blk t).view.emb (ix2 p q)) 0) k) * W (ix2 k ((((cfg0.win 4).blk t).view.emb (ix2 p q)) 1)) := by
    intro X W
    refine Finset.sum_congr rfl fun k _ => ?_
    have h0 : ((cfg0.win 0).blk t).view.emb (ix2 p k) = ix2 ((((cfg0.win 4).blk t).view.emb (ix2 p q)) 0) k := by
      funext a; apply Fin.ext
      match a with
      | ⟨0, _⟩ => show win0_0.index t (0 : Fin 2) * 2000 + 1 * p.val = win0_4.index t (0 : Fin 2) * 2000 + 1 * p.val; omega
      | ⟨1, _⟩ => show win0_0.index t (1 : Fin 2) * 128 + 1 * k.val = k.val; omega
    have h1 : ((cfg0.win 1).blk t).view.emb (ix2 k q) = ix2 k ((((cfg0.win 4).blk t).view.emb (ix2 p q)) 1) := by
      funext a; apply Fin.ext
      match a with
      | ⟨0, _⟩ => show win0_1.index t (0 : Fin 2) * 128 + 1 * k.val = k.val; omega
      | ⟨1, _⟩ => show win0_1.index t (1 : Fin 2) * 128 + 1 * q.val = win0_4.index t (1 : Fin 2) * 128 + 1 * q.val; omega
    rw [h0, h1]
    rfl
  exact key (V c main_arg0) (V c main_v14)

/-- An index of output 0 is in point `t`'s block iff each coordinate is in the block's range on its axis. -/
theorem mem_blk4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v17_0).slice (win0_4.rect t)).set ↔ _
  rw [View.set_slice_whole, Rect.mem_set_unit]
  exact Iff.rfl

/-- Every index of output 0 is in the block of the point numbered by its row divided by 2000. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 50 := N_0
  have ht : (i 0).val / 2000 < cfg0.N := by show (i 0).val / 2000 < grid0.N; omega
  obtain ⟨-, -, -, -, -, -, -, -, e40, e41, e50, e51, e60, e61⟩ := idx_facts ⟨(i 0).val / 2000, ht⟩
  refine ⟨⟨(i 0).val / 2000, ht⟩, flush0_4 _, ?_⟩
  rw [mem_blk4]
  intro a
  match a with
  | ⟨0, _⟩ => show win0_4.index ⟨(i 0).val / 2000, ht⟩ (0 : Fin 2) * 2000 ≤ (i 0).val ∧ (i 0).val < win0_4.index ⟨(i 0).val / 2000, ht⟩ (0 : Fin 2) * 2000 + 2000; rw [e40]; show (i 0).val / 2000 * 2000 ≤ (i 0).val ∧ (i 0).val < (i 0).val / 2000 * 2000 + 2000; omega
  | ⟨1, _⟩ => show win0_4.index ⟨(i 0).val / 2000, ht⟩ (1 : Fin 2) * 128 ≤ (i 1).val ∧ (i 1).val < win0_4.index ⟨(i 0).val / 2000, ht⟩ (1 : Fin 2) * 128 + 128; rw [e41]; omega

/-- Output 0 after the region: the product of `x` by the weight matrix, of the arrays the region finds. -/
theorem final4 (c : Dev nD) :
    (dat0 V c).arrAt 4 cfg0.N = dense (V c main_arg0) (V c main_v14) :=
  (dat0 V c).arrAt_eq_of_cover 4 _ (fun t _ => flushed_eq4 V c t) (cover4)

/-- What point `t` writes back to output 1 is its block of the product of the arrays the region finds. -/
theorem flushed_eq5 (c : Dev nD) (t : Fin cfg0.N) :
    (dat0 V c).flushed 5 t = ((cfg0.win 5).blk t).view.read (Elt Ideal) (dense (V c main_arg0) (V c main_v16)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz]
  obtain ⟨e00, e01, e10, e11, e20, e21, e30, e31, e40, e41, e50, e51, e60, e61⟩ := idx_facts t
  funext j
  obtain ⟨p, q, rfl⟩ : ∃ (p : Fin 2000) (q : Fin 128), j = ix2 p q := ⟨j 0, j 1, eq_ix2 j⟩
  refine (pay3_apply _ _ p q).trans ?_
  have key : ∀ (X : S100000x128.Idx → EReal) (W : S128x128.Idx → EReal),
      (∑ k : Fin 128, X (((cfg0.win 0).blk t).view.emb (ix2 p k)) * W (((cfg0.win 2).blk t).view.emb (ix2 k q)))
        = ∑ k : Fin 128, X (ix2 ((((cfg0.win 5).blk t).view.emb (ix2 p q)) 0) k) * W (ix2 k ((((cfg0.win 5).blk t).view.emb (ix2 p q)) 1)) := by
    intro X W
    refine Finset.sum_congr rfl fun k _ => ?_
    have h0 : ((cfg0.win 0).blk t).view.emb (ix2 p k) = ix2 ((((cfg0.win 5).blk t).view.emb (ix2 p q)) 0) k := by
      funext a; apply Fin.ext
      match a with
      | ⟨0, _⟩ => show win0_0.index t (0 : Fin 2) * 2000 + 1 * p.val = win0_5.index t (0 : Fin 2) * 2000 + 1 * p.val; omega
      | ⟨1, _⟩ => show win0_0.index t (1 : Fin 2) * 128 + 1 * k.val = k.val; omega
    have h1 : ((cfg0.win 2).blk t).view.emb (ix2 k q) = ix2 k ((((cfg0.win 5).blk t).view.emb (ix2 p q)) 1) := by
      funext a; apply Fin.ext
      match a with
      | ⟨0, _⟩ => show win0_2.index t (0 : Fin 2) * 128 + 1 * k.val = k.val; omega
      | ⟨1, _⟩ => show win0_2.index t (1 : Fin 2) * 128 + 1 * q.val = win0_5.index t (1 : Fin 2) * 128 + 1 * q.val; omega
    rw [h0, h1]
    rfl
  exact key (V c main_arg0) (V c main_v16)

/-- An index of output 1 is in point `t`'s block iff each coordinate is in the block's range on its axis. -/
theorem mem_blk5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v17_1).slice (win0_5.rect t)).set ↔ _
  rw [View.set_slice_whole, Rect.mem_set_unit]
  exact Iff.rfl

/-- Every index of output 1 is in the block of the point numbered by its row divided by 2000. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 50 := N_0
  have ht : (i 0).val / 2000 < cfg0.N := by show (i 0).val / 2000 < grid0.N; omega
  obtain ⟨-, -, -, -, -, -, -, -, e40, e41, e50, e51, e60, e61⟩ := idx_facts ⟨(i 0).val / 2000, ht⟩
  refine ⟨⟨(i 0).val / 2000, ht⟩, flush0_5 _, ?_⟩
  rw [mem_blk5]
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; rw [e50]; show (i 0).val / 2000 * 2000 ≤ (i 0).val ∧ (i 0).val < (i 0).val / 2000 * 2000 + 2000; omega
  | ⟨1, _⟩ => show win0_5.index ⟨(i 0).val / 2000, ht⟩ (1 : Fin 2) * 128 ≤ (i 1).val ∧ (i 1).val < win0_5.index ⟨(i 0).val / 2000, ht⟩ (1 : Fin 2) * 128 + 128; rw [e51]; omega

/-- Output 1 after the region: the product of `x` by the weight matrix, of the arrays the region finds. -/
theorem final5 (c : Dev nD) :
    (dat0 V c).arrAt 5 cfg0.N = dense (V c main_arg0) (V c main_v16) :=
  (dat0 V c).arrAt_eq_of_cover 5 _ (fun t _ => flushed_eq5 V c t) (cover5)

/-- What point `t` writes back to output 2 is its block of the product of the arrays the region finds. -/
theorem flushed_eq6 (c : Dev nD) (t : Fin cfg0.N) :
    (dat0 V c).flushed 6 t = ((cfg0.win 6).blk t).view.read (Elt Ideal) (dense (V c main_arg0) (V c main_arg4)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz]
  obtain ⟨e00, e01, e10, e11, e20, e21, e30, e31, e40, e41, e50, e51, e60, e61⟩ := idx_facts t
  funext j
  obtain ⟨p, q, rfl⟩ : ∃ (p : Fin 2000) (q : Fin 128), j = ix2 p q := ⟨j 0, j 1, eq_ix2 j⟩
  refine (pay4_apply _ _ p q).trans ?_
  have key : ∀ (X : S100000x128.Idx → EReal) (W : S128x128.Idx → EReal),
      (∑ k : Fin 128, X (((cfg0.win 0).blk t).view.emb (ix2 p k)) * W (((cfg0.win 3).blk t).view.emb (ix2 k q)))
        = ∑ k : Fin 128, X (ix2 ((((cfg0.win 6).blk t).view.emb (ix2 p q)) 0) k) * W (ix2 k ((((cfg0.win 6).blk t).view.emb (ix2 p q)) 1)) := by
    intro X W
    refine Finset.sum_congr rfl fun k _ => ?_
    have h0 : ((cfg0.win 0).blk t).view.emb (ix2 p k) = ix2 ((((cfg0.win 6).blk t).view.emb (ix2 p q)) 0) k := by
      funext a; apply Fin.ext
      match a with
      | ⟨0, _⟩ => show win0_0.index t (0 : Fin 2) * 2000 + 1 * p.val = win0_6.index t (0 : Fin 2) * 2000 + 1 * p.val; omega
      | ⟨1, _⟩ => show win0_0.index t (1 : Fin 2) * 128 + 1 * k.val = k.val; omega
    have h1 : ((cfg0.win 3).blk t).view.emb (ix2 k q) = ix2 k ((((cfg0.win 6).blk t).view.emb (ix2 p q)) 1) := by
      funext a; apply Fin.ext
      match a with
      | ⟨0, _⟩ => show win0_3.index t (0 : Fin 2) * 128 + 1 * k.val = k.val; omega
      | ⟨1, _⟩ => show win0_3.index t (1 : Fin 2) * 128 + 1 * q.val = win0_6.index t (1 : Fin 2) * 128 + 1 * q.val; omega
    rw [h0, h1]
    rfl
  exact key (V c main_arg0) (V c main_arg4)

/-- An index of output 2 is in point `t`'s block iff each coordinate is in the block's range on its axis. -/
theorem mem_blk6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v17_2).slice (win0_6.rect t)).set ↔ _
  rw [View.set_slice_whole, Rect.mem_set_unit]
  exact Iff.rfl

/-- Every index of output 2 is in the block of the point numbered by its row divided by 2000. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 50 := N_0
  have ht : (i 0).val / 2000 < cfg0.N := by show (i 0).val / 2000 < grid0.N; omega
  obtain ⟨-, -, -, -, -, -, -, -, e40, e41, e50, e51, e60, e61⟩ := idx_facts ⟨(i 0).val / 2000, ht⟩
  refine ⟨⟨(i 0).val / 2000, ht⟩, flush0_6 _, ?_⟩
  rw [mem_blk6]
  intro a
  match a with
  | ⟨0, _⟩ => show win0_6.index ⟨(i 0).val / 2000, ht⟩ (0 : Fin 2) * 2000 ≤ (i 0).val ∧ (i 0).val < win0_6.index ⟨(i 0).val / 2000, ht⟩ (0 : Fin 2) * 2000 + 2000; rw [e60]; show (i 0).val / 2000 * 2000 ≤ (i 0).val ∧ (i 0).val < (i 0).val / 2000 * 2000 + 2000; omega
  | ⟨1, _⟩ => show win0_6.index ⟨(i 0).val / 2000, ht⟩ (1 : Fin 2) * 128 ≤ (i 1).val ∧ (i 1).val < win0_6.index ⟨(i 0).val / 2000, ht⟩ (1 : Fin 2) * 128 + 128; rw [e61]; omega

/-- Output 2 after the region: the product of `x` by the weight matrix, of the arrays the region finds. -/
theorem final6 (c : Dev nD) :
    (dat0 V c).arrAt 6 cfg0.N = dense (V c main_arg0) (V c main_arg4) :=
  (dat0 V c).arrAt_eq_of_cover 6 _ (fun t _ => flushed_eq6 V c t) (cover6)

end Cert.KernelIdeal.Dense128

end
-- ==== Proof.Blend128.lean ====
/-
  Region 1: the blend of the two gathered edge-feature arrays by the edge coordinate, as ONE function of the
  arrays the region finds.

  The region's grid has 400 points; point `t` stages rows `4000 t … 4000 t + 3999` of the two edge-feature arrays
  (1600000 × 128) and of the edge-coordinate column (1600000 × 1), and writes back the same rows of its output.
  Its body computes, entry by entry, `(1 - u) · a + u · b` with `u` the row's coordinate: a pointwise map whose
  only layout step is reading the column across the row. So the output array ends holding, at row `p` and lane
  `q`, `(1 - u p) · a p q + u p · b p q` of the arrays as the region finds them: every row is in exactly the
  block of point `p / 4000`.
-/
import proofs.«121759_j17231408791938_1_alg».proof.Proof.Gen.KernelIdeal.Frame
import Idealize.ShloMosaic.Lib.Pipeline.Value
import Idealize.ShloMosaic.Lib.ValueIdx
import proofs.«121759_j17231408791938_1_alg».proof.Proof.Spec

set_option maxRecDepth 16384

noncomputable section

namespace Cert.KernelIdeal.Blend128

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spline

variable {F : FTy → Type} [FloatOps F]

theorem hz : (![0, 0] : Fin 2 → Nat) = fun _ => 0 := funext fun a => by fin_cases a <;> rfl

/-- The body's arithmetic on one block, read at row `p`, lane `q`, is the blend of the three blocks there. -/
theorem pay_apply (x0 x1 : Vec F S4000x128 .f32) (x2 : Vec F S4000x1 .f32) (p : Fin 4000) (q : Fin 128) :
    k1_pay1 x0 x1 x2 (ix2 p q) = blend (n := 4000) (k := 128) x0 x1 x2 (ix2 p q) := by
  unfold k1_pay1 blend
  simp only [shapeCast_self]
  have hb : ∀ (v : S4000x1.Idx → Elt F .f32), broadcastTo S4000x128 v broadcasts_S4000x1_S4000x128 (ix2 p q) = v (ix2 p (0 : Fin 1)) := fun v =>
    broadcastTo_apply v broadcasts_S4000x1_S4000x128 (ix2 p q) (ix2 p (0 : Fin 1))
      (fun a => by match a with | ⟨0, _⟩ => rfl | ⟨1, _⟩ => rfl)
  show FloatOps.addf (FloatOps.mulf (broadcastTo S4000x128 (subf (broadcast S4000x1 (Scalar.ofBits .f32 0x3F800000#32)) x2) broadcasts_S4000x1_S4000x128 (ix2 p q)) (x0 (ix2 p q)))
      (FloatOps.mulf (broadcastTo S4000x128 x2 broadcasts_S4000x1_S4000x128 (ix2 p q)) (x1 (ix2 p q))) = _
  rw [hb, hb]
  rfl

variable (V : (c : Dev nD) → (b : Ref sig .tc) → Buf (Elt F) ((c : Thread nD τ).loc b))

/-- The printed index maps over the grid: every window's block index is the point's number on the row axis and
    zero on the lane axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is its block of the blend of the arrays the region finds. -/
theorem flushed_eq (c : Dev nD) (t : Fin cfg1.N) :
    (dat1 V c).flushed 3 t = ((cfg1.win 3).blk t).view.read (Elt F) (blend (V c main_v24) (V c main_v31) (V c main_arg2)) := by
  show (cfg1.win 3).cut (grid1.coords t) ((dat1 V c).after 3 t) = _
  rw [after1_3]
  unfold out1_3
  rw [View.canon_unit_zero hz]
  simp only [View.ld_unit_zero (S := S4000x128) hz, View.ld_unit_zero (S := S4000x1) hz]
  obtain ⟨e00, e01, e10, e11, e20, e21, e30, e31⟩ := idx_facts t
  funext j
  obtain ⟨p, q, rfl⟩ : ∃ (p : Fin 4000) (q : Fin 128), j = ix2 p q := ⟨j 0, j 1, eq_ix2 j⟩
  refine (pay_apply _ _ _ p q).trans ?_
  have h0 : ((cfg1.win 0).blk t).view.emb (ix2 p q) = ((cfg1.win 3).blk t).view.emb (ix2 p q) := by
    funext a; apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * q.val = win1_3.index t (1 : Fin 2) * 128 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 4000 + 1 * p.val = win1_3.index t (0 : Fin 2) * 4000 + 1 * p.val; omega
    | ⟨1, _⟩ => show win1_1.index t (1 : Fin 2) * 128 + 1 * q.val = win1_3.index t (1 : Fin 2) * 128 + 1 * q.val; omega
  have h2 : ((cfg1.win 2).blk t).view.emb (ix2 p (0 : Fin 1)) = ix2 ((((cfg1.win 3).blk t).view.emb (ix2 p q)) 0) (0 : Fin 1) := by
    funext a; apply Fin.ext
    match a with
    | ⟨0, _⟩ => show win1_2.index t (0 : Fin 2) * 4000 + 1 * p.val = win1_3.index t (0 : Fin 2) * 4000 + 1 * p.val; omega
    | ⟨1, _⟩ => show win1_2.index t (1 : Fin 2) * 1 + 1 * 0 = 0; omega
  unfold blend
  show FloatOps.addf (FloatOps.mulf (FloatOps.subf _ (V c main_arg2 (((cfg1.win 2).blk t).view.emb (ix2 p (0 : Fin 1))))) (V c main_v24 (((cfg1.win 0).blk t).view.emb (ix2 p q))))
      (FloatOps.mulf (V c main_arg2 (((cfg1.win 2).blk t).view.emb (ix2 p (0 : Fin 1)))) (V c main_v31 (((cfg1.win 1).blk t).view.emb (ix2 p q))))
    = FloatOps.addf (FloatOps.mulf (FloatOps.subf _ (V c main_arg2 (ix2 ((((cfg1.win 3).blk t).view.emb (ix2 p q)) 0) (0 : Fin 1)))) (V c main_v24 (((cfg1.win 3).blk t).view.emb (ix2 p q))))
      (FloatOps.mulf (V c main_arg2 (ix2 ((((cfg1.win 3).blk t).view.emb (ix2 p q)) 0) (0 : Fin 1))) (V c main_v31 (((cfg1.win 3).blk t).view.emb (ix2 p q))))
  rw [h0, h1, h2]
  rfl

/-- An index of the output array is in point `t`'s block iff each coordinate is in the block's range on its axis. -/
theorem mem_blk (t : Fin cfg1.N) (i : S1600000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v32).slice (win1_3.rect t)).set ↔ _
  rw [View.set_slice_whole, Rect.mem_set_unit]
  exact Iff.rfl

/-- Every index of the output array is in the block of the point numbered by its row divided by 4000. -/
theorem cover (i : S1600000x128.Idx) : ∃ t : Fin cfg1.N, (cfg1.win 3).flush t = true ∧ i ∈ ((cfg1.win 3).blk t).view.set := by
  have hi0 : (i 0).val < 1600000 := (i 0).isLt
  have hi1 : (i 1).val < 128 := (i 1).isLt
  have hN : grid1.N = 400 := N_1
  have ht : (i 0).val / 4000 < cfg1.N := by show (i 0).val / 4000 < grid1.N; omega
  obtain ⟨-, -, -, -, -, -, e30, e31⟩ := idx_facts ⟨(i 0).val / 4000, ht⟩
  refine ⟨⟨(i 0).val / 4000, ht⟩, flush1_3 _, ?_⟩
  rw [mem_blk]
  intro a
  match a with
  | ⟨0, _⟩ => show win1_3.index ⟨(i 0).val / 4000, ht⟩ (0 : Fin 2) * 4000 ≤ (i 0).val ∧ (i 0).val < win1_3.index ⟨(i 0).val / 4000, ht⟩ (0 : Fin 2) * 4000 + 4000; rw [e30]; show (i 0).val / 4000 * 4000 ≤ (i 0).val ∧ (i 0).val < (i 0).val / 4000 * 4000 + 4000; omega
  | ⟨1, _⟩ => show win1_3.index ⟨(i 0).val / 4000, ht⟩ (1 : Fin 2) * 128 ≤ (i 1).val ∧ (i 1).val < win1_3.index ⟨(i 0).val / 4000, ht⟩ (1 : Fin 2) * 128 + 128; rw [e31]; omega

/-- THE OUTPUT ARRAY after the region: the blend of the arrays the region finds. -/
theorem final (c : Dev nD) :
    (dat1 V c).arrAt 3 cfg1.N = blend (V c main_v24) (V c main_v31) (V c main_arg2) :=
  (dat1 V c).arrAt_eq_of_cover 3 _ (fun t _ => flushed_eq V c t) (cover)

end Cert.KernelIdeal.Blend128

end
-- ==== Proof.Combine128.lean ====
/-
  Region 2: the combination of the summed messages with the node's own term and the bias row, followed by the
  activation, as ONE function of the arrays the region finds.

  The region's grid has 50 points; point `t` stages rows `2000 t … 2000 t + 1999` of the summed-message array
  (100000 × 128), of the reciprocal-count column (100000 × 1) and of the node's own term (100000 × 128), and the
  whole bias row (1 × 128) at every point, and writes back the same rows of its output. Its body computes, entry
  by entry, `v = (s · c + x) + β` with `c` the row's reciprocal count and `β` the lane's bias, and then `v` where
  `v > 0` and `exp v - 1` elsewhere: a pointwise map whose only layout steps are reading the column across the row
  and the bias row down the column. So the output array ends holding, at row `p` and lane `q`, that value of the
  arrays as the region finds them: every row is in exactly the block of point `p / 2000`.
-/
import proofs.«121759_j17231408791938_1_alg».proof.Proof.Gen.KernelIdeal.Frame
import Idealize.ShloMosaic.Lib.Pipeline.Value
import Idealize.ShloMosaic.Lib.ValueIdx
import proofs.«121759_j17231408791938_1_alg».proof.Proof.Spec

set_option maxRecDepth 16384

noncomputable section

namespace Cert.KernelIdeal.Combine128

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spline

variable {F : FTy → Type} [FloatOps F]

theorem hz : (![0, 0] : Fin 2 → Nat) = fun _ => 0 := funext fun a => by fin_cases a <;> rfl

/-- The body's arithmetic on one block, read at row `p`, lane `q`, is the activated combination of the four blocks there:
    the column is read at row `p`, the bias row at lane `q`. -/
theorem pay_apply (x0 : Vec F S2000x128 .f32) (x1 : Vec F S2000x1 .f32) (x2 : Vec F S2000x128 .f32) (x3 : Vec F S1x128 .f32) (p : Fin 2000) (q : Fin 128) :
    k2_pay1 x0 x1 x2 x3 (ix2 p q) = combineElu (n := 2000) (k := 128) x0 x1 x2 x3 (ix2 p q) := by
  unfold k2_pay1 combineElu combine elu
  simp only [shapeCast_self]
  have hb : ∀ (v : S2000x1.Idx → Elt F .f32), broadcastTo S2000x128 v broadcasts_S2000x1_S2000x128 (ix2 p q) = v (ix2 p (0 : Fin 1)) := fun v =>
    broadcastTo_apply v broadcasts_S2000x1_S2000x128 (ix2 p q) (ix2 p (0 : Fin 1))
      (fun a => by match a with | ⟨0, _⟩ => rfl | ⟨1, _⟩ => rfl)
  have hr : ∀ (v : S1x128.Idx → Elt F .f32), broadcastTo S2000x128 v broadcasts_S1x128_S2000x128 (ix2 p q) = v (ix2 (0 : Fin 1) q) := fun v =>
    broadcastTo_apply v broadcasts_S1x128_S2000x128 (ix2 p q) (ix2 (0 : Fin 1) q)
      (fun a => by match a with | ⟨0, _⟩ => rfl | ⟨1, _⟩ => rfl)
  show Scalar.select (FloatOps.cmpf .ogt (FloatOps.addf (FloatOps.addf (FloatOps.mulf (x0 (ix2 p q)) (broadcastTo S2000x128 x1 broadcasts_S2000x1_S2000x128 (ix2 p q))) (x2 (ix2 p q))) (broadcastTo S2000x128 x3 broadcasts_S1x128_S2000x128 (ix2 p q))) (Scalar.ofBits .f32 0x00000000#32)) (FloatOps.addf (FloatOps.addf (FloatOps.mulf (x0 (ix2 p q)) (broadcastTo S2000x128 x1 broadcasts_S2000x1_S2000x128 (ix2 p q))) (x2 (ix2 p q))) (broadcastTo S2000x128 x3 broadcasts_S1x128_S2000x128 (ix2 p q)))
      (FloatOps.subf (FloatOps.exp (FloatOps.addf (FloatOps.addf (FloatOps.mulf (x0 (ix2 p q)) (broadcastTo S2000x128 x1 broadcasts_S2000x1_S2000x128 (ix2 p q))) (x2 (ix2 p q))) (broadcastTo S2000x128 x3 broadcasts_S1x128_S2000x128 (ix2 p q)))) (Scalar.ofBits .f32 0x3F800000#32)) = _
  rw [hb, hr]

variable (V : (c : Dev nD) → (b : Ref sig .tc) → Buf (Elt F) ((c : Thread nD τ).loc b))

/-- The printed index maps over the grid: the three row-blocked inputs' and the output's block index is the point's
    number on the row axis and zero on the lane axis; the bias row's is zero on both at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 1000000 in
/-- What point `t` writes back is its block of the activated combination of the arrays the region finds. -/
theorem flushed_eq (c : Dev nD) (t : Fin cfg2.N) :
    (dat2 V c).flushed 4 t = ((cfg2.win 4).blk t).view.read (Elt F) (combineElu (V c main_v35) (V c main_v12) (V c main_v17_2) (V c main_v36)) := by
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz, View.ld_unit_zero (S := S1x128) hz]
  obtain ⟨e00, e01, e10, e11, e20, e21, e30, e31, e40, e41⟩ := idx_facts t
  funext j
  obtain ⟨p, q, rfl⟩ : ∃ (p : Fin 2000) (q : Fin 128), j = ix2 p q := ⟨j 0, j 1, eq_ix2 j⟩
  refine (pay_apply _ _ _ _ p q).trans ?_
  have h0 : ((cfg2.win 0).blk t).view.emb (ix2 p q) = ((cfg2.win 4).blk t).view.emb (ix2 p q) := by
    funext a; apply Fin.ext
    match a with
    | ⟨0, _⟩ => show win2_0.index t (0 : Fin 2) * 2000 + 1 * p.val = win2_4.index t (0 : Fin 2) * 2000 + 1 * p.val; omega
    | ⟨1, _⟩ => show win2_0.index t (1 : Fin 2) * 128 + 1 * q.val = win2_4.index t (1 : Fin 2) * 128 + 1 * q.val; omega
  have h1 : ((cfg2.win 1).blk t).view.emb (ix2 p (0 : Fin 1)) = ix2 ((((cfg2.win 4).blk t).view.emb (ix2 p q)) 0) (0 : Fin 1) := by
    funext a; apply Fin.ext
    match a with
    | ⟨0, _⟩ => show win2_1.index t (0 : Fin 2) * 2000 + 1 * p.val = win2_4.index t (0 : Fin 2) * 2000 + 1 * p.val; omega
    | ⟨1, _⟩ => show win2_1.index t (1 : Fin 2) * 1 + 1 * 0 = 0; omega
  have h2 : ((cfg2.win 2).blk t).view.emb (ix2 p q) = ((cfg2.win 4).blk t).view.emb (ix2 p q) := by
    funext a; apply Fin.ext
    match a with
    | ⟨0, _⟩ => show win2_2.index t (0 : Fin 2) * 2000 + 1 * p.val = win2_4.index t (0 : Fin 2) * 2000 + 1 * p.val; omega
    | ⟨1, _⟩ => show win2_2.index t (1 : Fin 2) * 128 + 1 * q.val = win2_4.index t (1 : Fin 2) * 128 + 1 * q.val; omega
  have h3 : ((cfg2.win 3).blk t).view.emb (ix2 (0 : Fin 1) q) = ix2 (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega
  unfold combineElu combine
  show elu (FloatOps.addf (FloatOps.addf (FloatOps.mulf (V c main_v35 (((cfg2.win 0).blk t).view.emb (ix2 p q))) (V c main_v12 (((cfg2.win 1).blk t).view.emb (ix2 p (0 : Fin 1))))) (V c main_v17_2 (((cfg2.win 2).blk t).view.emb (ix2 p q)))) (V c main_v36 (((cfg2.win 3).blk t).view.emb (ix2 (0 : Fin 1) q))))
    = elu (FloatOps.addf (FloatOps.addf (FloatOps.mulf (V c main_v35 (((cfg2.win 4).blk t).view.emb (ix2 p q))) (V c main_v12 (ix2 ((((cfg2.win 4).blk t).view.emb (ix2 p q)) 0) (0 : Fin 1)))) (V c main_v17_2 (((cfg2.win 4).blk t).view.emb (ix2 p q)))) (V c main_v36 (ix2 (0 : Fin 1) ((((cfg2.win 4).blk t).view.emb (ix2 p q)) 1))))
  rw [h0, h1, h2, h3]
  rfl

/-- An index of the output array is in point `t`'s block iff each coordinate is in the block's range on its axis. -/
theorem mem_blk (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v37).slice (win2_4.rect t)).set ↔ _
  rw [View.set_slice_whole, Rect.mem_set_unit]
  exact Iff.rfl

/-- Every index of the output array is in the block of the point numbered by its row divided by 2000. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : grid2.N = 50 := N_2
  have ht : (i 0).val / 2000 < cfg2.N := by show (i 0).val / 2000 < grid2.N; omega
  obtain ⟨-, -, -, -, -, -, -, -, e40, e41⟩ := idx_facts ⟨(i 0).val / 2000, ht⟩
  refine ⟨⟨(i 0).val / 2000, ht⟩, flush2_4 _, ?_⟩
  rw [mem_blk]
  intro a
  match a with
  | ⟨0, _⟩ => show win2_4.index ⟨(i 0).val / 2000, ht⟩ (0 : Fin 2) * 2000 ≤ (i 0).val ∧ (i 0).val < win2_4.index ⟨(i 0).val / 2000, ht⟩ (0 : Fin 2) * 2000 + 2000; rw [e40]; show (i 0).val / 2000 * 2000 ≤ (i 0).val ∧ (i 0).val < (i 0).val / 2000 * 2000 + 2000; omega
  | ⟨1, _⟩ => show win2_4.index ⟨(i 0).val / 2000, ht⟩ (1 : Fin 2) * 128 ≤ (i 1).val ∧ (i 1).val < win2_4.index ⟨(i 0).val / 2000, ht⟩ (1 : Fin 2) * 128 + 128; rw [e41]; omega

/-- THE OUTPUT ARRAY after the region: the activated combination of the arrays the region finds. -/
theorem final (c : Dev nD) :
    (dat2 V c).arrAt 4 cfg2.N = combineElu (V c main_v35) (V c main_v12) (V c main_v17_2) (V c main_v36) :=
  (dat2 V c).arrAt_eq_of_cover 4 _ (fun t _ => flushed_eq V c t) (cover)

end Cert.KernelIdeal.Combine128

end
-- ==== Proof.Dense40.lean ====
/-
  Region 3: three dense transforms of one 100000 × 128 array at 40 output lanes, each as ONE function of the arrays
  the region finds.

  The region's grid has 50 points; point `t` stages rows `2000 t … 2000 t + 1999` of the array `x`
  (100000 × 128) and the three whole 128 × 40 weight matrices, and writes back the same rows of its three outputs
  (100000 × 40). Its body computes, for each weight matrix `w`, the product of the staged block of `x` by `w`
  accumulated into zero. On the extended reals the changes of number format are the identity and the zero
  accumulator drops, so the entry at row `p`, lane `q` of a block is `∑ j, x p j · w j q` over the 128 input
  lanes. Every row is in exactly the block of point `p / 2000`, so each output array ends holding the whole
  product `x w`.
-/
import proofs.«121759_j17231408791938_1_alg».proof.Proof.Gen.KernelIdeal.Frame
import Idealize.ShloMosaic.Lib.Pipeline.Value
import Idealize.ShloMosaic.Lib.ValueIdx
import Idealize.ShloMosaic.PureOps.Ideal.Laws
import proofs.«121759_j17231408791938_1_alg».proof.Proof.Spec

set_option maxRecDepth 16384

noncomputable section

namespace Cert.KernelIdeal.Dense40

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spline

theorem hz : (![0, 0] : Fin 2 → Nat) = fun _ => 0 := funext fun a => by fin_cases a <;> rfl

/-- A product of a 2000 × 128 block by a 128 × 40 matrix, accumulated into zero, read at row `p`, lane `q`:
    the format changes are the identity on extended reals, the zero accumulator drops, and the contraction
    index is its one coordinate, so the entry is `∑ j, x p j · w j q`. -/
theorem matmul_apply (x : FVec Ideal S2000x128 .f32) (w : FVec Ideal S128x40 .f32) (p : Fin 2000) (q : Fin 40) :
    matmul (F := Ideal) dot_S2000x128_S128x40_S2000x40_1_0_0_1_n_n none (truncf .bf16 x bitsLt_bf16_f32)
        (truncf .bf16 w bitsLt_bf16_f32) (constant (F := Ideal) S2000x40 .f32 0x00000000#32) (ix2 p q)
      = ∑ j : Fin 128, x (ix2 p j) * w (ix2 j q) := by
  show FloatOps.matmul dot_S2000x128_S128x40_S2000x40_1_0_0_1_n_n none (truncf .bf16 x bitsLt_bf16_f32)
      (truncf .bf16 w bitsLt_bf16_f32) (constant S2000x40 .f32 0x00000000#32) (ix2 p q) = _
  rw [Ideal.matmul_constant_zero_apply,
    ← Equiv.sum_comp (contrEquiv1 dot_S2000x128_S128x40_S2000x40_1_0_0_1_n_n 128 rfl rfl).symm]
  refine Finset.sum_congr rfl fun c _ => ?_
  have c2 := contrEquiv1_symm_val dot_S2000x128_S128x40_S2000x40_1_0_0_1_n_n 128 rfl rfl c
  have l2 : dot_S2000x128_S128x40_S2000x40_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x40_S2000x40_1_0_0_1_n_n]; rfl
    | ⟨1, _⟩ => simp [DotDims.lhsIdx, dot_S2000x128_S128x40_S2000x40_1_0_0_1_n_n]; exact c2
  have r2 : dot_S2000x128_S128x40_S2000x40_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x40_S2000x40_1_0_0_1_n_n]; exact c2
    | ⟨1, _⟩ => simp [DotDims.rhsIdx, dot_S2000x128_S128x40_S2000x40_1_0_0_1_n_n]; rfl
  show x (dot_S2000x128_S128x40_S2000x40_1_0_0_1_n_n.lhsIdx (ix2 p q) ((contrEquiv1 _ 128 rfl rfl).symm c))
      * w (dot_S2000x128_S128x40_S2000x40_1_0_0_1_n_n.rhsIdx (ix2 p q) ((contrEquiv1 _ 128 rfl rfl).symm c)) = _
  rw [l2, r2]

/-- The body's arithmetic for output 0 on one block, read at row `p`, lane `q`: the block of `x` times the weight matrix there. -/
theorem pay2_apply (x : Vec Ideal S2000x128 .f32) (w : Vec Ideal S128x40 .f32) (p : Fin 2000) (q : Fin 40) :
    k3_pay2 (F := Ideal) x w (ix2 p q) = ∑ j : Fin 128, x (ix2 p j) * w (ix2 j q) := by
  unfold k3_pay2 k3_pay1
  simp only [shapeCast_self]
  exact matmul_apply x w p q

/-- The body's arithmetic for output 1 on one block, read at row `p`, lane `q`: the block of `x` times the weight matrix there. -/
theorem pay3_apply (x : Vec Ideal S2000x128 .f32) (w : Vec Ideal S128x40 .f32) (p : Fin 2000) (q : Fin 40) :
    k3_pay3 (F := Ideal) x w (ix2 p q) = ∑ j : Fin 128, x (ix2 p j) * w (ix2 j q) := by
  unfold k3_pay3 k3_pay1
  simp only [shapeCast_self]
  exact matmul_apply x w p q

/-- The body's arithmetic for output 2 on one block, read at row `p`, lane `q`: the block of `x` times the weight matrix there. -/
theorem pay4_apply (x : Vec Ideal S2000x128 .f32) (w : Vec Ideal S128x40 .f32) (p : Fin 2000) (q : Fin 40) :
    k3_pay4 (F := Ideal) x w (ix2 p q) = ∑ j : Fin 128, x (ix2 p j) * w (ix2 j q) := by
  unfold k3_pay4 k3_pay1
  simp only [shapeCast_self]
  exact matmul_apply x w p q

variable (V : (c : Dev nD) → (b : Ref sig .tc) → Buf (Elt Ideal) ((c : Thread nD τ).loc b))

/-- The printed index maps over the grid: the block index of `x` and of the three outputs is the point's number on
    the row axis and zero on the lane axis; the three weight matrices are whole, at block index zero on both axes. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- What point `t` writes back to output 0 is its block of the product of the arrays the region finds. -/
theorem flushed_eq4 (c : Dev nD) (t : Fin cfg3.N) :
    (dat3 V c).flushed 4 t = ((cfg3.win 4).blk t).view.read (Elt Ideal) (dense (V c main_v37) (V c main_v39)) := by
  show (cfg3.win 4).cut (grid3.coords t) ((dat3 V c).after 4 t) = _
  rw [after3_4]
  unfold out3_4
  rw [View.canon_unit_zero hz]
  simp only [View.ld_unit_zero (S := S2000x128) hz, View.ld_unit_zero (S := S128x40) hz]
  obtain ⟨e00, e01, e10, e11, e20, e21, e30, e31, e40, e41, e50, e51, e60, e61⟩ := idx_facts t
  funext j
  obtain ⟨p, q, rfl⟩ : ∃ (p : Fin 2000) (q : Fin 40), j = ix2 p q := ⟨j 0, j 1, eq_ix2 j⟩
  refine (pay2_apply _ _ p q).trans ?_
  have key : ∀ (X : S100000x128.Idx → EReal) (W : S128x40.Idx → EReal),
      (∑ k : Fin 128, X (((cfg3.win 0).blk t).view.emb (ix2 p k)) * W (((cfg3.win 1).blk t).view.emb (ix2 k q)))
        = ∑ k : Fin 128, X (ix2 ((((cfg3.win 4).blk t).view.emb (ix2 p q)) 0) k) * W (ix2 k ((((cfg3.win 4).blk t).view.emb (ix2 p q)) 1)) := by
    intro X W
    refine Finset.sum_congr rfl fun k _ => ?_
    have h0 : ((cfg3.win 0).blk t).view.emb (ix2 p k) = ix2 ((((cfg3.win 4).blk t).view.emb (ix2 p q)) 0) k := by
      funext a; apply Fin.ext
      match a with
      | ⟨0, _⟩ => show win3_0.index t (0 : Fin 2) * 2000 + 1 * p.val = win3_4.index t (0 : Fin 2) * 2000 + 1 * p.val; omega
      | ⟨1, _⟩ => show win3_0.index t (1 : Fin 2) * 128 + 1 * k.val = k.val; omega
    have h1 : ((cfg3.win 1).blk t).view.emb (ix2 k q) = ix2 k ((((cfg3.win 4).blk t).view.emb (ix2 p q)) 1) := by
      funext a; apply Fin.ext
      match a with
      | ⟨0, _⟩ => show win3_1.index t (0 : Fin 2) * 128 + 1 * k.val = k.val; omega
      | ⟨1, _⟩ => show win3_1.index t (1 : Fin 2) * 40 + 1 * q.val = win3_4.index t (1 : Fin 2) * 40 + 1 * q.val; omega
    rw [h0, h1]
    rfl
  exact key (V c main_v37) (V c main_v39)

/-- An index of output 0 is in point `t`'s block iff each coordinate is in the block's range on its axis. -/
theorem mem_blk4 (t : Fin cfg3.N) (i : S100000x40.Idx) :
    i ∈ ((cfg3.win 4).blk t).view.set ↔ ∀ a : Fin 2, win3_4.index t a * S2000x40.size a ≤ (i a).val ∧ (i a).val < win3_4.index t a * S2000x40.size a + S2000x40.size a := by
  show i ∈ ((View.whole main_v42_0).slice (win3_4.rect t)).set ↔ _
  rw [View.set_slice_whole, Rect.mem_set_unit]
  exact Iff.rfl

/-- Every index of output 0 is in the block of the point numbered by its row divided by 2000. -/
theorem cover4 (i : S100000x40.Idx) : ∃ t : Fin cfg3.N, (cfg3.win 4).flush t = true ∧ i ∈ ((cfg3.win 4).blk t).view.set := by
  have hi0 : (i 0).val < 100000 := (i 0).isLt
  have hi1 : (i 1).val < 40 := (i 1).isLt
  have hN : grid3.N = 50 := N_3
  have ht : (i 0).val / 2000 < cfg3.N := by show (i 0).val / 2000 < grid3.N; omega
  obtain ⟨-, -, -, -, -, -, -, -, e40, e41, e50, e51, e60, e61⟩ := idx_facts ⟨(i 0).val / 2000, ht⟩
  refine ⟨⟨(i 0).val / 2000, ht⟩, flush3_4 _, ?_⟩
  rw [mem_blk4]
  intro a
  match a with
  | ⟨0, _⟩ => show win3_4.index ⟨(i 0).val / 2000, ht⟩ (0 : Fin 2) * 2000 ≤ (i 0).val ∧ (i 0).val < win3_4.index ⟨(i 0).val / 2000, ht⟩ (0 : Fin 2) * 2000 + 2000; rw [e40]; show (i 0).val / 2000 * 2000 ≤ (i 0).val ∧ (i 0).val < (i 0).val / 2000 * 2000 + 2000; omega
  | ⟨1, _⟩ => show win3_4.index ⟨(i 0).val / 2000, ht⟩ (1 : Fin 2) * 40 ≤ (i 1).val ∧ (i 1).val < win3_4.index ⟨(i 0).val / 2000, ht⟩ (1 : Fin 2) * 40 + 40; rw [e41]; omega

/-- Output 0 after the region: the product of `x` by the weight matrix, of the arrays the region finds. -/
theorem final4 (c : Dev nD) :
    (dat3 V c).arrAt 4 cfg3.N = dense (V c main_v37) (V c main_v39) :=
  (dat3 V c).arrAt_eq_of_cover 4 _ (fun t _ => flushed_eq4 V c t) (cover4)

/-- What point `t` writes back to output 1 is its block of the product of the arrays the region finds. -/
theorem flushed_eq5 (c : Dev nD) (t : Fin cfg3.N) :
    (dat3 V c).flushed 5 t = ((cfg3.win 5).blk t).view.read (Elt Ideal) (dense (V c main_v37) (V c main_v41)) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x40) hz]
  obtain ⟨e00, e01, e10, e11, e20, e21, e30, e31, e40, e41, e50, e51, e60, e61⟩ := idx_facts t
  funext j
  obtain ⟨p, q, rfl⟩ : ∃ (p : Fin 2000) (q : Fin 40), j = ix2 p q := ⟨j 0, j 1, eq_ix2 j⟩
  refine (pay3_apply _ _ p q).trans ?_
  have key : ∀ (X : S100000x128.Idx → EReal) (W : S128x40.Idx → EReal),
      (∑ k : Fin 128, X (((cfg3.win 0).blk t).view.emb (ix2 p k)) * W (((cfg3.win 2).blk t).view.emb (ix2 k q)))
        = ∑ k : Fin 128, X (ix2 ((((cfg3.win 5).blk t).view.emb (ix2 p q)) 0) k) * W (ix2 k ((((cfg3.win 5).blk t).view.emb (ix2 p q)) 1)) := by
    intro X W
    refine Finset.sum_congr rfl fun k _ => ?_
    have h0 : ((cfg3.win 0).blk t).view.emb (ix2 p k) = ix2 ((((cfg3.win 5).blk t).view.emb (ix2 p q)) 0) k := by
      funext a; apply Fin.ext
      match a with
      | ⟨0, _⟩ => show win3_0.index t (0 : Fin 2) * 2000 + 1 * p.val = win3_5.index t (0 : Fin 2) * 2000 + 1 * p.val; omega
      | ⟨1, _⟩ => show win3_0.index t (1 : Fin 2) * 128 + 1 * k.val = k.val; omega
    have h1 : ((cfg3.win 2).blk t).view.emb (ix2 k q) = ix2 k ((((cfg3.win 5).blk t).view.emb (ix2 p q)) 1) := by
      funext a; apply Fin.ext
      match a with
      | ⟨0, _⟩ => show win3_2.index t (0 : Fin 2) * 128 + 1 * k.val = k.val; omega
      | ⟨1, _⟩ => show win3_2.index t (1 : Fin 2) * 40 + 1 * q.val = win3_5.index t (1 : Fin 2) * 40 + 1 * q.val; omega
    rw [h0, h1]
    rfl
  exact key (V c main_v37) (V c main_v41)

/-- An index of output 1 is in point `t`'s block iff each coordinate is in the block's range on its axis. -/
theorem mem_blk5 (t : Fin cfg3.N) (i : S100000x40.Idx) :
    i ∈ ((cfg3.win 5).blk t).view.set ↔ ∀ a : Fin 2, win3_5.index t a * S2000x40.size a ≤ (i a).val ∧ (i a).val < win3_5.index t a * S2000x40.size a + S2000x40.size a := by
  show i ∈ ((View.whole main_v42_1).slice (win3_5.rect t)).set ↔ _
  rw [View.set_slice_whole, Rect.mem_set_unit]
  exact Iff.rfl

/-- Every index of output 1 is in the block of the point numbered by its row divided by 2000. -/
theorem cover5 (i : S100000x40.Idx) : ∃ t : Fin cfg3.N, (cfg3.win 5).flush t = true ∧ i ∈ ((cfg3.win 5).blk t).view.set := by
  have hi0 : (i 0).val < 100000 := (i 0).isLt
  have hi1 : (i 1).val < 40 := (i 1).isLt
  have hN : grid3.N = 50 := N_3
  have ht : (i 0).val / 2000 < cfg3.N := by show (i 0).val / 2000 < grid3.N; omega
  obtain ⟨-, -, -, -, -, -, -, -, e40, e41, e50, e51, e60, e61⟩ := idx_facts ⟨(i 0).val / 2000, ht⟩
  refine ⟨⟨(i 0).val / 2000, ht⟩, flush3_5 _, ?_⟩
  rw [mem_blk5]
  intro a
  match a with
  | ⟨0, _⟩ => show win3_5.index ⟨(i 0).val / 2000, ht⟩ (0 : Fin 2) * 2000 ≤ (i 0).val ∧ (i 0).val < win3_5.index ⟨(i 0).val / 2000, ht⟩ (0 : Fin 2) * 2000 + 2000; rw [e50]; show (i 0).val / 2000 * 2000 ≤ (i 0).val ∧ (i 0).val < (i 0).val / 2000 * 2000 + 2000; omega
  | ⟨1, _⟩ => show win3_5.index ⟨(i 0).val / 2000, ht⟩ (1 : Fin 2) * 40 ≤ (i 1).val ∧ (i 1).val < win3_5.index ⟨(i 0).val / 2000, ht⟩ (1 : Fin 2) * 40 + 40; rw [e51]; omega

/-- Output 1 after the region: the product of `x` by the weight matrix, of the arrays the region finds. -/
theorem final5 (c : Dev nD) :
    (dat3 V c).arrAt 5 cfg3.N = dense (V c main_v37) (V c main_v41) :=
  (dat3 V c).arrAt_eq_of_cover 5 _ (fun t _ => flushed_eq5 V c t) (cover5)

/-- What point `t` writes back to output 2 is its block of the product of the arrays the region finds. -/
theorem flushed_eq6 (c : Dev nD) (t : Fin cfg3.N) :
    (dat3 V c).flushed 6 t = ((cfg3.win 6).blk t).view.read (Elt Ideal) (dense (V c main_v37) (V c main_arg7)) := by
  show (cfg3.win 6).cut (grid3.coords t) ((dat3 V c).after 6 t) = _
  rw [after3_6]
  unfold out3_6
  rw [View.canon_unit_zero hz]
  simp only [View.ld_unit_zero (S := S2000x128) hz, View.ld_unit_zero (S := S128x40) hz]
  obtain ⟨e00, e01, e10, e11, e20, e21, e30, e31, e40, e41, e50, e51, e60, e61⟩ := idx_facts t
  funext j
  obtain ⟨p, q, rfl⟩ : ∃ (p : Fin 2000) (q : Fin 40), j = ix2 p q := ⟨j 0, j 1, eq_ix2 j⟩
  refine (pay4_apply _ _ p q).trans ?_
  have key : ∀ (X : S100000x128.Idx → EReal) (W : S128x40.Idx → EReal),
      (∑ k : Fin 128, X (((cfg3.win 0).blk t).view.emb (ix2 p k)) * W (((cfg3.win 3).blk t).view.emb (ix2 k q)))
        = ∑ k : Fin 128, X (ix2 ((((cfg3.win 6).blk t).view.emb (ix2 p q)) 0) k) * W (ix2 k ((((cfg3.win 6).blk t).view.emb (ix2 p q)) 1)) := by
    intro X W
    refine Finset.sum_congr rfl fun k _ => ?_
    have h0 : ((cfg3.win 0).blk t).view.emb (ix2 p k) = ix2 ((((cfg3.win 6).blk t).view.emb (ix2 p q)) 0) k := by
      funext a; apply Fin.ext
      match a with
      | ⟨0, _⟩ => show win3_0.index t (0 : Fin 2) * 2000 + 1 * p.val = win3_6.index t (0 : Fin 2) * 2000 + 1 * p.val; omega
      | ⟨1, _⟩ => show win3_0.index t (1 : Fin 2) * 128 + 1 * k.val = k.val; omega
    have h1 : ((cfg3.win 3).blk t).view.emb (ix2 k q) = ix2 k ((((cfg3.win 6).blk t).view.emb (ix2 p q)) 1) := by
      funext a; apply Fin.ext
      match a with
      | ⟨0, _⟩ => show win3_3.index t (0 : Fin 2) * 128 + 1 * k.val = k.val; omega
      | ⟨1, _⟩ => show win3_3.index t (1 : Fin 2) * 40 + 1 * q.val = win3_6.index t (1 : Fin 2) * 40 + 1 * q.val; omega
    rw [h0, h1]
    rfl
  exact key (V c main_v37) (V c main_arg7)

/-- An index of output 2 is in point `t`'s block iff each coordinate is in the block's range on its axis. -/
theorem mem_blk6 (t : Fin cfg3.N) (i : S100000x40.Idx) :
    i ∈ ((cfg3.win 6).blk t).view.set ↔ ∀ a : Fin 2, win3_6.index t a * S2000x40.size a ≤ (i a).val ∧ (i a).val < win3_6.index t a * S2000x40.size a + S2000x40.size a := by
  show i ∈ ((View.whole main_v42_2).slice (win3_6.rect t)).set ↔ _
  rw [View.set_slice_whole, Rect.mem_set_unit]
  exact Iff.rfl

/-- Every index of output 2 is in the block of the point numbered by its row divided by 2000. -/
theorem cover6 (i : S100000x40.Idx) : ∃ t : Fin cfg3.N, (cfg3.win 6).flush t = true ∧ i ∈ ((cfg3.win 6).blk t).view.set := by
  have hi0 : (i 0).val < 100000 := (i 0).isLt
  have hi1 : (i 1).val < 40 := (i 1).isLt
  have hN : grid3.N = 50 := N_3
  have ht : (i 0).val / 2000 < cfg3.N := by show (i 0).val / 2000 < grid3.N; omega
  obtain ⟨-, -, -, -, -, -, -, -, e40, e41, e50, e51, e60, e61⟩ := idx_facts ⟨(i 0).val / 2000, ht⟩
  refine ⟨⟨(i 0).val / 2000, ht⟩, flush3_6 _, ?_⟩
  rw [mem_blk6]
  intro a
  match a with
  | ⟨0, _⟩ => show win3_6.index ⟨(i 0).val / 2000, ht⟩ (0 : Fin 2) * 2000 ≤ (i 0).val ∧ (i 0).val < win3_6.index ⟨(i 0).val / 2000, ht⟩ (0 : Fin 2) * 2000 + 2000; rw [e60]; show (i 0).val / 2000 * 2000 ≤ (i 0).val ∧ (i 0).val < (i 0).val / 2000 * 2000 + 2000; omega
  | ⟨1, _⟩ => show win3_6.index ⟨(i 0).val / 2000, ht⟩ (1 : Fin 2) * 40 ≤ (i 1).val ∧ (i 1).val < win3_6.index ⟨(i 0).val / 2000, ht⟩ (1 : Fin 2) * 40 + 40; rw [e61]; omega

/-- Output 2 after the region: the product of `x` by the weight matrix, of the arrays the region finds. -/
theorem final6 (c : Dev nD) :
    (dat3 V c).arrAt 6 cfg3.N = dense (V c main_v37) (V c main_arg7) :=
  (dat3 V c).arrAt_eq_of_cover 6 _ (fun t _ => flushed_eq6 V c t) (cover6)

end Cert.KernelIdeal.Dense40

end
-- ==== Proof.Blend40.lean ====
/-
  Region 4: the blend of the two gathered edge-feature arrays by the edge coordinate, as ONE function of the
  arrays the region finds.

  The region's grid has 400 points; point `t` stages rows `4000 t … 4000 t + 3999` of the two edge-feature arrays
  (1600000 × 40) and of the edge-coordinate column (1600000 × 1), and writes back the same rows of its output.
  Its body computes, entry by entry, `(1 - u) · a + u · b` with `u` the row's coordinate: a pointwise map whose
  only layout step is reading the column across the row. So the output array ends holding, at row `p` and lane
  `q`, `(1 - u p) · a p q + u p · b p q` of the arrays as the region finds them: every row is in exactly the
  block of point `p / 4000`.
-/
import proofs.«121759_j17231408791938_1_alg».proof.Proof.Gen.KernelIdeal.Frame
import Idealize.ShloMosaic.Lib.Pipeline.Value
import Idealize.ShloMosaic.Lib.ValueIdx
import proofs.«121759_j17231408791938_1_alg».proof.Proof.Spec

set_option maxRecDepth 16384

noncomputable section

namespace Cert.KernelIdeal.Blend40

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spline

variable {F : FTy → Type} [FloatOps F]

theorem hz : (![0, 0] : Fin 2 → Nat) = fun _ => 0 := funext fun a => by fin_cases a <;> rfl

/-- The body's arithmetic on one block, read at row `p`, lane `q`, is the blend of the three blocks there. -/
theorem pay_apply (x0 x1 : Vec F S4000x40 .f32) (x2 : Vec F S4000x1 .f32) (p : Fin 4000) (q : Fin 40) :
    k4_pay1 x0 x1 x2 (ix2 p q) = blend (n := 4000) (k := 40) x0 x1 x2 (ix2 p q) := by
  unfold k4_pay1 blend
  simp only [shapeCast_self]
  have hb : ∀ (v : S4000x1.Idx → Elt F .f32), broadcastTo S4000x40 v broadcasts_S4000x1_S4000x40 (ix2 p q) = v (ix2 p (0 : Fin 1)) := fun v =>
    broadcastTo_apply v broadcasts_S4000x1_S4000x40 (ix2 p q) (ix2 p (0 : Fin 1))
      (fun a => by match a with | ⟨0, _⟩ => rfl | ⟨1, _⟩ => rfl)
  show FloatOps.addf (FloatOps.mulf (broadcastTo S4000x40 (subf (broadcast S4000x1 (Scalar.ofBits .f32 0x3F800000#32)) x2) broadcasts_S4000x1_S4000x40 (ix2 p q)) (x0 (ix2 p q)))
      (FloatOps.mulf (broadcastTo S4000x40 x2 broadcasts_S4000x1_S4000x40 (ix2 p q)) (x1 (ix2 p q))) = _
  rw [hb, hb]
  rfl

variable (V : (c : Dev nD) → (b : Ref sig .tc) → Buf (Elt F) ((c : Thread nD τ).loc b))

/-- The printed index maps over the grid: every window's block index is the point's number on the row axis and
    zero on the lane axis. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point `t` writes back is its block of the blend of the arrays the region finds. -/
theorem flushed_eq (c : Dev nD) (t : Fin cfg4.N) :
    (dat4 V c).flushed 3 t = ((cfg4.win 3).blk t).view.read (Elt F) (blend (V c main_v49) (V c main_v56) (V c main_arg2)) := by
  show (cfg4.win 3).cut (grid4.coords t) ((dat4 V c).after 3 t) = _
  rw [after4_3]
  unfold out4_3
  rw [View.canon_unit_zero hz]
  simp only [View.ld_unit_zero (S := S4000x40) hz, View.ld_unit_zero (S := S4000x1) hz]
  obtain ⟨e00, e01, e10, e11, e20, e21, e30, e31⟩ := idx_facts t
  funext j
  obtain ⟨p, q, rfl⟩ : ∃ (p : Fin 4000) (q : Fin 40), j = ix2 p q := ⟨j 0, j 1, eq_ix2 j⟩
  refine (pay_apply _ _ _ p q).trans ?_
  have h0 : ((cfg4.win 0).blk t).view.emb (ix2 p q) = ((cfg4.win 3).blk t).view.emb (ix2 p q) := by
    funext a; apply Fin.ext
    match a with
    | ⟨0, _⟩ => show win4_0.index t (0 : Fin 2) * 4000 + 1 * p.val = win4_3.index t (0 : Fin 2) * 4000 + 1 * p.val; omega
    | ⟨1, _⟩ => show win4_0.index t (1 : Fin 2) * 40 + 1 * q.val = win4_3.index t (1 : Fin 2) * 40 + 1 * q.val; omega
  have h1 : ((cfg4.win 1).blk t).view.emb (ix2 p q) = ((cfg4.win 3).blk t).view.emb (ix2 p q) := by
    funext a; apply Fin.ext
    match a with
    | ⟨0, _⟩ => show win4_1.index t (0 : Fin 2) * 4000 + 1 * p.val = win4_3.index t (0 : Fin 2) * 4000 + 1 * p.val; omega
    | ⟨1, _⟩ => show win4_1.index t (1 : Fin 2) * 40 + 1 * q.val = win4_3.index t (1 : Fin 2) * 40 + 1 * q.val; omega
  have h2 : ((cfg4.win 2).blk t).view.emb (ix2 p (0 : Fin 1)) = ix2 ((((cfg4.win 3).blk t).view.emb (ix2 p q)) 0) (0 : Fin 1) := by
    funext a; apply Fin.ext
    match a with
    | ⟨0, _⟩ => show win4_2.index t (0 : Fin 2) * 4000 + 1 * p.val = win4_3.index t (0 : Fin 2) * 4000 + 1 * p.val; omega
    | ⟨1, _⟩ => show win4_2.index t (1 : Fin 2) * 1 + 1 * 0 = 0; omega
  unfold blend
  show FloatOps.addf (FloatOps.mulf (FloatOps.subf _ (V c main_arg2 (((cfg4.win 2).blk t).view.emb (ix2 p (0 : Fin 1))))) (V c main_v49 (((cfg4.win 0).blk t).view.emb (ix2 p q))))
      (FloatOps.mulf (V c main_arg2 (((cfg4.win 2).blk t).view.emb (ix2 p (0 : Fin 1)))) (V c main_v56 (((cfg4.win 1).blk t).view.emb (ix2 p q))))
    = FloatOps.addf (FloatOps.mulf (FloatOps.subf _ (V c main_arg2 (ix2 ((((cfg4.win 3).blk t).view.emb (ix2 p q)) 0) (0 : Fin 1)))) (V c main_v49 (((cfg4.win 3).blk t).view.emb (ix2 p q))))
      (FloatOps.mulf (V c main_arg2 (ix2 ((((cfg4.win 3).blk t).view.emb (ix2 p q)) 0) (0 : Fin 1))) (V c main_v56 (((cfg4.win 3).blk t).view.emb (ix2 p q))))
  rw [h0, h1, h2]
  rfl

/-- An index of the output array is in point `t`'s block iff each coordinate is in the block's range on its axis. -/
theorem mem_blk (t : Fin cfg4.N) (i : S1600000x40.Idx) :
    i ∈ ((cfg4.win 3).blk t).view.set ↔ ∀ a : Fin 2, win4_3.index t a * S4000x40.size a ≤ (i a).val ∧ (i a).val < win4_3.index t a * S4000x40.size a + S4000x40.size a := by
  show i ∈ ((View.whole main_v57).slice (win4_3.rect t)).set ↔ _
  rw [View.set_slice_whole, Rect.mem_set_unit]
  exact Iff.rfl

/-- Every index of the output array is in the block of the point numbered by its row divided by 4000. -/
theorem cover (i : S1600000x40.Idx) : ∃ t : Fin cfg4.N, (cfg4.win 3).flush t = true ∧ i ∈ ((cfg4.win 3).blk t).view.set := by
  have hi0 : (i 0).val < 1600000 := (i 0).isLt
  have hi1 : (i 1).val < 40 := (i 1).isLt
  have hN : grid4.N = 400 := N_4
  have ht : (i 0).val / 4000 < cfg4.N := by show (i 0).val / 4000 < grid4.N; omega
  obtain ⟨-, -, -, -, -, -, e30, e31⟩ := idx_facts ⟨(i 0).val / 4000, ht⟩
  refine ⟨⟨(i 0).val / 4000, ht⟩, flush4_3 _, ?_⟩
  rw [mem_blk]
  intro a
  match a with
  | ⟨0, _⟩ => show win4_3.index ⟨(i 0).val / 4000, ht⟩ (0 : Fin 2) * 4000 ≤ (i 0).val ∧ (i 0).val < win4_3.index ⟨(i 0).val / 4000, ht⟩ (0 : Fin 2) * 4000 + 4000; rw [e30]; show (i 0).val / 4000 * 4000 ≤ (i 0).val ∧ (i 0).val < (i 0).val / 4000 * 4000 + 4000; omega
  | ⟨1, _⟩ => show win4_3.index ⟨(i 0).val / 4000, ht⟩ (1 : Fin 2) * 40 ≤ (i 1).val ∧ (i 1).val < win4_3.index ⟨(i 0).val / 4000, ht⟩ (1 : Fin 2) * 40 + 40; rw [e31]; omega

/-- THE OUTPUT ARRAY after the region: the blend of the arrays the region finds. -/
theorem final (c : Dev nD) :
    (dat4 V c).arrAt 3 cfg4.N = blend (V c main_v49) (V c main_v56) (V c main_arg2) :=
  (dat4 V c).arrAt_eq_of_cover 3 _ (fun t _ => flushed_eq V c t) (cover)

end Cert.KernelIdeal.Blend40

end
-- ==== Proof.Combine40.lean ====
/-
  Region 5: the combination of the summed messages with the node's own term and the bias row, with no activation
  after it, as ONE function of the arrays the region finds.

  The region's grid has 50 points; point `t` stages rows `2000 t … 2000 t + 1999` of the summed-message array
  (100000 × 40), of the reciprocal-count column (100000 × 1) and of the node's own term (100000 × 40), and the
  whole bias row (1 × 40) at every point, and writes back the same rows of its output. Its body computes, entry
  by entry, `(s · c + x) + β` with `c` the row's reciprocal count and `β` the lane's bias: a pointwise map whose
  only layout steps are reading the column across the row and the bias row down the column. So the output array
  ends holding, at row `p` and lane `q`, that value of the arrays as the region finds them: every row is in
  exactly the block of point `p / 2000`.
-/
import proofs.«121759_j17231408791938_1_alg».proof.Proof.Gen.KernelIdeal.Frame
import Idealize.ShloMosaic.Lib.Pipeline.Value
import Idealize.ShloMosaic.Lib.ValueIdx
import proofs.«121759_j17231408791938_1_alg».proof.Proof.Spec

set_option maxRecDepth 16384

noncomputable section

namespace Cert.KernelIdeal.Combine40

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spline

variable {F : FTy → Type} [FloatOps F]

theorem hz : (![0, 0] : Fin 2 → Nat) = fun _ => 0 := funext fun a => by fin_cases a <;> rfl

/-- The body's arithmetic on one block, read at row `p`, lane `q`, is the combination of the four blocks there:
    the column is read at row `p`, the bias row at lane `q`. -/
theorem pay_apply (x0 : Vec F S2000x40 .f32) (x1 : Vec F S2000x1 .f32) (x2 : Vec F S2000x40 .f32) (x3 : Vec F S1x40 .f32) (p : Fin 2000) (q : Fin 40) :
    k5_pay1 x0 x1 x2 x3 (ix2 p q) = combine (n := 2000) (k := 40) x0 x1 x2 x3 (ix2 p q) := by
  unfold k5_pay1 combine
  simp only [shapeCast_self]
  have hb : ∀ (v : S2000x1.Idx → Elt F .f32), broadcastTo S2000x40 v broadcasts_S2000x1_S2000x40 (ix2 p q) = v (ix2 p (0 : Fin 1)) := fun v =>
    broadcastTo_apply v broadcasts_S2000x1_S2000x40 (ix2 p q) (ix2 p (0 : Fin 1))
      (fun a => by match a with | ⟨0, _⟩ => rfl | ⟨1, _⟩ => rfl)
  have hr : ∀ (v : S1x40.Idx → Elt F .f32), broadcastTo S2000x40 v broadcasts_S1x40_S2000x40 (ix2 p q) = v (ix2 (0 : Fin 1) q) := fun v =>
    broadcastTo_apply v broadcasts_S1x40_S2000x40 (ix2 p q) (ix2 (0 : Fin 1) q)
      (fun a => by match a with | ⟨0, _⟩ => rfl | ⟨1, _⟩ => rfl)
  show FloatOps.addf (FloatOps.addf (FloatOps.mulf (x0 (ix2 p q)) (broadcastTo S2000x40 x1 broadcasts_S2000x1_S2000x40 (ix2 p q))) (x2 (ix2 p q))) (broadcastTo S2000x40 x3 broadcasts_S1x40_S2000x40 (ix2 p q)) = _
  rw [hb, hr]

variable (V : (c : Dev nD) → (b : Ref sig .tc) → Buf (Elt F) ((c : Thread nD τ).loc b))

/-- The printed index maps over the grid: the three row-blocked inputs' and the output's block index is the point's
    number on the row axis and zero on the lane axis; the bias row's is zero on both at every point. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 1000000 in
/-- What point `t` writes back is its block of the combination of the arrays the region finds. -/
theorem flushed_eq (c : Dev nD) (t : Fin cfg5.N) :
    (dat5 V c).flushed 4 t = ((cfg5.win 4).blk t).view.read (Elt F) (combine (V c main_v60) (V c main_v12) (V c main_v42_2) (V c main_v61)) := by
  show (cfg5.win 4).cut (grid5.coords t) ((dat5 V c).after 4 t) = _
  rw [after5_4]
  unfold out5_4
  rw [View.canon_unit_zero hz]
  simp only [View.ld_unit_zero (S := S2000x40) hz, View.ld_unit_zero (S := S2000x1) hz, View.ld_unit_zero (S := S1x40) hz]
  obtain ⟨e00, e01, e10, e11, e20, e21, e30, e31, e40, e41⟩ := idx_facts t
  funext j
  obtain ⟨p, q, rfl⟩ : ∃ (p : Fin 2000) (q : Fin 40), j = ix2 p q := ⟨j 0, j 1, eq_ix2 j⟩
  refine (pay_apply _ _ _ _ p q).trans ?_
  have h0 : ((cfg5.win 0).blk t).view.emb (ix2 p q) = ((cfg5.win 4).blk t).view.emb (ix2 p q) := by
    funext a; apply Fin.ext
    match a with
    | ⟨0, _⟩ => show win5_0.index t (0 : Fin 2) * 2000 + 1 * p.val = win5_4.index t (0 : Fin 2) * 2000 + 1 * p.val; omega
    | ⟨1, _⟩ => show win5_0.index t (1 : Fin 2) * 40 + 1 * q.val = win5_4.index t (1 : Fin 2) * 40 + 1 * q.val; omega
  have h1 : ((cfg5.win 1).blk t).view.emb (ix2 p (0 : Fin 1)) = ix2 ((((cfg5.win 4).blk t).view.emb (ix2 p q)) 0) (0 : Fin 1) := by
    funext a; apply Fin.ext
    match a with
    | ⟨0, _⟩ => show win5_1.index t (0 : Fin 2) * 2000 + 1 * p.val = win5_4.index t (0 : Fin 2) * 2000 + 1 * p.val; omega
    | ⟨1, _⟩ => show win5_1.index t (1 : Fin 2) * 1 + 1 * 0 = 0; omega
  have h2 : ((cfg5.win 2).blk t).view.emb (ix2 p q) = ((cfg5.win 4).blk t).view.emb (ix2 p q) := by
    funext a; apply Fin.ext
    match a with
    | ⟨0, _⟩ => show win5_2.index t (0 : Fin 2) * 2000 + 1 * p.val = win5_4.index t (0 : Fin 2) * 2000 + 1 * p.val; omega
    | ⟨1, _⟩ => show win5_2.index t (1 : Fin 2) * 40 + 1 * q.val = win5_4.index t (1 : Fin 2) * 40 + 1 * q.val; omega
  have h3 : ((cfg5.win 3).blk t).view.emb (ix2 (0 : Fin 1) q) = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 40 + 1 * q.val = win5_4.index t (1 : Fin 2) * 40 + 1 * q.val; omega
  unfold combine
  show FloatOps.addf (FloatOps.addf (FloatOps.mulf (V c main_v60 (((cfg5.win 0).blk t).view.emb (ix2 p q))) (V c main_v12 (((cfg5.win 1).blk t).view.emb (ix2 p (0 : Fin 1))))) (V c main_v42_2 (((cfg5.win 2).blk t).view.emb (ix2 p q)))) (V c main_v61 (((cfg5.win 3).blk t).view.emb (ix2 (0 : Fin 1) q)))
    = FloatOps.addf (FloatOps.addf (FloatOps.mulf (V c main_v60 (((cfg5.win 4).blk t).view.emb (ix2 p q))) (V c main_v12 (ix2 ((((cfg5.win 4).blk t).view.emb (ix2 p q)) 0) (0 : Fin 1)))) (V c main_v42_2 (((cfg5.win 4).blk t).view.emb (ix2 p q)))) (V c main_v61 (ix2 (0 : Fin 1) ((((cfg5.win 4).blk t).view.emb (ix2 p q)) 1)))
  rw [h0, h1, h2, h3]
  rfl

/-- An index of the output array is in point `t`'s block iff each coordinate is in the block's range on its axis. -/
theorem mem_blk (t : Fin cfg5.N) (i : S100000x40.Idx) :
    i ∈ ((cfg5.win 4).blk t).view.set ↔ ∀ a : Fin 2, win5_4.index t a * S2000x40.size a ≤ (i a).val ∧ (i a).val < win5_4.index t a * S2000x40.size a + S2000x40.size a := by
  show i ∈ ((View.whole main_v62).slice (win5_4.rect t)).set ↔ _
  rw [View.set_slice_whole, Rect.mem_set_unit]
  exact Iff.rfl

/-- Every index of the output array is in the block of the point numbered by its row divided by 2000. -/
theorem cover (i : S100000x40.Idx) : ∃ t : Fin cfg5.N, (cfg5.win 4).flush t = true ∧ i ∈ ((cfg5.win 4).blk t).view.set := by
  have hi0 : (i 0).val < 100000 := (i 0).isLt
  have hi1 : (i 1).val < 40 := (i 1).isLt
  have hN : grid5.N = 50 := N_5
  have ht : (i 0).val / 2000 < cfg5.N := by show (i 0).val / 2000 < grid5.N; omega
  obtain ⟨-, -, -, -, -, -, -, -, e40, e41⟩ := idx_facts ⟨(i 0).val / 2000, ht⟩
  refine ⟨⟨(i 0).val / 2000, ht⟩, flush5_4 _, ?_⟩
  rw [mem_blk]
  intro a
  match a with
  | ⟨0, _⟩ => show win5_4.index ⟨(i 0).val / 2000, ht⟩ (0 : Fin 2) * 2000 ≤ (i 0).val ∧ (i 0).val < win5_4.index ⟨(i 0).val / 2000, ht⟩ (0 : Fin 2) * 2000 + 2000; rw [e40]; show (i 0).val / 2000 * 2000 ≤ (i 0).val ∧ (i 0).val < (i 0).val / 2000 * 2000 + 2000; omega
  | ⟨1, _⟩ => show win5_4.index ⟨(i 0).val / 2000, ht⟩ (1 : Fin 2) * 40 ≤ (i 1).val ∧ (i 1).val < win5_4.index ⟨(i 0).val / 2000, ht⟩ (1 : Fin 2) * 40 + 40; rw [e41]; omega

/-- THE OUTPUT ARRAY after the region: the combination of the arrays the region finds. -/
theorem final (c : Dev nD) :
    (dat5 V c).arrAt 4 cfg5.N = combine (V c main_v60) (V c main_v12) (V c main_v42_2) (V c main_v61) :=
  (dat5 V c).arrAt_eq_of_cover 4 _ (fun t _ => flushed_eq V c t) (cover)

end Cert.KernelIdeal.Combine40

end
-- ==== Proof.KernelNet.lean ====
/-
  What the idealized kernel program computes, as one function of its nine argument arrays.

  The program alternates stretches of host operations with six pipelined regions: a dense transform (three
  products of the node features with 128-row weight matrices), a blend of two gathered edge-feature arrays by the
  edge coordinate, and a combination of the summed messages with the reciprocal message count, the node's own term and
  a bias row — once at 128 lanes followed by `ELU`, once more at 40 lanes without it. Each region's output array is
  one whole-array function of the arrays it finds (the six closed forms); every host stretch is read off as the
  composition of its operations; a buffer that a region does not name, or names only as an input window, is carried
  across it unchanged. Reading the fold of boundary contents from the last boundary down to the launch memory gives
  the result array as `layer2 (layer1 …) …` of the arguments.
-/
import proofs.«121759_j17231408791938_1_alg».proof.Proof.Gen.KernelIdeal.Frame
import proofs.«121759_j17231408791938_1_alg».proof.Proof.Spec
import proofs.«121759_j17231408791938_1_alg».proof.Proof.Dense128
import proofs.«121759_j17231408791938_1_alg».proof.Proof.Blend128
import proofs.«121759_j17231408791938_1_alg».proof.Proof.Combine128
import proofs.«121759_j17231408791938_1_alg».proof.Proof.Dense40
import proofs.«121759_j17231408791938_1_alg».proof.Proof.Blend40
import proofs.«121759_j17231408791938_1_alg».proof.Proof.Combine40
import Idealize.ShloMosaic.Lib.StableHlo.Run

set_option maxRecDepth 16384

noncomputable section

namespace Cert.KernelIdeal.Net

open Cert.KernelIdeal Cert.KernelIdeal.Gen Cert.Spline
open Idealize.ShloMosaic Idealize.ShloMosaic.TcCoe Idealize.ShloMosaic.StableHlo Idealize.SL.Sem

/-- A buffer's contents at the ideal instance. -/
abbrev T (s : Shape) (e : EltTy) : Type := (⟨s, e⟩ : BufTy).Contents (Elt Ideal)

/-- Row `k` of the edge list (`k = 0`: the source nodes, `k = 1`: the destination nodes) as a vector over the edges. -/
def edgeRow0 (ei : T S2x1600000 .i32) : T S1600000 .i32 :=
  shapeCast S1600000 (extractStridedSlice S1x1600000 ![0, 0] ei slices_S2x1600000_S1x1600000_0_0) shapeCasts_S1x1600000_S1600000
def edgeRow1 (ei : T S2x1600000 .i32) : T S1600000 .i32 :=
  shapeCast S1600000 (extractStridedSlice S1x1600000 ![1, 0] ei slices_S2x1600000_S1x1600000_1_0) shapeCasts_S1x1600000_S1600000

/-- The gather's index column: a negative node number is wrapped by the node count, then the vector is made a column. -/
def wrapCol (s : T S1600000 .i32) : T S1600000x1 .i32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The scatter's index column. -/
def col (d : T S1600000 .i32) : T S1600000x1 .i32 := broadcastInDim S1600000x1 ![0] bcast_S1600000_S1600000x1_0 d

/-- The reciprocal of each node's message count (the count taken as at least 1), as a column. -/
def invCol (d : T S1600000 .i32) : T S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal) (Host.scatterAdd (F := Ideal) scatter_S100000_S1600000x1_S1600000_n_0_0_1
          (broadcastInDim S100000 ![] bcast_S_S100000 (constant (F := Ideal) S_ .f32 0x00000000#32)) (col d)
          (broadcastInDim S1600000 ![] bcast_S_S1600000 (constant (F := Ideal) S_ .f32 0x3F800000#32)))
        (broadcastInDim S100000 ![] bcast_S_S100000 (constant (F := Ideal) S_ .f32 0x3F800000#32))))

/-- The two weight matrices of a layer's blend, cut out of the stacked weights. -/
def w128_0 (W : T S2x128x128 .f32) : T S128x128 .f32 :=
  shapeCast S128x128 (extractStridedSlice S1x128x128 ![0, 0, 0] W slices_S2x128x128_S1x128x128_0_0_0) shapeCasts_S1x128x128_S128x128
def w128_1 (W : T S2x128x128 .f32) : T S128x128 .f32 :=
  shapeCast S128x128 (extractStridedSlice S1x128x128 ![1, 0, 0] W slices_S2x128x128_S1x128x128_1_0_0) shapeCasts_S1x128x128_S128x128
def w40_0 (W : T S2x128x40 .f32) : T S128x40 .f32 :=
  shapeCast S128x40 (extractStridedSlice S1x128x40 ![0, 0, 0] W slices_S2x128x40_S1x128x40_0_0_0) shapeCasts_S1x128x40_S128x40
def w40_1 (W : T S2x128x40 .f32) : T S128x40 .f32 :=
  shapeCast S128x40 (extractStridedSlice S1x128x40 ![1, 0, 0] W slices_S2x128x40_S1x128x40_1_0_0) shapeCasts_S1x128x40_S128x40

/-- The summed messages of the first layer: each edge's blend of the two transforms of its source node, added into its
    destination node's row. -/
def agg1 (x : T S100000x128 .f32) (ei : T S2x1600000 .i32) (ea : T S1600000x1 .f32) (W : T S2x128x128 .f32) : T S100000x128 .f32 :=
  Host.scatterAdd (F := Ideal) scatter_S100000x128_S1600000x1_S1600000x128_1_0_0_1
    (broadcastInDim S100000x128 ![] bcast_S_S100000x128 (constant (F := Ideal) S_ .f32 0x00000000#32)) (col (edgeRow1 ei))
    (blend (F := Ideal) (n := 1600000) (k := 128)
      (Host.gather gather_S100000x128_S1600000x1_S1600000x128_1_0_n_n_0_1_1128 (dense (n := 100000) (k := 128) x (w128_0 W)) (wrapCol (edgeRow0 ei)))
      (Host.gather gather_S100000x128_S1600000x1_S1600000x128_1_0_n_n_0_1_1128 (dense (n := 100000) (k := 128) x (w128_1 W)) (wrapCol (edgeRow0 ei)))
      ea)

/-- The first layer: the mean of the arriving messages, plus the node's own transform, plus the bias row `β`, then `ELU`. -/
def layer1 (x : T S100000x128 .f32) (ei : T S2x1600000 .i32) (ea : T S1600000x1 .f32) (W : T S2x128x128 .f32)
    (R : T S128x128 .f32) (β : T S1x128 .f32) : T S100000x128 .f32 :=
  combineElu (F := Ideal) (n := 100000) (k := 128) (agg1 x ei ea W) (invCol (edgeRow1 ei)) (dense (n := 100000) (k := 128) x R) β

/-- The summed messages of the second layer, at 40 lanes. -/
def agg2 (h : T S100000x128 .f32) (ei : T S2x1600000 .i32) (ea : T S1600000x1 .f32) (W : T S2x128x40 .f32) : T S100000x40 .f32 :=
  Host.scatterAdd (F := Ideal) scatter_S100000x40_S1600000x1_S1600000x40_1_0_0_1
    (broadcastInDim S100000x40 ![] bcast_S_S100000x40 (constant (F := Ideal) S_ .f32 0x00000000#32)) (col (edgeRow1 ei))
    (blend (F := Ideal) (n := 1600000) (k := 40)
      (Host.gather gather_S100000x40_S1600000x1_S1600000x40_1_0_n_n_0_1_140 (dense (n := 100000) (k := 40) h (w40_0 W)) (wrapCol (edgeRow0 ei)))
      (Host.gather gather_S100000x40_S1600000x1_S1600000x40_1_0_n_n_0_1_140 (dense (n := 100000) (k := 40) h (w40_1 W)) (wrapCol (edgeRow0 ei)))
      ea)

/-- The second layer: the same combination at 40 lanes with its bias row `β`, and no activation. -/
def layer2 (h : T S100000x128 .f32) (ei : T S2x1600000 .i32) (ea : T S1600000x1 .f32) (W : T S2x128x40 .f32)
    (R : T S128x40 .f32) (β : T S1x40 .f32) : T S100000x40 .f32 :=
  combine (F := Ideal) (n := 100000) (k := 40) (agg2 h ei ea W) (invCol (edgeRow1 ei)) (dense (n := 100000) (k := 40) h R) β

variable (m : (ℓ : Loc nD τ sig) → Buf (Elt Ideal) ℓ) (ρ : Dev nD → PrngReg)

/-! ## The first layer: the contents of `main_v37` when region 2 has run -/

set_option maxHeartbeats 2000000 in
/-- After region 2 its output array holds the first layer of the arguments: region 2's closed form over what host
    stretch 2 leaves (the scattered sum, the bias as a row), that over region 1's blend of what host stretch 1 gathers,
    that over region 0's three products of what host stretch 0 slices from the arguments. -/
theorem value_v37 (c : Dev nD) :
    W6 m ρ c (Proc.devRef .tc main_v37)
      = layer1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (shapeCast S1x128 (m ((c.tc : Thread nD τ).loc main_arg5)) shapeCasts_S128_S1x128) := by
  rw [show W6 m ρ c (Proc.devRef .tc main_v37) = combineElu (V5 m ρ c main_v35) (V5 m ρ c main_v12) (V5 m ρ c main_v17_2) (V5 m ρ c main_v36)
    from (W6_arr m ρ c 4).trans (Combine128.final (V5 m ρ) c)]
  dsimp only [V5, W5]
  after_results
  rw [show W4 m ρ c (Proc.devRef .tc main_v32) = blend (V3 m ρ c main_v24) (V3 m ρ c main_v31) (V3 m ρ c main_arg2)
    from (W4_arr m ρ c 3).trans (Blend128.final (V3 m ρ) c)]
  rw [W4_of_ne m ρ c main_v3 (by decide), W4_of_ne m ρ c main_arg5 (by decide), W4_of_ne m ρ c main_v12 (by decide),
    W4_of_ne m ρ c main_v17_2 (by decide)]
  dsimp only [V3, W3]
  after_results_simp
  rw [show W2 m ρ c (Proc.devRef .tc main_v17_0) = dense (V1 m ρ c main_arg0) (V1 m ρ c main_v14)
    from (W2_arr m ρ c 4).trans (Dense128.final4 (V1 m ρ) c)]
  rw [show W2 m ρ c (Proc.devRef .tc main_v17_1) = dense (V1 m ρ c main_arg0) (V1 m ρ c main_v16)
    from (W2_arr m ρ c 5).trans (Dense128.final5 (V1 m ρ) c)]
  rw [show W2 m ρ c (Proc.devRef .tc main_v17_2) = dense (V1 m ρ c main_arg0) (V1 m ρ c main_arg4)
    from (W2_arr m ρ c 6).trans (Dense128.final6 (V1 m ρ) c)]
  rw [W2_of_ne m ρ c main_v1 (by decide), W2_of_ne m ρ c main_v3 (by decide), W2_of_ne m ρ c main_arg5 (by decide),
    W2_of_ne m ρ c main_v12 (by decide), W2_of_ne m ρ c main_arg2 (by decide)]
  dsimp only [V1, W1]
  after_results_simp
  rfl

/-! ## The buffers the second layer reads that were written before region 2

Each is carried from host stretch 0 (or from the launch memory) to the boundary after region 2: a host stretch that
does not write it leaves it, a region that does not name it leaves it, and a region that names it only as an input
window (`main_v12` in region 2, `main_arg2` in region 1) leaves it. -/

set_option maxHeartbeats 1000000 in
theorem at6_v1 (c : Dev nD) : W6 m ρ c (Proc.devRef .tc main_v1) = edgeRow0 (m ((c.tc : Thread nD τ).loc main_arg1)) := by
  rw [W6_of_ne m ρ c main_v1 (by decide)]
  dsimp only [W5]; after_results_simp
  rw [W4_of_ne m ρ c main_v1 (by decide)]
  dsimp only [W3]; after_results_simp
  rw [W2_of_ne m ρ c main_v1 (by decide)]
  dsimp only [W1]; after_results_simp
  rfl

set_option maxHeartbeats 1000000 in
theorem at6_v3 (c : Dev nD) : W6 m ρ c (Proc.devRef .tc main_v3) = edgeRow1 (m ((c.tc : Thread nD τ).loc main_arg1)) := by
  rw [W6_of_ne m ρ c main_v3 (by decide)]
  dsimp only [W5]; after_results_simp
  rw [W4_of_ne m ρ c main_v3 (by decide)]
  dsimp only [W3]; after_results_simp
  rw [W2_of_ne m ρ c main_v3 (by decide)]
  dsimp only [W1]; after_results_simp
  rfl

set_option maxHeartbeats 1000000 in
theorem at6_v12 (c : Dev nD) : W6 m ρ c (Proc.devRef .tc main_v12) = invCol (edgeRow1 (m ((c.tc : Thread nD τ).loc main_arg1))) := by
  rw [show W6 m ρ c (Proc.devRef .tc main_v12) = W5 m ρ c (Proc.devRef .tc main_v12) from (W6_arr m ρ c 1).trans (((dat2 (V5 m ρ) c).arrAt_in 1 rfl _).trans (A_eq2 (V5 m ρ) c 1))]
  dsimp only [W5]; after_results_simp
  rw [W4_of_ne m ρ c main_v12 (by decide)]
  dsimp only [W3]; after_results_simp
  rw [W2_of_ne m ρ c main_v12 (by decide)]
  dsimp only [W1]; after_results_simp
  rfl

set_option maxHeartbeats 1000000 in
theorem at6_arg2 (c : Dev nD) : W6 m ρ c (Proc.devRef .tc main_arg2) = (m ((c.tc : Thread nD τ).loc main_arg2)) := by
  rw [W6_of_ne m ρ c main_arg2 (by decide)]
  dsimp only [W5]; after_results_simp
  rw [show W4 m ρ c (Proc.devRef .tc main_arg2) = W3 m ρ c (Proc.devRef .tc main_arg2) from (W4_arr m ρ c 2).trans (((dat1 (V3 m ρ) c).arrAt_in 2 rfl _).trans (A_eq1 (V3 m ρ) c 2))]
  dsimp only [W3]; after_results_simp
  rw [W2_of_ne m ρ c main_arg2 (by decide)]
  dsimp only [W1]; after_results_simp

set_option maxHeartbeats 1000000 in
theorem at6_arg6 (c : Dev nD) : W6 m ρ c (Proc.devRef .tc main_arg6) = (m ((c.tc : Thread nD τ).loc main_arg6)) := by
  rw [W6_of_ne m ρ c main_arg6 (by decide)]
  dsimp only [W5]; after_results_simp
  rw [W4_of_ne m ρ c main_arg6 (by decide)]
  dsimp only [W3]; after_results_simp
  rw [W2_of_ne m ρ c main_arg6 (by decide)]
  dsimp only [W1]; after_results_simp

set_option maxHeartbeats 1000000 in
theorem at6_arg7 (c : Dev nD) : W6 m ρ c (Proc.devRef .tc main_arg7) = (m ((c.tc : Thread nD τ).loc main_arg7)) := by
  rw [W6_of_ne m ρ c main_arg7 (by decide)]
  dsimp only [W5]; after_results_simp
  rw [W4_of_ne m ρ c main_arg7 (by decide)]
  dsimp only [W3]; after_results_simp
  rw [W2_of_ne m ρ c main_arg7 (by decide)]
  dsimp only [W1]; after_results_simp

set_option maxHeartbeats 1000000 in
theorem at6_arg8 (c : Dev nD) : W6 m ρ c (Proc.devRef .tc main_arg8) = (m ((c.tc : Thread nD τ).loc main_arg8)) := by
  rw [W6_of_ne m ρ c main_arg8 (by decide)]
  dsimp only [W5]; after_results_simp
  rw [W4_of_ne m ρ c main_arg8 (by decide)]
  dsimp only [W3]; after_results_simp
  rw [W2_of_ne m ρ c main_arg8 (by decide)]
  dsimp only [W1]; after_results_simp

/-! ## The second layer: the contents of `main_v62` when region 5 has run -/

set_option maxHeartbeats 4000000 in
/-- After region 5 its output array holds the second layer of region 2's output and the arguments. -/
theorem value_v62 (c : Dev nD) :
    W12 m ρ c (Proc.devRef .tc main_v62)
      = layer2 (W6 m ρ c (Proc.devRef .tc main_v37)) (m ((c.tc : Thread nD τ).loc main_arg1)) (m ((c.tc : Thread nD τ).loc main_arg2)) (m ((c.tc : Thread nD τ).loc main_arg6)) (m ((c.tc : Thread nD τ).loc main_arg7))
          (shapeCast S1x40 (m ((c.tc : Thread nD τ).loc main_arg8)) shapeCasts_S40_S1x40) := by
  rw [show W12 m ρ c (Proc.devRef .tc main_v62) = combine (V11 m ρ c main_v60) (V11 m ρ c main_v12) (V11 m ρ c main_v42_2) (V11 m ρ c main_v61)
    from (W12_arr m ρ c 4).trans (Combine40.final (V11 m ρ) c)]
  dsimp only [V11, W11]
  after_results_simp
  rw [show W10 m ρ c (Proc.devRef .tc main_v57) = blend (V9 m ρ c main_v49) (V9 m ρ c main_v56) (V9 m ρ c main_arg2)
    from (W10_arr m ρ c 3).trans (Blend40.final (V9 m ρ) c)]
  rw [W10_of_ne m ρ c main_v3 (by decide), W10_of_ne m ρ c main_v12 (by decide), W10_of_ne m ρ c main_v42_2 (by decide),
    W10_of_ne m ρ c main_arg8 (by decide)]
  dsimp only [V9, W9]
  after_results_simp
  rw [show W8 m ρ c (Proc.devRef .tc main_v42_0) = dense (V7 m ρ c main_v37) (V7 m ρ c main_v39)
    from (W8_arr m ρ c 4).trans (Dense40.final4 (V7 m ρ) c)]
  rw [show W8 m ρ c (Proc.devRef .tc main_v42_1) = dense (V7 m ρ c main_v37) (V7 m ρ c main_v41)
    from (W8_arr m ρ c 5).trans (Dense40.final5 (V7 m ρ) c)]
  rw [show W8 m ρ c (Proc.devRef .tc main_v42_2) = dense (V7 m ρ c main_v37) (V7 m ρ c main_arg7)
    from (W8_arr m ρ c 6).trans (Dense40.final6 (V7 m ρ) c)]
  rw [W8_of_ne m ρ c main_v1 (by decide), W8_of_ne m ρ c main_arg2 (by decide), W8_of_ne m ρ c main_v3 (by decide),
    W8_of_ne m ρ c main_v12 (by decide), W8_of_ne m ρ c main_arg8 (by decide)]
  dsimp only [V7, W7]
  after_results_simp
  rw [at6_v1, at6_v3, at6_v12, at6_arg2, at6_arg6, at6_arg7, at6_arg8]
  rfl

/-- THE RESULT ARRAY at the last boundary: the second layer of the first layer of the arguments. -/
theorem value (c : Dev nD) :
    W12 m ρ c (Proc.devRef .tc main_v62)
      = layer2 (layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (shapeCast S1x128 (m ((c.tc : Thread nD τ).loc main_arg5)) shapeCasts_S128_S1x128))
          (m ((c.tc : Thread nD τ).loc main_arg1)) (m ((c.tc : Thread nD τ).loc main_arg2)) (m ((c.tc : Thread nD τ).loc main_arg6)) (m ((c.tc : Thread nD τ).loc main_arg7)) (shapeCast S1x40 (m ((c.tc : Thread nD τ).loc main_arg8)) shapeCasts_S40_S1x40) := by
  rw [value_v62, value_v37]

end Cert.KernelIdeal.Net

end
-- ==== Proof.RefRun.lean ====
/- The reference program's run. @main is a straight line of host tensor operations: the one
   function call it makes (an exponential linear unit, itself calling two selection functions) is the
   callee's operations carried out in place over the call's own buffers. Listed in order, the line
   is a fold: each operation rewrites its result buffer to its function of the operand buffers and
   leaves every other buffer as it was. Hence every weakly fair execution terminates with each
   buffer at the fold of the operations over the launch contents. The program computes two rounds
   of an edge-weighted mean aggregation over a graph: per edge, a blend (1 - a) * (X W0)[src] + a * (X W1)[src]
   of two linear images of the source node's row, summed per destination node and divided by
   max(in-degree, 1), plus a linear image of the node's own row and a bias; the first round is
   followed by the exponential linear unit, the second (at width 40) is the result. -/
import proofs.«121759_j17231408791938_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in program order; the callee's operations stand at the call site, over the
    call's buffer record. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg3 main_v4 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v4 main_v5 rfl shapeCasts_S1x128x128_S128x128,
    StableHlo.binary main_arg0 main_v5 main_v6 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v7 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v7 main_v8 rfl shapeCasts_S1x128x128_S128x128,
    StableHlo.binary main_arg0 main_v8 main_v9 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.reshape main_arg2 main_v10 rfl shapeCasts_S1600000x1_S1600000,
    StableHlo.nullary main_cst (constant S_ .f32 0x3F800000#32),
    StableHlo.unary main_cst main_v11 (broadcastInDim S1600000 ![] bcast_S_S1600000 : (⟨S_, .f32⟩ : BufTy).Contents (Elt F) → (⟨S1600000, .f32⟩ : BufTy).Contents (Elt F)),
    StableHlo.binary main_v11 main_v10 main_v12 (subf : (⟨S1600000, .f32⟩ : BufTy).Contents (Elt F) → (⟨S1600000, .f32⟩ : BufTy).Contents (Elt F) → (⟨S1600000, .f32⟩ : BufTy).Contents (Elt F)),
    StableHlo.unary main_v12 main_v13 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v16 (broadcastInDim S1600000 ![] bcast_S_S1600000 : (⟨S_, .i32⟩ : BufTy).Contents (Elt F) → (⟨S1600000, .i32⟩ : BufTy).Contents (Elt F)),
    StableHlo.binary main_v1 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v6 main_v19 main_v20 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v13 main_v21 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v21 main_v20 main_v22 (mulf : (⟨S1600000x128, .f32⟩ : BufTy).Contents (Elt F) → (⟨S1600000x128, .f32⟩ : BufTy).Contents (Elt F) → (⟨S1600000x128, .f32⟩ : BufTy).Contents (Elt F)),
    StableHlo.unary main_v10 main_v23 (broadcastInDim S1600000x1 ![0] bcast_S1600000_S1600000x1_0 : (⟨S1600000, .f32⟩ : BufTy).Contents (Elt F) → (⟨S1600000x1, .f32⟩ : BufTy).Contents (Elt F)),
    StableHlo.nullary main_c_1 (constantI S_ 32 0#32),
    StableHlo.unary main_c_1 main_v24 (broadcastInDim S1600000 ![] bcast_S_S1600000 : (⟨S_, .i32⟩ : BufTy).Contents (Elt F) → (⟨S1600000, .i32⟩ : BufTy).Contents (Elt F)),
    StableHlo.binary main_v1 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v26 (broadcastInDim S1600000 ![] bcast_S_S1600000 : (⟨S_, .i32⟩ : BufTy).Contents (Elt F) → (⟨S1600000, .i32⟩ : BufTy).Contents (Elt F)),
    StableHlo.binary main_v1 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v9 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v23 main_v31 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v31 main_v30 main_v32 (mulf : (⟨S1600000x128, .f32⟩ : BufTy).Contents (Elt F) → (⟨S1600000x128, .f32⟩ : BufTy).Contents (Elt F) → (⟨S1600000x128, .f32⟩ : BufTy).Contents (Elt F)),
    StableHlo.binary main_v22 main_v32 main_v33 (addf : (⟨S1600000x128, .f32⟩ : BufTy).Contents (Elt F) → (⟨S1600000x128, .f32⟩ : BufTy).Contents (Elt F) → (⟨S1600000x128, .f32⟩ : BufTy).Contents (Elt F)),
    StableHlo.nullary main_cst_3 (constant S_ .f32 0x00000000#32),
    StableHlo.unary main_cst_3 main_v34 (broadcastInDim S100000x128 ![] bcast_S_S100000x128 : (⟨S_, .f32⟩ : BufTy).Contents (Elt F) → (⟨S100000x128, .f32⟩ : BufTy).Contents (Elt F)),
    StableHlo.unary main_v3 main_v35 (broadcastInDim S1600000x1 ![0] bcast_S1600000_S1600000x1_0 : (⟨S1600000, .i32⟩ : BufTy).Contents (Elt F) → (⟨S1600000x1, .i32⟩ : BufTy).Contents (Elt F)),
    StableHlo.ternary main_v34 main_v35 main_v33 main_v36 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v37 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v38 (broadcastInDim S100000 ![] bcast_S_S100000 : (⟨S_, .f32⟩ : BufTy).Contents (Elt F) → (⟨S100000, .f32⟩ : BufTy).Contents (Elt F)),
    StableHlo.unary main_v3 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v41 (broadcastInDim S100000 ![] bcast_S_S100000 : (⟨S_, .f32⟩ : BufTy).Contents (Elt F) → (⟨S100000, .f32⟩ : BufTy).Contents (Elt F)),
    StableHlo.binary main_v40 main_v41 main_v42 (maximumf : (⟨S100000, .f32⟩ : BufTy).Contents (Elt F) → (⟨S100000, .f32⟩ : BufTy).Contents (Elt F) → (⟨S100000, .f32⟩ : BufTy).Contents (Elt F)),
    StableHlo.unary main_v42 main_v43 (broadcastInDim S100000x1 ![0] bcast_S100000_S100000x1_0 : (⟨S100000, .f32⟩ : BufTy).Contents (Elt F) → (⟨S100000x1, .f32⟩ : BufTy).Contents (Elt F)),
    StableHlo.unary main_v43 main_v44 (broadcastInDim S100000x128 ![0, 1] bcast_S100000x1_S100000x128_0_1 : (⟨S100000x1, .f32⟩ : BufTy).Contents (Elt F) → (⟨S100000x128, .f32⟩ : BufTy).Contents (Elt F)),
    StableHlo.binary main_v36 main_v44 main_v45 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v45 main_v46 main_v47 (addf : (⟨S100000x128, .f32⟩ : BufTy).Contents (Elt F) → (⟨S100000x128, .f32⟩ : BufTy).Contents (Elt F) → (⟨S100000x128, .f32⟩ : BufTy).Contents (Elt F)),
    StableHlo.unary main_arg5 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v50) main_call0.v0 main_call0.v1 (cmpf .ogt),
    StableHlo.TRef.nullary main_call0.cst_0 (constant S_ .f32 0x00000000#32),
    StableHlo.TRef.unary main_call0.cst_0 main_call0.v2 (broadcastInDim S100000x128 ![] bcast_S_S100000x128),
    StableHlo.TRef.binary (.of main_v50) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x128 ![] bcast_S_S100000x128),
    StableHlo.TRef.ternary main_call0.v3 main_call0.call0.v1 (.of main_v50) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x128 ![] bcast_S_S100000x128),
    StableHlo.TRef.binary main_call0.v6 main_call0.v5 main_call0.v7 mulf,
    StableHlo.TRef.ternary main_call0.v1 (.of main_v50) main_call0.v7 main_call0.call1.v0 select,
    StableHlo.unary main_arg6 main_v52 ((extractStridedSlice S1x128x40 ![0, 0, 0] · slices_S2x128x40_S1x128x40_0_0_0) : (⟨S2x128x40, .f32⟩ : BufTy).Contents (Elt F) → (⟨S1x128x40, .f32⟩ : BufTy).Contents (Elt F)),
    StableHlo.reshape main_v52 main_v53 rfl shapeCasts_S1x128x40_S128x40,
    StableHlo.binary main_v51 main_v53 main_v54 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg6 main_v55 ((extractStridedSlice S1x128x40 ![1, 0, 0] · slices_S2x128x40_S1x128x40_1_0_0) : (⟨S2x128x40, .f32⟩ : BufTy).Contents (Elt F) → (⟨S1x128x40, .f32⟩ : BufTy).Contents (Elt F)),
    StableHlo.reshape main_v55 main_v56 rfl shapeCasts_S1x128x40_S128x40,
    StableHlo.binary main_v51 main_v56 main_v57 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.reshape main_arg2 main_v58 rfl shapeCasts_S1600000x1_S1600000,
    StableHlo.nullary main_cst_7 (constant S_ .f32 0x3F800000#32),
    StableHlo.unary main_cst_7 main_v59 (broadcastInDim S1600000 ![] bcast_S_S1600000 : (⟨S_, .f32⟩ : BufTy).Contents (Elt F) → (⟨S1600000, .f32⟩ : BufTy).Contents (Elt F)),
    StableHlo.binary main_v59 main_v58 main_v60 (subf : (⟨S1600000, .f32⟩ : BufTy).Contents (Elt F) → (⟨S1600000, .f32⟩ : BufTy).Contents (Elt F) → (⟨S1600000, .f32⟩ : BufTy).Contents (Elt F)),
    StableHlo.unary main_v60 main_v61 (broadcastInDim S1600000x1 ![0] bcast_S1600000_S1600000x1_0 : (⟨S1600000, .f32⟩ : BufTy).Contents (Elt F) → (⟨S1600000x1, .f32⟩ : BufTy).Contents (Elt F)),
    StableHlo.nullary main_c_8 (constantI S_ 32 0#32),
    StableHlo.unary main_c_8 main_v62 (broadcastInDim S1600000 ![] bcast_S_S1600000 : (⟨S_, .i32⟩ : BufTy).Contents (Elt F) → (⟨S1600000, .i32⟩ : BufTy).Contents (Elt F)),
    StableHlo.binary main_v1 main_v62 main_v63 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v64 (broadcastInDim S1600000 ![] bcast_S_S1600000 : (⟨S_, .i32⟩ : BufTy).Contents (Elt F) → (⟨S1600000, .i32⟩ : BufTy).Contents (Elt F)),
    StableHlo.binary main_v1 main_v64 main_v65 (addi : (⟨S1600000, .i32⟩ : BufTy).Contents (Elt F) → (⟨S1600000, .i32⟩ : BufTy).Contents (Elt F) → (⟨S1600000, .i32⟩ : BufTy).Contents (Elt F)),
    StableHlo.ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v66 main_v67 (broadcastInDim S1600000x1 ![0] bcast_S1600000_S1600000x1_0 : (⟨S1600000, .i32⟩ : BufTy).Contents (Elt F) → (⟨S1600000x1, .i32⟩ : BufTy).Contents (Elt F)),
    StableHlo.binary main_v54 main_v67 main_v68 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    StableHlo.unary main_v61 main_v69 (broadcastInDim S1600000x40 ![0, 1] bcast_S1600000x1_S1600000x40_0_1 : (⟨S1600000x1, .f32⟩ : BufTy).Contents (Elt F) → (⟨S1600000x40, .f32⟩ : BufTy).Contents (Elt F)),
    StableHlo.binary main_v69 main_v68 main_v70 (mulf : (⟨S1600000x40, .f32⟩ : BufTy).Contents (Elt F) → (⟨S1600000x40, .f32⟩ : BufTy).Contents (Elt F) → (⟨S1600000x40, .f32⟩ : BufTy).Contents (Elt F)),
    StableHlo.unary main_v58 main_v71 (broadcastInDim S1600000x1 ![0] bcast_S1600000_S1600000x1_0 : (⟨S1600000, .f32⟩ : BufTy).Contents (Elt F) → (⟨S1600000x1, .f32⟩ : BufTy).Contents (Elt F)),
    StableHlo.nullary main_c_10 (constantI S_ 32 0#32),
    StableHlo.unary main_c_10 main_v72 (broadcastInDim S1600000 ![] bcast_S_S1600000 : (⟨S_, .i32⟩ : BufTy).Contents (Elt F) → (⟨S1600000, .i32⟩ : BufTy).Contents (Elt F)),
    StableHlo.binary main_v1 main_v72 main_v73 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v74 (broadcastInDim S1600000 ![] bcast_S_S1600000 : (⟨S_, .i32⟩ : BufTy).Contents (Elt F) → (⟨S1600000, .i32⟩ : BufTy).Contents (Elt F)),
    StableHlo.binary main_v1 main_v74 main_v75 (addi : (⟨S1600000, .i32⟩ : BufTy).Contents (Elt F) → (⟨S1600000, .i32⟩ : BufTy).Contents (Elt F) → (⟨S1600000, .i32⟩ : BufTy).Contents (Elt F)),
    StableHlo.ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v76 main_v77 (broadcastInDim S1600000x1 ![0] bcast_S1600000_S1600000x1_0 : (⟨S1600000, .i32⟩ : BufTy).Contents (Elt F) → (⟨S1600000x1, .i32⟩ : BufTy).Contents (Elt F)),
    StableHlo.binary main_v57 main_v77 main_v78 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    StableHlo.unary main_v71 main_v79 (broadcastInDim S1600000x40 ![0, 1] bcast_S1600000x1_S1600000x40_0_1 : (⟨S1600000x1, .f32⟩ : BufTy).Contents (Elt F) → (⟨S1600000x40, .f32⟩ : BufTy).Contents (Elt F)),
    StableHlo.binary main_v79 main_v78 main_v80 (mulf : (⟨S1600000x40, .f32⟩ : BufTy).Contents (Elt F) → (⟨S1600000x40, .f32⟩ : BufTy).Contents (Elt F) → (⟨S1600000x40, .f32⟩ : BufTy).Contents (Elt F)),
    StableHlo.binary main_v70 main_v80 main_v81 (addf : (⟨S1600000x40, .f32⟩ : BufTy).Contents (Elt F) → (⟨S1600000x40, .f32⟩ : BufTy).Contents (Elt F) → (⟨S1600000x40, .f32⟩ : BufTy).Contents (Elt F)),
    StableHlo.nullary main_cst_12 (constant S_ .f32 0x00000000#32),
    StableHlo.unary main_cst_12 main_v82 (broadcastInDim S100000x40 ![] bcast_S_S100000x40 : (⟨S_, .f32⟩ : BufTy).Contents (Elt F) → (⟨S100000x40, .f32⟩ : BufTy).Contents (Elt F)),
    StableHlo.unary main_v3 main_v83 (broadcastInDim S1600000x1 ![0] bcast_S1600000_S1600000x1_0 : (⟨S1600000, .i32⟩ : BufTy).Contents (Elt F) → (⟨S1600000x1, .i32⟩ : BufTy).Contents (Elt F)),
    StableHlo.ternary main_v82 main_v83 main_v81 main_v84 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    StableHlo.nullary main_cst_13 (constant S_ .f32 0x3F800000#32),
    StableHlo.unary main_cst_13 main_v85 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v86 (broadcastInDim S100000 ![] bcast_S_S100000 : (⟨S_, .f32⟩ : BufTy).Contents (Elt F) → (⟨S100000, .f32⟩ : BufTy).Contents (Elt F)),
    StableHlo.unary main_v3 main_v87 (broadcastInDim S1600000x1 ![0] bcast_S1600000_S1600000x1_0 : (⟨S1600000, .i32⟩ : BufTy).Contents (Elt F) → (⟨S1600000x1, .i32⟩ : BufTy).Contents (Elt F)),
    StableHlo.ternary main_v86 main_v87 main_v85 main_v88 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x3F800000#32),
    StableHlo.unary main_cst_15 main_v89 (broadcastInDim S100000 ![] bcast_S_S100000 : (⟨S_, .f32⟩ : BufTy).Contents (Elt F) → (⟨S100000, .f32⟩ : BufTy).Contents (Elt F)),
    StableHlo.binary main_v88 main_v89 main_v90 (maximumf : (⟨S100000, .f32⟩ : BufTy).Contents (Elt F) → (⟨S100000, .f32⟩ : BufTy).Contents (Elt F) → (⟨S100000, .f32⟩ : BufTy).Contents (Elt F)),
    StableHlo.unary main_v90 main_v91 (broadcastInDim S100000x1 ![0] bcast_S100000_S100000x1_0 : (⟨S100000, .f32⟩ : BufTy).Contents (Elt F) → (⟨S100000x1, .f32⟩ : BufTy).Contents (Elt F)),
    StableHlo.unary main_v91 main_v92 (broadcastInDim S100000x40 ![0, 1] bcast_S100000x1_S100000x40_0_1 : (⟨S100000x1, .f32⟩ : BufTy).Contents (Elt F) → (⟨S100000x40, .f32⟩ : BufTy).Contents (Elt F)),
    StableHlo.binary main_v84 main_v92 main_v93 (Host.divf : (⟨S100000x40, .f32⟩ : BufTy).Contents (Elt F) → (⟨S100000x40, .f32⟩ : BufTy).Contents (Elt F) → (⟨S100000x40, .f32⟩ : BufTy).Contents (Elt F)),
    StableHlo.binary main_v51 main_arg7 main_v94 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.binary main_v93 main_v94 main_v95 (addf : (⟨S100000x40, .f32⟩ : BufTy).Contents (Elt F) → (⟨S100000x40, .f32⟩ : BufTy).Contents (Elt F) → (⟨S100000x40, .f32⟩ : BufTy).Contents (Elt F)),
    StableHlo.unary main_arg8 main_v96 (broadcastInDim S1x40 ![1] bcast_S40_S1x40_1 : (⟨S40, .f32⟩ : BufTy).Contents (Elt F) → (⟨S1x40, .f32⟩ : BufTy).Contents (Elt F)),
    StableHlo.unary main_v96 main_v97 (broadcastInDim S100000x40 ![0, 1] bcast_S1x40_S100000x40_0_1 : (⟨S1x40, .f32⟩ : BufTy).Contents (Elt F) → (⟨S100000x40, .f32⟩ : BufTy).Contents (Elt F)),
    StableHlo.binary main_v95 main_v97 main_v98 (addf : (⟨S100000x40, .f32⟩ : BufTy).Contents (Elt F) → (⟨S100000x40, .f32⟩ : BufTy).Contents (Elt F) → (⟨S100000x40, .f32⟩ : BufTy).Contents (Elt F)) ]

/-- @main is that straight line: unfolding the callee at its call and reassociating the sequencing
    leaves one chain of operation steps on both sides. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub ..,
    binary_bufs_sub .., unary_bufs_sub .., reshape_bufs_sub .., binary_bufs_sub .., reshape_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., reshape_bufs_sub .., binary_bufs_sub ..,
    unary_bufs_sub .., reshape_bufs_sub .., binary_bufs_sub .., reshape_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., binary_bufs_sub .., unary_bufs_sub .., unary_bufs_sub .., binary_bufs_sub ..⟩

/-- On every device, for any float values, from any memory with zero counters: every weakly fair execution
    of @main terminates, and every final state has each buffer at the fold of the operations over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value the line computes -/

/-- Row 0 of the edge list, flattened: each edge's source node. -/
def srcIdx (ei : (⟨S2x1600000, .i32⟩ : BufTy).Contents (Elt F)) :
    (⟨S1600000, .i32⟩ : BufTy).Contents (Elt F) :=
  shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) ei) shapeCasts_S1x1600000_S1600000

/-- Row 1 of the edge list, flattened: each edge's destination node. -/
def dstIdx (ei : (⟨S2x1600000, .i32⟩ : BufTy).Contents (Elt F)) :
    (⟨S1600000, .i32⟩ : BufTy).Contents (Elt F) :=
  shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) ei) shapeCasts_S1x1600000_S1600000

/-- The source indices as a column, a negative index counted from the end (`s + 100000` where `s < 0`). -/
def srcCol (s : (⟨S1600000, .i32⟩ : BufTy).Contents (Elt F)) :
    (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) s ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) s ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) s)

/-- The destination indices as a column. -/
def dstCol (d : (⟨S1600000, .i32⟩ : BufTy).Contents (Elt F)) :
    (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) d

/-- The edge weights `a`, flattened. -/
def alpha (ea : (⟨S1600000x1, .f32⟩ : BufTy).Contents (Elt F)) :
    (⟨S1600000, .f32⟩ : BufTy).Contents (Elt F) :=
  shapeCast S1600000 ea shapeCasts_S1600000x1_S1600000

/-- `1 - a` per edge, as a column. -/
def restCol (al : (⟨S1600000, .f32⟩ : BufTy).Contents (Elt F)) :
    (⟨S1600000x1, .f32⟩ : BufTy).Contents (Elt F) :=
  (broadcastInDim S1600000x1 ![0] bcast_S1600000_S1600000x1_0 : (⟨S1600000, .f32⟩ : BufTy).Contents (Elt F) → (⟨S1600000x1, .f32⟩ : BufTy).Contents (Elt F)) ((subf : (⟨S1600000, .f32⟩ : BufTy).Contents (Elt F) → (⟨S1600000, .f32⟩ : BufTy).Contents (Elt F) → (⟨S1600000, .f32⟩ : BufTy).Contents (Elt F)) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F))) al)

/-- `a` per edge, as a column. -/
def alphaCol (al : (⟨S1600000, .f32⟩ : BufTy).Contents (Elt F)) :
    (⟨S1600000x1, .f32⟩ : BufTy).Contents (Elt F) :=
  (broadcastInDim S1600000x1 ![0] bcast_S1600000_S1600000x1_0 : (⟨S1600000, .f32⟩ : BufTy).Contents (Elt F) → (⟨S1600000x1, .f32⟩ : BufTy).Contents (Elt F)) al

/-- Per node, `max (number of edges arriving at it, 1)`, as a column: the count is a scatter-add of ones. -/
def degCol (d : (⟨S1600000, .i32⟩ : BufTy).Contents (Elt F)) :
    (⟨S100000x1, .f32⟩ : BufTy).Contents (Elt F) :=
  (broadcastInDim S100000x1 ![0] bcast_S100000_S100000x1_0 : (⟨S100000, .f32⟩ : BufTy).Contents (Elt F) → (⟨S100000x1, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) (dstCol d) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))

/-- Per edge, at width 128: `(1 - a) * (x W₀)[src] + a * (x W₁)[src]`, the two linear images gathered at the edge's source. -/
def edgeMsg128 (x : (⟨S100000x128, .f32⟩ : BufTy).Contents (Elt F)) (W : (⟨S2x128x128, .f32⟩ : BufTy).Contents (Elt F)) (s : (⟨S1600000, .i32⟩ : BufTy).Contents (Elt F)) (al : (⟨S1600000, .f32⟩ : BufTy).Contents (Elt F)) :
    (⟨S1600000x128, .f32⟩ : BufTy).Contents (Elt F) :=
  (addf : (⟨S1600000x128, .f32⟩ : BufTy).Contents (Elt F) → (⟨S1600000x128, .f32⟩ : BufTy).Contents (Elt F) → (⟨S1600000x128, .f32⟩ : BufTy).Contents (Elt F)) ((mulf : (⟨S1600000x128, .f32⟩ : BufTy).Contents (Elt F) → (⟨S1600000x128, .f32⟩ : BufTy).Contents (Elt F) → (⟨S1600000x128, .f32⟩ : BufTy).Contents (Elt F)) ((broadcastInDim S1600000x128 ![0, 1] bcast_S1600000x1_S1600000x128_0_1 : (⟨S1600000x1, .f32⟩ : BufTy).Contents (Elt F) → (⟨S1600000x128, .f32⟩ : BufTy).Contents (Elt F)) (restCol al)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x (shapeCast S128x128 (((extractStridedSlice S1x128x128 ![0, 0, 0] · slices_S2x128x128_S1x128x128_0_0_0) : (⟨S2x128x128, .f32⟩ : BufTy).Contents (Elt F) → (⟨S1x128x128, .f32⟩ : BufTy).Contents (Elt F)) W) shapeCasts_S1x128x128_S128x128)) (srcCol s))) ((mulf : (⟨S1600000x128, .f32⟩ : BufTy).Contents (Elt F) → (⟨S1600000x128, .f32⟩ : BufTy).Contents (Elt F) → (⟨S1600000x128, .f32⟩ : BufTy).Contents (Elt F)) ((broadcastInDim S1600000x128 ![0, 1] bcast_S1600000x1_S1600000x128_0_1 : (⟨S1600000x1, .f32⟩ : BufTy).Contents (Elt F) → (⟨S1600000x128, .f32⟩ : BufTy).Contents (Elt F)) (alphaCol al)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x (shapeCast S128x128 (((extractStridedSlice S1x128x128 ![1, 0, 0] · slices_S2x128x128_S1x128x128_1_0_0) : (⟨S2x128x128, .f32⟩ : BufTy).Contents (Elt F) → (⟨S1x128x128, .f32⟩ : BufTy).Contents (Elt F)) W) shapeCasts_S1x128x128_S128x128)) (srcCol s)))

/-- Per node, at width 128: the edge terms summed over the edges arriving at it (scatter-add into zeros), divided by `max (in-degree, 1)`. -/
def agg128 (x : (⟨S100000x128, .f32⟩ : BufTy).Contents (Elt F)) (W : (⟨S2x128x128, .f32⟩ : BufTy).Contents (Elt F)) (s : (⟨S1600000, .i32⟩ : BufTy).Contents (Elt F)) (d : (⟨S1600000, .i32⟩ : BufTy).Contents (Elt F)) (al : (⟨S1600000, .f32⟩ : BufTy).Contents (Elt F)) :
    (⟨S100000x128, .f32⟩ : BufTy).Contents (Elt F) :=
  (Host.divf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) (dstCol d) (edgeMsg128 x W s al)) ((broadcastInDim S100000x128 ![0, 1] bcast_S100000x1_S100000x128_0_1 : (⟨S100000x1, .f32⟩ : BufTy).Contents (Elt F) → (⟨S100000x128, .f32⟩ : BufTy).Contents (Elt F)) (degCol d))

/-- The first layer before its nonlinearity: the mean of the edge terms, plus the node's own linear image `x root`, plus the bias along rows. -/
def pre128 (x : (⟨S100000x128, .f32⟩ : BufTy).Contents (Elt F)) (W : (⟨S2x128x128, .f32⟩ : BufTy).Contents (Elt F)) (root : (⟨S128x128, .f32⟩ : BufTy).Contents (Elt F)) (b : (⟨S128, .f32⟩ : BufTy).Contents (Elt F)) (s : (⟨S1600000, .i32⟩ : BufTy).Contents (Elt F)) (d : (⟨S1600000, .i32⟩ : BufTy).Contents (Elt F)) (al : (⟨S1600000, .f32⟩ : BufTy).Contents (Elt F)) :
    (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) (agg128 x W s d al) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x root)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b))

/-- The exponential linear unit: `z` where `z > 0`, else `1 * expm1 (z where not z > 0, 0 where z > 0)`. -/
def elu (z : (⟨S100000x128, .f32⟩ : BufTy).Contents (Elt F)) :
    (⟨S100000x128, .f32⟩ : BufTy).Contents (Elt F) :=
  (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ((cmpf .ogt : (⟨S100000x128, .f32⟩ : BufTy).Contents (Elt F) → (⟨S100000x128, .f32⟩ : BufTy).Contents (Elt F) → (⟨S100000x128, .i1⟩ : BufTy).Contents (Elt F)) z ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) z ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F800000#32 : (⟨S_, .f32⟩ : BufTy).Contents (Elt F))) ((Host.expm1 : (⟨S100000x128, .f32⟩ : BufTy).Contents (Elt F) → (⟨S100000x128, .f32⟩ : BufTy).Contents (Elt F)) ((select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ((cmpf .ogt : (⟨S100000x128, .f32⟩ : BufTy).Contents (Elt F) → (⟨S100000x128, .f32⟩ : BufTy).Contents (Elt F) → (⟨S100000x128, .i1⟩ : BufTy).Contents (Elt F)) z ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) ((broadcastInDim S100000x128 ![] bcast_S_S100000x128 : (⟨S_, .f32⟩ : BufTy).Contents (Elt F) → (⟨S100000x128, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))) z)))

/-- Per edge, at width 40: `(1 - a) * (h W₀)[src] + a * (h W₁)[src]`. -/
def edgeMsg40 (h : (⟨S100000x128, .f32⟩ : BufTy).Contents (Elt F)) (W : (⟨S2x128x40, .f32⟩ : BufTy).Contents (Elt F)) (s : (⟨S1600000, .i32⟩ : BufTy).Contents (Elt F)) (al : (⟨S1600000, .f32⟩ : BufTy).Contents (Elt F)) :
    (⟨S1600000x40, .f32⟩ : BufTy).Contents (Elt F) :=
  (addf : (⟨S1600000x40, .f32⟩ : BufTy).Contents (Elt F) → (⟨S1600000x40, .f32⟩ : BufTy).Contents (Elt F) → (⟨S1600000x40, .f32⟩ : BufTy).Contents (Elt F)) ((mulf : (⟨S1600000x40, .f32⟩ : BufTy).Contents (Elt F) → (⟨S1600000x40, .f32⟩ : BufTy).Contents (Elt F) → (⟨S1600000x40, .f32⟩ : BufTy).Contents (Elt F)) ((broadcastInDim S1600000x40 ![0, 1] bcast_S1600000x1_S1600000x40_0_1 : (⟨S1600000x1, .f32⟩ : BufTy).Contents (Elt F) → (⟨S1600000x40, .f32⟩ : BufTy).Contents (Elt F)) (restCol al)) (((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)) (((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) h (shapeCast S128x40 (((extractStridedSlice S1x128x40 ![0, 0, 0] · slices_S2x128x40_S1x128x40_0_0_0) : (⟨S2x128x40, .f32⟩ : BufTy).Contents (Elt F) → (⟨S1x128x40, .f32⟩ : BufTy).Contents (Elt F)) W) shapeCasts_S1x128x40_S128x40)) (srcCol s))) ((mulf : (⟨S1600000x40, .f32⟩ : BufTy).Contents (Elt F) → (⟨S1600000x40, .f32⟩ : BufTy).Contents (Elt F) → (⟨S1600000x40, .f32⟩ : BufTy).Contents (Elt F)) ((broadcastInDim S1600000x40 ![0, 1] bcast_S1600000x1_S1600000x40_0_1 : (⟨S1600000x1, .f32⟩ : BufTy).Contents (Elt F) → (⟨S1600000x40, .f32⟩ : BufTy).Contents (Elt F)) (alphaCol al)) (((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)) (((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) h (shapeCast S128x40 (((extractStridedSlice S1x128x40 ![1, 0, 0] · slices_S2x128x40_S1x128x40_1_0_0) : (⟨S2x128x40, .f32⟩ : BufTy).Contents (Elt F) → (⟨S1x128x40, .f32⟩ : BufTy).Contents (Elt F)) W) shapeCasts_S1x128x40_S128x40)) (srcCol s)))

/-- Per node, at width 40: the edge terms summed over the arriving edges, divided by `max (in-degree, 1)`. -/
def agg40 (h : (⟨S100000x128, .f32⟩ : BufTy).Contents (Elt F)) (W : (⟨S2x128x40, .f32⟩ : BufTy).Contents (Elt F)) (s : (⟨S1600000, .i32⟩ : BufTy).Contents (Elt F)) (d : (⟨S1600000, .i32⟩ : BufTy).Contents (Elt F)) (al : (⟨S1600000, .f32⟩ : BufTy).Contents (Elt F)) :
    (⟨S100000x40, .f32⟩ : BufTy).Contents (Elt F) :=
  (Host.divf : (⟨S100000x40, .f32⟩ : BufTy).Contents (Elt F) → (⟨S100000x40, .f32⟩ : BufTy).Contents (Elt F) → (⟨S100000x40, .f32⟩ : BufTy).Contents (Elt F)) (((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)) ((broadcastInDim S100000x40 ![] bcast_S_S100000x40 : (⟨S_, .f32⟩ : BufTy).Contents (Elt F) → (⟨S100000x40, .f32⟩ : BufTy).Contents (Elt F)) (constant S_ .f32 0x00000000#32 : (⟨S_, .f32⟩ : BufTy).Contents (Elt F))) (dstCol d) (edgeMsg40 h W s al)) ((broadcastInDim S100000x40 ![0, 1] bcast_S100000x1_S100000x40_0_1 : (⟨S100000x1, .f32⟩ : BufTy).Contents (Elt F) → (⟨S100000x40, .f32⟩ : BufTy).Contents (Elt F)) (degCol d))

/-- The second layer: the mean of the edge terms, plus `h root`, plus the bias along rows. -/
def core40 (h : (⟨S100000x128, .f32⟩ : BufTy).Contents (Elt F)) (W : (⟨S2x128x40, .f32⟩ : BufTy).Contents (Elt F)) (root : (⟨S128x40, .f32⟩ : BufTy).Contents (Elt F)) (b : (⟨S40, .f32⟩ : BufTy).Contents (Elt F)) (s : (⟨S1600000, .i32⟩ : BufTy).Contents (Elt F)) (d : (⟨S1600000, .i32⟩ : BufTy).Contents (Elt F)) (al : (⟨S1600000, .f32⟩ : BufTy).Contents (Elt F)) :
    (⟨S100000x40, .f32⟩ : BufTy).Contents (Elt F) :=
  (addf : (⟨S100000x40, .f32⟩ : BufTy).Contents (Elt F) → (⟨S100000x40, .f32⟩ : BufTy).Contents (Elt F) → (⟨S100000x40, .f32⟩ : BufTy).Contents (Elt F)) ((addf : (⟨S100000x40, .f32⟩ : BufTy).Contents (Elt F) → (⟨S100000x40, .f32⟩ : BufTy).Contents (Elt F) → (⟨S100000x40, .f32⟩ : BufTy).Contents (Elt F)) (agg40 h W s d al) (((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) h root)) ((broadcastInDim S100000x40 ![0, 1] bcast_S1x40_S100000x40_0_1 : (⟨S1x40, .f32⟩ : BufTy).Contents (Elt F) → (⟨S100000x40, .f32⟩ : BufTy).Contents (Elt F)) ((broadcastInDim S1x40 ![1] bcast_S40_S1x40_1 : (⟨S40, .f32⟩ : BufTy).Contents (Elt F) → (⟨S1x40, .f32⟩ : BufTy).Contents (Elt F)) b))

/-- The first layer's value: the exponential linear unit of the mean aggregation at width 128. -/
def refLayer1 (x : (⟨S100000x128, .f32⟩ : BufTy).Contents (Elt F)) (ei : (⟨S2x1600000, .i32⟩ : BufTy).Contents (Elt F)) (ea : (⟨S1600000x1, .f32⟩ : BufTy).Contents (Elt F))
    (W1 : (⟨S2x128x128, .f32⟩ : BufTy).Contents (Elt F)) (root1 : (⟨S128x128, .f32⟩ : BufTy).Contents (Elt F)) (b1 : (⟨S128, .f32⟩ : BufTy).Contents (Elt F)) :
    (⟨S100000x128, .f32⟩ : BufTy).Contents (Elt F) :=
  elu (pre128 x W1 root1 b1 (srcIdx ei) (dstIdx ei) (alpha ea))

/-- The second layer's value, from the first layer's value `h`: the mean aggregation at width 40. -/
def refLayer2 (h : (⟨S100000x128, .f32⟩ : BufTy).Contents (Elt F)) (ei : (⟨S2x1600000, .i32⟩ : BufTy).Contents (Elt F)) (ea : (⟨S1600000x1, .f32⟩ : BufTy).Contents (Elt F))
    (W2 : (⟨S2x128x40, .f32⟩ : BufTy).Contents (Elt F)) (root2 : (⟨S128x40, .f32⟩ : BufTy).Contents (Elt F)) (b2 : (⟨S40, .f32⟩ : BufTy).Contents (Elt F)) :
    (⟨S100000x40, .f32⟩ : BufTy).Contents (Elt F) :=
  core40 h W2 root2 b2 (srcIdx ei) (dstIdx ei) (alpha ea)

/-- The program's result as a function of its nine arguments: the second layer over the first. -/
def refOut (x : (⟨S100000x128, .f32⟩ : BufTy).Contents (Elt F)) (ei : (⟨S2x1600000, .i32⟩ : BufTy).Contents (Elt F)) (ea : (⟨S1600000x1, .f32⟩ : BufTy).Contents (Elt F))
    (W1 : (⟨S2x128x128, .f32⟩ : BufTy).Contents (Elt F)) (root1 : (⟨S128x128, .f32⟩ : BufTy).Contents (Elt F)) (b1 : (⟨S128, .f32⟩ : BufTy).Contents (Elt F))
    (W2 : (⟨S2x128x40, .f32⟩ : BufTy).Contents (Elt F)) (root2 : (⟨S128x40, .f32⟩ : BufTy).Contents (Elt F)) (b2 : (⟨S40, .f32⟩ : BufTy).Contents (Elt F)) :
    (⟨S100000x40, .f32⟩ : BufTy).Contents (Elt F) :=
  refLayer2 (refLayer1 x ei ea W1 root1 b1) ei ea W2 root2 b2

/-! ## The fold, read layer by layer

The line is cut after the first layer's last operation. Each half is read over an arbitrary valuation,
so the second half's reading mentions the first only through the seven buffers it reads. -/

/-- Running two lines in turn is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first layer's operations: the line up to and including the exponential linear unit. -/
abbrev ops1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg3 main_v4 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v4 main_v5 rfl shapeCasts_S1x128x128_S128x128,
    StableHlo.binary main_arg0 main_v5 main_v6 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v7 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v7 main_v8 rfl shapeCasts_S1x128x128_S128x128,
    StableHlo.binary main_arg0 main_v8 main_v9 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.reshape main_arg2 main_v10 rfl shapeCasts_S1600000x1_S1600000,
    StableHlo.nullary main_cst (constant S_ .f32 0x3F800000#32),
    StableHlo.unary main_cst main_v11 (broadcastInDim S1600000 ![] bcast_S_S1600000 : (⟨S_, .f32⟩ : BufTy).Contents (Elt F) → (⟨S1600000, .f32⟩ : BufTy).Contents (Elt F)),
    StableHlo.binary main_v11 main_v10 main_v12 (subf : (⟨S1600000, .f32⟩ : BufTy).Contents (Elt F) → (⟨S1600000, .f32⟩ : BufTy).Contents (Elt F) → (⟨S1600000, .f32⟩ : BufTy).Contents (Elt F)),
    StableHlo.unary main_v12 main_v13 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v16 (broadcastInDim S1600000 ![] bcast_S_S1600000 : (⟨S_, .i32⟩ : BufTy).Contents (Elt F) → (⟨S1600000, .i32⟩ : BufTy).Contents (Elt F)),
    StableHlo.binary main_v1 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v6 main_v19 main_v20 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v13 main_v21 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v21 main_v20 main_v22 (mulf : (⟨S1600000x128, .f32⟩ : BufTy).Contents (Elt F) → (⟨S1600000x128, .f32⟩ : BufTy).Contents (Elt F) → (⟨S1600000x128, .f32⟩ : BufTy).Contents (Elt F)),
    StableHlo.unary main_v10 main_v23 (broadcastInDim S1600000x1 ![0] bcast_S1600000_S1600000x1_0 : (⟨S1600000, .f32⟩ : BufTy).Contents (Elt F) → (⟨S1600000x1, .f32⟩ : BufTy).Contents (Elt F)),
    StableHlo.nullary main_c_1 (constantI S_ 32 0#32),
    StableHlo.unary main_c_1 main_v24 (broadcastInDim S1600000 ![] bcast_S_S1600000 : (⟨S_, .i32⟩ : BufTy).Contents (Elt F) → (⟨S1600000, .i32⟩ : BufTy).Contents (Elt F)),
    StableHlo.binary main_v1 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v26 (broadcastInDim S1600000 ![] bcast_S_S1600000 : (⟨S_, .i32⟩ : BufTy).Contents (Elt F) → (⟨S1600000, .i32⟩ : BufTy).Contents (Elt F)),
    StableHlo.binary main_v1 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v9 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v23 main_v31 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v31 main_v30 main_v32 (mulf : (⟨S1600000x128, .f32⟩ : BufTy).Contents (Elt F) → (⟨S1600000x128, .f32⟩ : BufTy).Contents (Elt F) → (⟨S1600000x128, .f32⟩ : BufTy).Contents (Elt F)),
    StableHlo.binary main_v22 main_v32 main_v33 (addf : (⟨S1600000x128, .f32⟩ : BufTy).Contents (Elt F) → (⟨S1600000x128, .f32⟩ : BufTy).Contents (Elt F) → (⟨S1600000x128, .f32⟩ : BufTy).Contents (Elt F)),
    StableHlo.nullary main_cst_3 (constant S_ .f32 0x00000000#32),
    StableHlo.unary main_cst_3 main_v34 (broadcastInDim S100000x128 ![] bcast_S_S100000x128 : (⟨S_, .f32⟩ : BufTy).Contents (Elt F) → (⟨S100000x128, .f32⟩ : BufTy).Contents (Elt F)),
    StableHlo.unary main_v3 main_v35 (broadcastInDim S1600000x1 ![0] bcast_S1600000_S1600000x1_0 : (⟨S1600000, .i32⟩ : BufTy).Contents (Elt F) → (⟨S1600000x1, .i32⟩ : BufTy).Contents (Elt F)),
    StableHlo.ternary main_v34 main_v35 main_v33 main_v36 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v37 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v38 (broadcastInDim S100000 ![] bcast_S_S100000 : (⟨S_, .f32⟩ : BufTy).Contents (Elt F) → (⟨S100000, .f32⟩ : BufTy).Contents (Elt F)),
    StableHlo.unary main_v3 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v41 (broadcastInDim S100000 ![] bcast_S_S100000 : (⟨S_, .f32⟩ : BufTy).Contents (Elt F) → (⟨S100000, .f32⟩ : BufTy).Contents (Elt F)),
    StableHlo.binary main_v40 main_v41 main_v42 (maximumf : (⟨S100000, .f32⟩ : BufTy).Contents (Elt F) → (⟨S100000, .f32⟩ : BufTy).Contents (Elt F) → (⟨S100000, .f32⟩ : BufTy).Contents (Elt F)),
    StableHlo.unary main_v42 main_v43 (broadcastInDim S100000x1 ![0] bcast_S100000_S100000x1_0 : (⟨S100000, .f32⟩ : BufTy).Contents (Elt F) → (⟨S100000x1, .f32⟩ : BufTy).Contents (Elt F)),
    StableHlo.unary main_v43 main_v44 (broadcastInDim S100000x128 ![0, 1] bcast_S100000x1_S100000x128_0_1 : (⟨S100000x1, .f32⟩ : BufTy).Contents (Elt F) → (⟨S100000x128, .f32⟩ : BufTy).Contents (Elt F)),
    StableHlo.binary main_v36 main_v44 main_v45 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v45 main_v46 main_v47 (addf : (⟨S100000x128, .f32⟩ : BufTy).Contents (Elt F) → (⟨S100000x128, .f32⟩ : BufTy).Contents (Elt F) → (⟨S100000x128, .f32⟩ : BufTy).Contents (Elt F)),
    StableHlo.unary main_arg5 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v50) main_call0.v0 main_call0.v1 (cmpf .ogt),
    StableHlo.TRef.nullary main_call0.cst_0 (constant S_ .f32 0x00000000#32),
    StableHlo.TRef.unary main_call0.cst_0 main_call0.v2 (broadcastInDim S100000x128 ![] bcast_S_S100000x128),
    StableHlo.TRef.binary (.of main_v50) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x128 ![] bcast_S_S100000x128),
    StableHlo.TRef.ternary main_call0.v3 main_call0.call0.v1 (.of main_v50) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x128 ![] bcast_S_S100000x128),
    StableHlo.TRef.binary main_call0.v6 main_call0.v5 main_call0.v7 mulf,
    StableHlo.TRef.ternary main_call0.v1 (.of main_v50) main_call0.v7 main_call0.call1.v0 select ]

/-- The second layer's operations: the rest of the line. -/
abbrev ops2 : List (HloOp τ sig (Elt F)) :=
  [ StableHlo.unary main_arg6 main_v52 ((extractStridedSlice S1x128x40 ![0, 0, 0] · slices_S2x128x40_S1x128x40_0_0_0) : (⟨S2x128x40, .f32⟩ : BufTy).Contents (Elt F) → (⟨S1x128x40, .f32⟩ : BufTy).Contents (Elt F)),
    StableHlo.reshape main_v52 main_v53 rfl shapeCasts_S1x128x40_S128x40,
    StableHlo.binary main_v51 main_v53 main_v54 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg6 main_v55 ((extractStridedSlice S1x128x40 ![1, 0, 0] · slices_S2x128x40_S1x128x40_1_0_0) : (⟨S2x128x40, .f32⟩ : BufTy).Contents (Elt F) → (⟨S1x128x40, .f32⟩ : BufTy).Contents (Elt F)),
    StableHlo.reshape main_v55 main_v56 rfl shapeCasts_S1x128x40_S128x40,
    StableHlo.binary main_v51 main_v56 main_v57 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.reshape main_arg2 main_v58 rfl shapeCasts_S1600000x1_S1600000,
    StableHlo.nullary main_cst_7 (constant S_ .f32 0x3F800000#32),
    StableHlo.unary main_cst_7 main_v59 (broadcastInDim S1600000 ![] bcast_S_S1600000 : (⟨S_, .f32⟩ : BufTy).Contents (Elt F) → (⟨S1600000, .f32⟩ : BufTy).Contents (Elt F)),
    StableHlo.binary main_v59 main_v58 main_v60 (subf : (⟨S1600000, .f32⟩ : BufTy).Contents (Elt F) → (⟨S1600000, .f32⟩ : BufTy).Contents (Elt F) → (⟨S1600000, .f32⟩ : BufTy).Contents (Elt F)),
    StableHlo.unary main_v60 main_v61 (broadcastInDim S1600000x1 ![0] bcast_S1600000_S1600000x1_0 : (⟨S1600000, .f32⟩ : BufTy).Contents (Elt F) → (⟨S1600000x1, .f32⟩ : BufTy).Contents (Elt F)),
    StableHlo.nullary main_c_8 (constantI S_ 32 0#32),
    StableHlo.unary main_c_8 main_v62 (broadcastInDim S1600000 ![] bcast_S_S1600000 : (⟨S_, .i32⟩ : BufTy).Contents (Elt F) → (⟨S1600000, .i32⟩ : BufTy).Contents (Elt F)),
    StableHlo.binary main_v1 main_v62 main_v63 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v64 (broadcastInDim S1600000 ![] bcast_S_S1600000 : (⟨S_, .i32⟩ : BufTy).Contents (Elt F) → (⟨S1600000, .i32⟩ : BufTy).Contents (Elt F)),
    StableHlo.binary main_v1 main_v64 main_v65 (addi : (⟨S1600000, .i32⟩ : BufTy).Contents (Elt F) → (⟨S1600000, .i32⟩ : BufTy).Contents (Elt F) → (⟨S1600000, .i32⟩ : BufTy).Contents (Elt F)),
    StableHlo.ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v66 main_v67 (broadcastInDim S1600000x1 ![0] bcast_S1600000_S1600000x1_0 : (⟨S1600000, .i32⟩ : BufTy).Contents (Elt F) → (⟨S1600000x1, .i32⟩ : BufTy).Contents (Elt F)),
    StableHlo.binary main_v54 main_v67 main_v68 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    StableHlo.unary main_v61 main_v69 (broadcastInDim S1600000x40 ![0, 1] bcast_S1600000x1_S1600000x40_0_1 : (⟨S1600000x1, .f32⟩ : BufTy).Contents (Elt F) → (⟨S1600000x40, .f32⟩ : BufTy).Contents (Elt F)),
    StableHlo.binary main_v69 main_v68 main_v70 (mulf : (⟨S1600000x40, .f32⟩ : BufTy).Contents (Elt F) → (⟨S1600000x40, .f32⟩ : BufTy).Contents (Elt F) → (⟨S1600000x40, .f32⟩ : BufTy).Contents (Elt F)),
    StableHlo.unary main_v58 main_v71 (broadcastInDim S1600000x1 ![0] bcast_S1600000_S1600000x1_0 : (⟨S1600000, .f32⟩ : BufTy).Contents (Elt F) → (⟨S1600000x1, .f32⟩ : BufTy).Contents (Elt F)),
    StableHlo.nullary main_c_10 (constantI S_ 32 0#32),
    StableHlo.unary main_c_10 main_v72 (broadcastInDim S1600000 ![] bcast_S_S1600000 : (⟨S_, .i32⟩ : BufTy).Contents (Elt F) → (⟨S1600000, .i32⟩ : BufTy).Contents (Elt F)),
    StableHlo.binary main_v1 main_v72 main_v73 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v74 (broadcastInDim S1600000 ![] bcast_S_S1600000 : (⟨S_, .i32⟩ : BufTy).Contents (Elt F) → (⟨S1600000, .i32⟩ : BufTy).Contents (Elt F)),
    StableHlo.binary main_v1 main_v74 main_v75 (addi : (⟨S1600000, .i32⟩ : BufTy).Contents (Elt F) → (⟨S1600000, .i32⟩ : BufTy).Contents (Elt F) → (⟨S1600000, .i32⟩ : BufTy).Contents (Elt F)),
    StableHlo.ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v76 main_v77 (broadcastInDim S1600000x1 ![0] bcast_S1600000_S1600000x1_0 : (⟨S1600000, .i32⟩ : BufTy).Contents (Elt F) → (⟨S1600000x1, .i32⟩ : BufTy).Contents (Elt F)),
    StableHlo.binary main_v57 main_v77 main_v78 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    StableHlo.unary main_v71 main_v79 (broadcastInDim S1600000x40 ![0, 1] bcast_S1600000x1_S1600000x40_0_1 : (⟨S1600000x1, .f32⟩ : BufTy).Contents (Elt F) → (⟨S1600000x40, .f32⟩ : BufTy).Contents (Elt F)),
    StableHlo.binary main_v79 main_v78 main_v80 (mulf : (⟨S1600000x40, .f32⟩ : BufTy).Contents (Elt F) → (⟨S1600000x40, .f32⟩ : BufTy).Contents (Elt F) → (⟨S1600000x40, .f32⟩ : BufTy).Contents (Elt F)),
    StableHlo.binary main_v70 main_v80 main_v81 (addf : (⟨S1600000x40, .f32⟩ : BufTy).Contents (Elt F) → (⟨S1600000x40, .f32⟩ : BufTy).Contents (Elt F) → (⟨S1600000x40, .f32⟩ : BufTy).Contents (Elt F)),
    StableHlo.nullary main_cst_12 (constant S_ .f32 0x00000000#32),
    StableHlo.unary main_cst_12 main_v82 (broadcastInDim S100000x40 ![] bcast_S_S100000x40 : (⟨S_, .f32⟩ : BufTy).Contents (Elt F) → (⟨S100000x40, .f32⟩ : BufTy).Contents (Elt F)),
    StableHlo.unary main_v3 main_v83 (broadcastInDim S1600000x1 ![0] bcast_S1600000_S1600000x1_0 : (⟨S1600000, .i32⟩ : BufTy).Contents (Elt F) → (⟨S1600000x1, .i32⟩ : BufTy).Contents (Elt F)),
    StableHlo.ternary main_v82 main_v83 main_v81 main_v84 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    StableHlo.nullary main_cst_13 (constant S_ .f32 0x3F800000#32),
    StableHlo.unary main_cst_13 main_v85 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v86 (broadcastInDim S100000 ![] bcast_S_S100000 : (⟨S_, .f32⟩ : BufTy).Contents (Elt F) → (⟨S100000, .f32⟩ : BufTy).Contents (Elt F)),
    StableHlo.unary main_v3 main_v87 (broadcastInDim S1600000x1 ![0] bcast_S1600000_S1600000x1_0 : (⟨S1600000, .i32⟩ : BufTy).Contents (Elt F) → (⟨S1600000x1, .i32⟩ : BufTy).Contents (Elt F)),
    StableHlo.ternary main_v86 main_v87 main_v85 main_v88 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x3F800000#32),
    StableHlo.unary main_cst_15 main_v89 (broadcastInDim S100000 ![] bcast_S_S100000 : (⟨S_, .f32⟩ : BufTy).Contents (Elt F) → (⟨S100000, .f32⟩ : BufTy).Contents (Elt F)),
    StableHlo.binary main_v88 main_v89 main_v90 (maximumf : (⟨S100000, .f32⟩ : BufTy).Contents (Elt F) → (⟨S100000, .f32⟩ : BufTy).Contents (Elt F) → (⟨S100000, .f32⟩ : BufTy).Contents (Elt F)),
    StableHlo.unary main_v90 main_v91 (broadcastInDim S100000x1 ![0] bcast_S100000_S100000x1_0 : (⟨S100000, .f32⟩ : BufTy).Contents (Elt F) → (⟨S100000x1, .f32⟩ : BufTy).Contents (Elt F)),
    StableHlo.unary main_v91 main_v92 (broadcastInDim S100000x40 ![0, 1] bcast_S100000x1_S100000x40_0_1 : (⟨S100000x1, .f32⟩ : BufTy).Contents (Elt F) → (⟨S100000x40, .f32⟩ : BufTy).Contents (Elt F)),
    StableHlo.binary main_v84 main_v92 main_v93 (Host.divf : (⟨S100000x40, .f32⟩ : BufTy).Contents (Elt F) → (⟨S100000x40, .f32⟩ : BufTy).Contents (Elt F) → (⟨S100000x40, .f32⟩ : BufTy).Contents (Elt F)),
    StableHlo.binary main_v51 main_arg7 main_v94 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.binary main_v93 main_v94 main_v95 (addf : (⟨S100000x40, .f32⟩ : BufTy).Contents (Elt F) → (⟨S100000x40, .f32⟩ : BufTy).Contents (Elt F) → (⟨S100000x40, .f32⟩ : BufTy).Contents (Elt F)),
    StableHlo.unary main_arg8 main_v96 (broadcastInDim S1x40 ![1] bcast_S40_S1x40_1 : (⟨S40, .f32⟩ : BufTy).Contents (Elt F) → (⟨S1x40, .f32⟩ : BufTy).Contents (Elt F)),
    StableHlo.unary main_v96 main_v97 (broadcastInDim S100000x40 ![0, 1] bcast_S1x40_S100000x40_0_1 : (⟨S1x40, .f32⟩ : BufTy).Contents (Elt F) → (⟨S100000x40, .f32⟩ : BufTy).Contents (Elt F)),
    StableHlo.binary main_v95 main_v97 main_v98 (addf : (⟨S100000x40, .f32⟩ : BufTy).Contents (Elt F) → (⟨S100000x40, .f32⟩ : BufTy).Contents (Elt F) → (⟨S100000x40, .f32⟩ : BufTy).Contents (Elt F)) ]

theorem ops_eq : (ops : List (HloOp τ sig (Elt F))) = ops1 ++ ops2 := rfl

theorem after_ops (V : Valuation τ sig (Elt F)) : after ops V = after ops2 (after ops1 V) := by
  rw [ops_eq, after_append]

set_option maxRecDepth 8192 in
theorem src_at (V : Valuation τ sig (Elt F)) :
    after ops1 V (main_v1 : DevRef τ sig) = srcIdx (V (main_arg1 : DevRef τ sig)) := by
  after_results_simp <;> rfl

set_option maxRecDepth 8192 in
theorem dst_at (V : Valuation τ sig (Elt F)) :
    after ops1 V (main_v3 : DevRef τ sig) = dstIdx (V (main_arg1 : DevRef τ sig)) := by
  after_results_simp <;> rfl

set_option maxRecDepth 8192 in
set_option maxHeartbeats 1000000 in
/-- The first half leaves the first layer's value in its result buffer. -/
theorem layer1_at (V : Valuation τ sig (Elt F)) :
    after ops1 V (main_v51 : DevRef τ sig)
      = refLayer1 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp <;> rfl

set_option maxRecDepth 8192 in
set_option maxHeartbeats 1000000 in
/-- The second half leaves, in the result buffer, the second layer over the seven buffers it reads. -/
theorem layer2_at (W : Valuation τ sig (Elt F)) :
    after ops2 W (main_v98 : DevRef τ sig)
      = core40 (W (main_v51 : DevRef τ sig)) (W (main_arg6 : DevRef τ sig)) (W (main_arg7 : DevRef τ sig)) (W (main_arg8 : DevRef τ sig)) (W (main_v1 : DevRef τ sig)) (W (main_v3 : DevRef τ sig)) (alpha (W (main_arg2 : DevRef τ sig))) := by
  after_results_simp <;> rfl

/-! Neither half writes an argument. -/
theorem kept1_0 (V : Valuation τ sig (Elt F)) :
    after ops1 V (main_arg0 : DevRef τ sig) = V (main_arg0 : DevRef τ sig) := by
  after_results_simp
theorem kept1_1 (V : Valuation τ sig (Elt F)) :
    after ops1 V (main_arg1 : DevRef τ sig) = V (main_arg1 : DevRef τ sig) := by
  after_results_simp
theorem kept1_2 (V : Valuation τ sig (Elt F)) :
    after ops1 V (main_arg2 : DevRef τ sig) = V (main_arg2 : DevRef τ sig) := by
  after_results_simp
theorem kept1_3 (V : Valuation τ sig (Elt F)) :
    after ops1 V (main_arg3 : DevRef τ sig) = V (main_arg3 : DevRef τ sig) := by
  after_results_simp
theorem kept1_4 (V : Valuation τ sig (Elt F)) :
    after ops1 V (main_arg4 : DevRef τ sig) = V (main_arg4 : DevRef τ sig) := by
  after_results_simp
theorem kept1_5 (V : Valuation τ sig (Elt F)) :
    after ops1 V (main_arg5 : DevRef τ sig) = V (main_arg5 : DevRef τ sig) := by
  after_results_simp
theorem kept1_6 (V : Valuation τ sig (Elt F)) :
    after ops1 V (main_arg6 : DevRef τ sig) = V (main_arg6 : DevRef τ sig) := by
  after_results_simp
theorem kept1_7 (V : Valuation τ sig (Elt F)) :
    after ops1 V (main_arg7 : DevRef τ sig) = V (main_arg7 : DevRef τ sig) := by
  after_results_simp
theorem kept1_8 (V : Valuation τ sig (Elt F)) :
    after ops1 V (main_arg8 : DevRef τ sig) = V (main_arg8 : DevRef τ sig) := by
  after_results_simp
theorem kept2_0 (W : Valuation τ sig (Elt F)) :
    after ops2 W (main_arg0 : DevRef τ sig) = W (main_arg0 : DevRef τ sig) := by
  after_results_simp
theorem kept2_1 (W : Valuation τ sig (Elt F)) :
    after ops2 W (main_arg1 : DevRef τ sig) = W (main_arg1 : DevRef τ sig) := by
  after_results_simp
theorem kept2_2 (W : Valuation τ sig (Elt F)) :
    after ops2 W (main_arg2 : DevRef τ sig) = W (main_arg2 : DevRef τ sig) := by
  after_results_simp
theorem kept2_3 (W : Valuation τ sig (Elt F)) :
    after ops2 W (main_arg3 : DevRef τ sig) = W (main_arg3 : DevRef τ sig) := by
  after_results_simp
theorem kept2_4 (W : Valuation τ sig (Elt F)) :
    after ops2 W (main_arg4 : DevRef τ sig) = W (main_arg4 : DevRef τ sig) := by
  after_results_simp
theorem kept2_5 (W : Valuation τ sig (Elt F)) :
    after ops2 W (main_arg5 : DevRef τ sig) = W (main_arg5 : DevRef τ sig) := by
  after_results_simp
theorem kept2_6 (W : Valuation τ sig (Elt F)) :
    after ops2 W (main_arg6 : DevRef τ sig) = W (main_arg6 : DevRef τ sig) := by
  after_results_simp
theorem kept2_7 (W : Valuation τ sig (Elt F)) :
    after ops2 W (main_arg7 : DevRef τ sig) = W (main_arg7 : DevRef τ sig) := by
  after_results_simp
theorem kept2_8 (W : Valuation τ sig (Elt F)) :
    after ops2 W (main_arg8 : DevRef τ sig) = W (main_arg8 : DevRef τ sig) := by
  after_results_simp

/-- The whole line leaves the result at `refOut` of the arguments' launch contents. -/
theorem out_eq (V : Valuation τ sig (Elt F)) :
    after ops V (main_v98 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_ops, layer2_at, layer1_at, src_at, dst_at, kept1_2, kept1_6, kept1_7, kept1_8]
  rfl

theorem kept_0 (V : Valuation τ sig (Elt F)) :
    after ops V (main_arg0 : DevRef τ sig) = V (main_arg0 : DevRef τ sig) := by
  rw [after_ops, kept2_0, kept1_0]
theorem kept_1 (V : Valuation τ sig (Elt F)) :
    after ops V (main_arg1 : DevRef τ sig) = V (main_arg1 : DevRef τ sig) := by
  rw [after_ops, kept2_1, kept1_1]
theorem kept_2 (V : Valuation τ sig (Elt F)) :
    after ops V (main_arg2 : DevRef τ sig) = V (main_arg2 : DevRef τ sig) := by
  rw [after_ops, kept2_2, kept1_2]
theorem kept_3 (V : Valuation τ sig (Elt F)) :
    after ops V (main_arg3 : DevRef τ sig) = V (main_arg3 : DevRef τ sig) := by
  rw [after_ops, kept2_3, kept1_3]
theorem kept_4 (V : Valuation τ sig (Elt F)) :
    after ops V (main_arg4 : DevRef τ sig) = V (main_arg4 : DevRef τ sig) := by
  rw [after_ops, kept2_4, kept1_4]
theorem kept_5 (V : Valuation τ sig (Elt F)) :
    after ops V (main_arg5 : DevRef τ sig) = V (main_arg5 : DevRef τ sig) := by
  rw [after_ops, kept2_5, kept1_5]
theorem kept_6 (V : Valuation τ sig (Elt F)) :
    after ops V (main_arg6 : DevRef τ sig) = V (main_arg6 : DevRef τ sig) := by
  rw [after_ops, kept2_6, kept1_6]
theorem kept_7 (V : Valuation τ sig (Elt F)) :
    after ops V (main_arg7 : DevRef τ sig) = V (main_arg7 : DevRef τ sig) := by
  rw [after_ops, kept2_7, kept1_7]
theorem kept_8 (V : Valuation τ sig (Elt F)) :
    after ops V (main_arg8 : DevRef τ sig) = V (main_arg8 : DevRef τ sig) := by
  rw [after_ops, kept2_8, kept1_8]

/-- On every device, for any float values, from any memory with zero counters: every weakly fair execution of
    @main terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v98).trans (out_eq _),
      (h c main_arg0).trans (kept_0 _),
      (h c main_arg1).trans (kept_1 _),
      (h c main_arg2).trans (kept_2 _),
      (h c main_arg3).trans (kept_3 _),
      (h c main_arg4).trans (kept_4 _),
      (h c main_arg5).trans (kept_5 _),
      (h c main_arg6).trans (kept_6 _),
      (h c main_arg7).trans (kept_7 _),
      (h c main_arg8).trans (kept_8 _)⟩)
    (run_all m ρ)

end Cert.ReferenceIdeal.HandRun

end
-- ==== Proof.RefNet.lean ====
/-
  The reference program's two layers are the same functions of the arguments as the kernel's.

  The reference spells a layer with host operations only: two `dot_general`s gathered at the edges' sources and blended
  by the edge coordinate laid along the lanes, a scatter-add of the messages to the edges' destinations DIVIDED by the
  message count (taken as at least 1) laid along the lanes, plus a third `dot_general`, plus the bias laid along the
  rows; the first layer ends in jax's `elu`, `select (z > 0) z (1 · expm1 (select (z > 0) 0 z))`. Entry by entry this is
  the blend, the combination and the activation of Spec.lean over the same gathers and the same scatter-add, by three
  laws of the extended reals: a host `dot_general` is the plain sum of products; a quotient by a nonzero `d` is the
  product with `1 / d`, and `max c 1` is never zero; and `1 · (exp z − 1) = exp z − 1`, with `expm1 z = exp z − 1`
  at the ideal values. No law here needs the inputs finite.
-/
import proofs.«121759_j17231408791938_1_alg».proof.Proof.RefRun
import proofs.«121759_j17231408791938_1_alg».proof.Proof.Spec
import Idealize.ShloMosaic.Lib.StackMember
import Idealize.ShloMosaic.Lib.IdealHost
import Idealize.ShloMosaic.Lib.Pipeline.Value
import Idealize.ShloMosaic.Lib.ValueIdx
import Idealize.ShloMosaic.PureOps.Ideal.Laws

set_option maxRecDepth 16384

noncomputable section

namespace Cert.ReferenceIdeal.Net

open Cert.ReferenceIdeal Cert.ReferenceIdeal.Gen Cert.Spline
open Idealize.ShloMosaic Idealize.ShloMosaic.ValueIdx Idealize.ShloMosaic.StackMember

/-- A buffer's contents at the ideal instance. -/
abbrev T (s : Shape) (e : EltTy) : Type := (⟨s, e⟩ : BufTy).Contents (Elt Ideal)

/-- Row `k` of the edge list (`k = 0`: the source nodes, `k = 1`: the destination nodes) as a vector over the edges. -/
def edgeRow0 (ei : T S2x1600000 .i32) : T S1600000 .i32 :=
  shapeCast S1600000 (extractStridedSlice S1x1600000 ![0, 0] ei slices_S2x1600000_S1x1600000_0_0) shapeCasts_S1x1600000_S1600000
def edgeRow1 (ei : T S2x1600000 .i32) : T S1600000 .i32 :=
  shapeCast S1600000 (extractStridedSlice S1x1600000 ![1, 0] ei slices_S2x1600000_S1x1600000_1_0) shapeCasts_S1x1600000_S1600000

/-- The gather's index column: a negative node number is wrapped by the node count, then the vector is made a column. -/
def wrapCol (s : T S1600000 .i32) : T S1600000x1 .i32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The scatter's index column. -/
def col (d : T S1600000 .i32) : T S1600000x1 .i32 := broadcastInDim S1600000x1 ![0] bcast_S1600000_S1600000x1_0 d

/-- The reciprocal of each node's message count (the count taken as at least 1), as a column. -/
def invCol (d : T S1600000 .i32) : T S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal) (Host.scatterAdd (F := Ideal) scatter_S100000_S1600000x1_S1600000_n_0_0_1
          (broadcastInDim S100000 ![] bcast_S_S100000 (constant (F := Ideal) S_ .f32 0x00000000#32)) (col d)
          (broadcastInDim S1600000 ![] bcast_S_S1600000 (constant (F := Ideal) S_ .f32 0x3F800000#32)))
        (broadcastInDim S100000 ![] bcast_S_S100000 (constant (F := Ideal) S_ .f32 0x3F800000#32))))

/-- The two weight matrices of a layer's blend, cut out of the stacked weights. -/
def w128_0 (W : T S2x128x128 .f32) : T S128x128 .f32 :=
  shapeCast S128x128 (extractStridedSlice S1x128x128 ![0, 0, 0] W slices_S2x128x128_S1x128x128_0_0_0) shapeCasts_S1x128x128_S128x128
def w128_1 (W : T S2x128x128 .f32) : T S128x128 .f32 :=
  shapeCast S128x128 (extractStridedSlice S1x128x128 ![1, 0, 0] W slices_S2x128x128_S1x128x128_1_0_0) shapeCasts_S1x128x128_S128x128
def w40_0 (W : T S2x128x40 .f32) : T S128x40 .f32 :=
  shapeCast S128x40 (extractStridedSlice S1x128x40 ![0, 0, 0] W slices_S2x128x40_S1x128x40_0_0_0) shapeCasts_S1x128x40_S128x40
def w40_1 (W : T S2x128x40 .f32) : T S128x40 .f32 :=
  shapeCast S128x40 (extractStridedSlice S1x128x40 ![1, 0, 0] W slices_S2x128x40_S1x128x40_1_0_0) shapeCasts_S1x128x40_S128x40

/-- The summed messages of the first layer: each edge's blend of the two transforms of its source node, added into its
    destination node's row. -/
def agg1 (x : T S100000x128 .f32) (ei : T S2x1600000 .i32) (ea : T S1600000x1 .f32) (W : T S2x128x128 .f32) : T S100000x128 .f32 :=
  Host.scatterAdd (F := Ideal) scatter_S100000x128_S1600000x1_S1600000x128_1_0_0_1
    (broadcastInDim S100000x128 ![] bcast_S_S100000x128 (constant (F := Ideal) S_ .f32 0x00000000#32)) (col (edgeRow1 ei))
    (blend (F := Ideal) (n := 1600000) (k := 128)
      (Host.gather gather_S100000x128_S1600000x1_S1600000x128_1_0_n_n_0_1_1128 (dense (n := 100000) (k := 128) x (w128_0 W)) (wrapCol (edgeRow0 ei)))
      (Host.gather gather_S100000x128_S1600000x1_S1600000x128_1_0_n_n_0_1_1128 (dense (n := 100000) (k := 128) x (w128_1 W)) (wrapCol (edgeRow0 ei)))
      ea)

/-- The first layer: the mean of the arriving messages, plus the node's own transform, plus the bias row `β`, then `ELU`. -/
def layer1 (x : T S100000x128 .f32) (ei : T S2x1600000 .i32) (ea : T S1600000x1 .f32) (W : T S2x128x128 .f32)
    (R : T S128x128 .f32) (β : T S1x128 .f32) : T S100000x128 .f32 :=
  combineElu (F := Ideal) (n := 100000) (k := 128) (agg1 x ei ea W) (invCol (edgeRow1 ei)) (dense (n := 100000) (k := 128) x R) β

/-- The summed messages of the second layer, at 40 lanes. -/
def agg2 (h : T S100000x128 .f32) (ei : T S2x1600000 .i32) (ea : T S1600000x1 .f32) (W : T S2x128x40 .f32) : T S100000x40 .f32 :=
  Host.scatterAdd (F := Ideal) scatter_S100000x40_S1600000x1_S1600000x40_1_0_0_1
    (broadcastInDim S100000x40 ![] bcast_S_S100000x40 (constant (F := Ideal) S_ .f32 0x00000000#32)) (col (edgeRow1 ei))
    (blend (F := Ideal) (n := 1600000) (k := 40)
      (Host.gather gather_S100000x40_S1600000x1_S1600000x40_1_0_n_n_0_1_140 (dense (n := 100000) (k := 40) h (w40_0 W)) (wrapCol (edgeRow0 ei)))
      (Host.gather gather_S100000x40_S1600000x1_S1600000x40_1_0_n_n_0_1_140 (dense (n := 100000) (k := 40) h (w40_1 W)) (wrapCol (edgeRow0 ei)))
      ea)

/-- The second layer: the same combination at 40 lanes with its bias row `β`, and no activation. -/
def layer2 (h : T S100000x128 .f32) (ei : T S2x1600000 .i32) (ea : T S1600000x1 .f32) (W : T S2x128x40 .f32)
    (R : T S128x40 .f32) (β : T S1x40 .f32) : T S100000x40 .f32 :=
  combine (F := Ideal) (n := 100000) (k := 40) (agg2 h ei ea W) (invCol (edgeRow1 ei)) (dense (n := 100000) (k := 40) h R) β

/-! ## A host `dot_general` is the dense transform -/

theorem dot128 (x : FVec Ideal S100000x128 .f32) (w : FVec Ideal S128x128 .f32) :
    Host.dotGeneral (F := Ideal) dot_S100000x128_S128x128_S100000x128_1_0_0_1_n_n none x w = dense (n := 100000) (k := 128) x w := by
  funext i
  obtain ⟨a, b, rfl⟩ : ∃ (a : Fin 100000) (b : Fin 128), i = ix2 a b := ⟨i 0, i 1, eq_ix2 i⟩
  exact dotGeneral_plain_apply (m := 100000) (n := 128) (k := 128) none x w a b

theorem dot40 (x : FVec Ideal S100000x128 .f32) (w : FVec Ideal S128x40 .f32) :
    Host.dotGeneral (F := Ideal) dot_S100000x128_S128x40_S100000x40_1_0_0_1_n_n none x w = dense (n := 100000) (k := 40) x w := by
  funext i
  obtain ⟨a, b, rfl⟩ : ∃ (a : Fin 100000) (b : Fin 40), i = ix2 a b := ⟨i 0, i 1, eq_ix2 i⟩
  exact dotGeneral_plain_apply (m := 100000) (n := 40) (k := 128) none x w a b

/-! ## The reference's columns and rows read at an index -/

/-- The flattened edge coordinate at edge `p` is the coordinate column's entry. -/
theorem alpha_apply (ea : T S1600000x1 .f32) (p : Fin 1600000) : HandRun.alpha (F := Ideal) ea (ix1 p) = ea (ix2 p (0 : Fin 1)) := by
  unfold HandRun.alpha
  refine shapeCast_apply ea shapeCasts_S1600000x1_S1600000 (ix1 p) (ix2 p (0 : Fin 1)) ?_
  rw [Shape.rowMajor_val_two, Shape.rowMajor_val_one]
  show p.val * 1 + 0 = p.val
  omega

/-- `1 − a` as a column, at edge `p`. -/
theorem restCol_apply (al : T S1600000 .f32) (p : Fin 1600000) :
    HandRun.restCol (F := Ideal) al (ix2 p (0 : Fin 1)) = Ideal.ofBits .f32 0x3F800000#32 - al (ix1 p) := by
  unfold HandRun.restCol
  exact broadcastInDim_apply _ _ _ (ix2 p (0 : Fin 1)) (ix1 p) (fun a => by match a with | ⟨0, _⟩ => rfl)

/-- `a` as a column, at edge `p`. -/
theorem alphaCol_apply (al : T S1600000 .f32) (p : Fin 1600000) :
    HandRun.alphaCol (F := Ideal) al (ix2 p (0 : Fin 1)) = al (ix1 p) := by
  unfold HandRun.alphaCol
  exact broadcastInDim_apply _ _ _ (ix2 p (0 : Fin 1)) (ix1 p) (fun a => by match a with | ⟨0, _⟩ => rfl)

/-- A column laid along the lanes reads the column's entry of the row. -/
theorem lanes_apply {n k : Nat} (hn : n ≠ 1) (h : (⟨2, ![n, 1]⟩ : Shape).BroadcastsInDim ⟨2, ![n, k]⟩ ![0, 1])
    (v : (⟨2, ![n, 1]⟩ : Shape).Idx → EReal) (p : Fin n) (q : Fin k) :
    broadcastInDim ⟨2, ![n, k]⟩ ![0, 1] h v (ix2 p q) = v (ix2 p (0 : Fin 1)) :=
  broadcastInDim_apply _ h v (ix2 p q) (ix2 p (0 : Fin 1)) (fun a => by
    match a with
    | ⟨0, _⟩ => show p.val = if n = 1 then 0 else p.val; rw [if_neg hn]
    | ⟨1, _⟩ => rfl)

/-- A row laid along the rows of a matrix reads the row's entry of the lane. -/
theorem rows_apply {n k : Nat} (hk : k ≠ 1) (h : (⟨2, ![1, k]⟩ : Shape).BroadcastsInDim ⟨2, ![n, k]⟩ ![0, 1])
    (v : (⟨2, ![1, k]⟩ : Shape).Idx → EReal) (p : Fin n) (q : Fin k) :
    broadcastInDim ⟨2, ![n, k]⟩ ![0, 1] h v (ix2 p q) = v (ix2 (0 : Fin 1) q) :=
  broadcastInDim_apply _ h v (ix2 p q) (ix2 (0 : Fin 1) q) (fun a => by
    match a with
    | ⟨0, _⟩ => rfl
    | ⟨1, _⟩ => show q.val = if k = 1 then 0 else q.val; rw [if_neg hk])

/-- `max (c, 1)` of a count vector `c`, as a column: the reference's divisor. -/
abbrev maxCol (cn : FVec Ideal S100000 .f32) : T S100000x1 .f32 :=
  broadcastInDim S100000x1 ![0] bcast_S100000_S100000x1_0
    (maximumf (F := Ideal) cn (broadcastInDim S100000 ![] bcast_S_S100000 (constant (F := Ideal) S_ .f32 0x3F800000#32)))

/-- `1 / max (c, 1)` of a count vector `c`, as a column: the kernel's factor. -/
abbrev invMaxCol (cn : FVec Ideal S100000 .f32) : T S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal) cn (broadcastInDim S100000 ![] bcast_S_S100000 (constant (F := Ideal) S_ .f32 0x3F800000#32))))

theorem maxCol_apply (cn : FVec Ideal S100000 .f32) (p : Fin 100000) :
    maxCol cn (ix2 p (0 : Fin 1)) = max (cn (ix1 p)) 1 := by
  refine (broadcastInDim_apply _ _ _ (ix2 p (0 : Fin 1)) (ix1 p) (fun a => by match a with | ⟨0, _⟩ => rfl)).trans ?_
  show max (cn (ix1 p)) (Ideal.ofBits .f32 0x3F800000#32) = _
  rw [Ideal.ofBits_one_f32]

theorem invMaxCol_apply (cn : FVec Ideal S100000 .f32) (p : Fin 100000) :
    invMaxCol cn (ix2 p (0 : Fin 1)) = Ideal.div 1 (max (cn (ix1 p)) 1) := by
  refine (broadcastInDim_apply _ _ _ (ix2 p (0 : Fin 1)) (ix1 p) (fun a => by match a with | ⟨0, _⟩ => rfl)).trans ?_
  show Ideal.div (Ideal.ofBits .f32 0x3F800000#32) (max (cn (ix1 p)) (Ideal.ofBits .f32 0x3F800000#32)) = _
  rw [Ideal.ofBits_one_f32]

/-- A quotient by a nonzero extended real is the product with its reciprocal. -/
theorem div_eq_mul_div_one (s d : EReal) (h : d ≠ 0) : Ideal.div s d = s * Ideal.div 1 d := by
  unfold Ideal.div
  rw [if_neg h, if_neg h, one_mul]

/-- A count taken as at least 1 is never zero. -/
theorem max_one_ne_zero (c : EReal) : max c 1 ≠ 0 :=
  (lt_of_lt_of_le zero_lt_one (le_max_right c 1)).ne'

/-! ## The combination: the mean as a quotient is the mean as a product -/

/-- The summed messages `S` divided by `max (c, 1)` along the lanes, plus `X`, plus the row `β` along the rows, is the
    combination of `S`, the column `1 / max (c, 1)`, `X` and `β` — for any arrays `S`, `X` of `k` lanes and any count `c`. -/
theorem pre_eq {k : Nat} (hk : k ≠ 1)
    (hl : (⟨2, ![100000, 1]⟩ : Shape).BroadcastsInDim ⟨2, ![100000, k]⟩ ![0, 1])
    (hr : (⟨2, ![1, k]⟩ : Shape).BroadcastsInDim ⟨2, ![100000, k]⟩ ![0, 1])
    (S X : FVec Ideal ⟨2, ![100000, k]⟩ .f32) (cn : FVec Ideal S100000 .f32) (β : FVec Ideal ⟨2, ![1, k]⟩ .f32) :
    addf (addf (Host.divf (F := Ideal) S (broadcastInDim ⟨2, ![100000, k]⟩ ![0, 1] hl (maxCol cn))) X)
        (broadcastInDim ⟨2, ![100000, k]⟩ ![0, 1] hr β)
      = combine (F := Ideal) (n := 100000) (k := k) S (invMaxCol cn) X β := by
  funext i
  obtain ⟨p, q, rfl⟩ : ∃ (p : Fin 100000) (q : Fin k), i = ix2 p q := ⟨i 0, i 1, eq_ix2 i⟩
  show (Ideal.div (S (ix2 p q)) (broadcastInDim ⟨2, ![100000, k]⟩ ![0, 1] hl (maxCol cn) (ix2 p q)) + X (ix2 p q))
      + broadcastInDim ⟨2, ![100000, k]⟩ ![0, 1] hr β (ix2 p q)
    = (S (ix2 p q) * invMaxCol cn (ix2 p (0 : Fin 1)) + X (ix2 p q)) + β (ix2 (0 : Fin 1) q)
  rw [rows_apply hk, lanes_apply (by decide), maxCol_apply, invMaxCol_apply, div_eq_mul_div_one _ _ (max_one_ne_zero _)]

/-! ## The reference's index vectors and columns are the network's (the same operations) -/

theorem srcIdx_eq (ei : T S2x1600000 .i32) : HandRun.srcIdx (F := Ideal) ei = edgeRow0 ei := rfl
theorem dstIdx_eq (ei : T S2x1600000 .i32) : HandRun.dstIdx (F := Ideal) ei = edgeRow1 ei := rfl
theorem srcCol_eq (s : T S1600000 .i32) : HandRun.srcCol (F := Ideal) s = wrapCol s := rfl
theorem dstCol_eq (d : T S1600000 .i32) : HandRun.dstCol (F := Ideal) d = col d := rfl

/-! ## The edge messages: a blend of whatever two arrays were gathered -/

/-- `(1 − a)` along the lanes times `A`, plus `a` along the lanes times `B`, is the blend of `A` and `B` by the
    coordinate column, for any two edge arrays `A`, `B` of `k` lanes. -/
theorem msg_eq {k : Nat} (h : (⟨2, ![1600000, 1]⟩ : Shape).BroadcastsInDim ⟨2, ![1600000, k]⟩ ![0, 1])
    (A B : FVec Ideal ⟨2, ![1600000, k]⟩ .f32) (ea : T S1600000x1 .f32) :
    addf (mulf (broadcastInDim ⟨2, ![1600000, k]⟩ ![0, 1] h (HandRun.restCol (F := Ideal) (HandRun.alpha ea))) A)
        (mulf (broadcastInDim ⟨2, ![1600000, k]⟩ ![0, 1] h (HandRun.alphaCol (F := Ideal) (HandRun.alpha ea))) B)
      = blend (F := Ideal) (n := 1600000) (k := k) A B ea := by
  funext i
  obtain ⟨p, q, rfl⟩ : ∃ (p : Fin 1600000) (q : Fin k), i = ix2 p q := ⟨i 0, i 1, eq_ix2 i⟩
  refine (addf_apply _ _ _).trans ?_
  rw [mulf_apply, mulf_apply, lanes_apply (by decide), lanes_apply (by decide), restCol_apply, alphaCol_apply, alpha_apply]
  rfl

theorem edgeMsg128_eq (x : T S100000x128 .f32) (W : T S2x128x128 .f32) (s : T S1600000 .i32) (ea : T S1600000x1 .f32) :
    HandRun.edgeMsg128 (F := Ideal) x W s (HandRun.alpha ea)
      = blend (F := Ideal) (n := 1600000) (k := 128)
          (Host.gather gather_S100000x128_S1600000x1_S1600000x128_1_0_n_n_0_1_1128 (dense (n := 100000) (k := 128) x (w128_0 W)) (wrapCol s))
          (Host.gather gather_S100000x128_S1600000x1_S1600000x128_1_0_n_n_0_1_1128 (dense (n := 100000) (k := 128) x (w128_1 W)) (wrapCol s))
          ea := by
  unfold HandRun.edgeMsg128
  dsimp only
  rw [dot128, dot128, srcCol_eq]
  exact msg_eq _ _ _ _

theorem edgeMsg40_eq (h : T S100000x128 .f32) (W : T S2x128x40 .f32) (s : T S1600000 .i32) (ea : T S1600000x1 .f32) :
    HandRun.edgeMsg40 (F := Ideal) h W s (HandRun.alpha ea)
      = blend (F := Ideal) (n := 1600000) (k := 40)
          (Host.gather gather_S100000x40_S1600000x1_S1600000x40_1_0_n_n_0_1_140 (dense (n := 100000) (k := 40) h (w40_0 W)) (wrapCol s))
          (Host.gather gather_S100000x40_S1600000x1_S1600000x40_1_0_n_n_0_1_140 (dense (n := 100000) (k := 40) h (w40_1 W)) (wrapCol s))
          ea := by
  unfold HandRun.edgeMsg40
  dsimp only
  rw [dot40, dot40, srcCol_eq]
  exact msg_eq _ _ _ _

/-! ## The activation -/

/-- jax's `elu` at an entry is `ELU` of the entry: above zero both keep it; otherwise `1 · expm1 z = exp z − 1`. -/
theorem elu_apply (z : T S100000x128 .f32) (i : S100000x128.Idx) :
    HandRun.elu (F := Ideal) z i = Spline.elu (F := Ideal) (z i) := by
  unfold HandRun.elu Spline.elu
  show Scalar.select (Ideal.cmp .ogt (z i) (Ideal.ofBits .f32 0x00000000#32)) (z i)
      (Ideal.ofBits .f32 0x3F800000#32 * (Ideal.exp (Scalar.select (Ideal.cmp .ogt (z i) (Ideal.ofBits .f32 0x00000000#32)) (Ideal.ofBits .f32 0x00000000#32) (z i)) - 1))
    = Scalar.select (Ideal.cmp .ogt (z i) (Ideal.ofBits .f32 0x00000000#32)) (z i) (Ideal.exp (z i) - Ideal.ofBits .f32 0x3F800000#32)
  rw [Ideal.ofBits_one_f32]
  rcases BitVec.eq_zero_or_eq_one (Ideal.cmp .ogt (z i) (Ideal.ofBits .f32 0x00000000#32)) with h | h <;> rw [h] <;> simp [Scalar.select]

theorem elu_eq (z : T S100000x128 .f32) : HandRun.elu (F := Ideal) z = fun i => Spline.elu (F := Ideal) (z i) :=
  funext (elu_apply z)

/-! ## The two layers -/

/-- The reference's first layer is the network's first layer of the same arguments, its bias laid as a row. -/
theorem layer1_eq (x : T S100000x128 .f32) (ei : T S2x1600000 .i32) (ea : T S1600000x1 .f32) (W : T S2x128x128 .f32)
    (R : T S128x128 .f32) (b : T S128 .f32) :
    HandRun.refLayer1 (F := Ideal) x ei ea W R b
      = layer1 x ei ea W R (broadcastInDim S1x128 ![1] bcast_S128_S1x128_1 b) := by
  unfold HandRun.refLayer1 HandRun.pre128 HandRun.agg128 HandRun.degCol
  dsimp only
  rw [edgeMsg128_eq, dot128, pre_eq (k := 128) (by decide), elu_eq, srcIdx_eq, dstIdx_eq, dstCol_eq]
  rfl

/-- The reference's second layer is the network's second layer. -/
theorem layer2_eq (h : T S100000x128 .f32) (ei : T S2x1600000 .i32) (ea : T S1600000x1 .f32) (W : T S2x128x40 .f32)
    (R : T S128x40 .f32) (b : T S40 .f32) :
    HandRun.refLayer2 (F := Ideal) h ei ea W R b
      = layer2 h ei ea W R (broadcastInDim S1x40 ![1] bcast_S40_S1x40_1 b) := by
  unfold HandRun.refLayer2 HandRun.core40 HandRun.agg40 HandRun.degCol
  dsimp only
  rw [edgeMsg40_eq, dot40, pre_eq (k := 40) (by decide), srcIdx_eq, dstIdx_eq, dstCol_eq]
  rfl

/-- THE REFERENCE'S RESULT as a function of its arguments: the second layer of the first. -/
theorem refOut_eq (x : T S100000x128 .f32) (ei : T S2x1600000 .i32) (ea : T S1600000x1 .f32) (W1 : T S2x128x128 .f32)
    (R1 : T S128x128 .f32) (b1 : T S128 .f32) (W2 : T S2x128x40 .f32) (R2 : T S128x40 .f32) (b2 : T S40 .f32) :
    HandRun.refOut (F := Ideal) x ei ea W1 R1 b1 W2 R2 b2
      = layer2 (layer1 x ei ea W1 R1 (broadcastInDim S1x128 ![1] bcast_S128_S1x128_1 b1)) ei ea W2 R2
          (broadcastInDim S1x40 ![1] bcast_S40_S1x40_1 b2) := by
  unfold HandRun.refOut
  rw [layer1_eq, layer2_eq]

/-! ## A vector laid as one row is its reshape to one row -/

theorem biasRow_eq {k : Nat} (hk : k ≠ 1) (hb : (⟨1, ![k]⟩ : Shape).BroadcastsInDim ⟨2, ![1, k]⟩ ![1])
    (hs : (⟨1, ![k]⟩ : Shape).ShapeCasts ⟨2, ![1, k]⟩) (b : (⟨1, ![k]⟩ : Shape).Idx → EReal) :
    broadcastInDim ⟨2, ![1, k]⟩ ![1] hb b = shapeCast ⟨2, ![1, k]⟩ b hs := by
  funext i
  obtain ⟨p, q, rfl⟩ : ∃ (p : Fin 1) (q : Fin k), i = ix2 p q := ⟨i 0, i 1, eq_ix2 i⟩
  rw [broadcastInDim_apply _ hb b (ix2 p q) (ix1 q) (fun a => by
        match a with
        | ⟨0, _⟩ => show q.val = if k = 1 then 0 else q.val; rw [if_neg hk]),
    shapeCast_apply b hs (ix2 p q) (ix1 q) (by
        rw [Shape.rowMajor_val_one, Shape.rowMajor_val_two]
        show q.val = p.val * k + q.val
        have hp : p.val = 0 := by have := p.isLt; omega
        rw [hp, Nat.zero_mul, Nat.zero_add])]

end Cert.ReferenceIdeal.Net

end
-- ==== Proof.Claims.lean ====
/-
  The five claims.

  The three frames: the word-level kernel's and the idealized kernel's are their generated frame certificates; the
  reference's is its run with the result dropped. The idealization rewrote nothing, so `preserves` asks nothing.
  The algebraic claim: the idealized kernel ends with its result array at the last boundary's contents, which is the
  second layer of the first layer of the argument arrays (the six regions' closed forms and the host stretches read
  in order); the reference ends with its result at the same two layers of ITS arguments, by three laws of the extended
  reals (a `dot_general` is the sum of products; a quotient by `max (c, 1)` is the product with its reciprocal;
  `1 · expm1 z = exp z − 1`); the two programs state those layers with the same operations, the reference laying its
  bias along a new row axis where the kernel reshapes it to one row, which is the same row; and the arguments agree.
-/
import proofs.«121759_j17231408791938_1_alg».proof.Defs
import proofs.«121759_j17231408791938_1_alg».proof.Proof.Gen.Kernel
import proofs.«121759_j17231408791938_1_alg».proof.Proof.Gen.Kernel.Frame
import proofs.«121759_j17231408791938_1_alg».proof.Proof.Gen.KernelIdeal
import proofs.«121759_j17231408791938_1_alg».proof.Proof.Gen.KernelIdeal.Frame
import proofs.«121759_j17231408791938_1_alg».proof.Proof.Gen.ReferenceIdeal
import proofs.«121759_j17231408791938_1_alg».proof.Proof.Gen.Pre_finite_inputs
import proofs.«121759_j17231408791938_1_alg».proof.Proof.KernelRun
import proofs.«121759_j17231408791938_1_alg».proof.Proof.KernelNet
import proofs.«121759_j17231408791938_1_alg».proof.Proof.RefRun
import proofs.«121759_j17231408791938_1_alg».proof.Proof.RefNet

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- The two programs' layers are one function: the same operations over dimension records equal field by field. -/
theorem layer1_same : @Cert.ReferenceIdeal.Net.layer1 = @Cert.KernelIdeal.Net.layer1 := rfl
theorem layer2_same : @Cert.ReferenceIdeal.Net.layer2 = @Cert.KernelIdeal.Net.layer2 := rfl

/-- From memories agreeing on the arguments both idealized programs run, the arguments end unchanged, and both result
    arrays end at the second layer of the first layer of the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v62), Cert.KernelIdeal.ValueRun.run m ρ, ?_⟩
  refine (θ_run Cert.ReferenceIdeal.defs _ _).mono (fun _ h c => ⟨(h c).1.trans ?_, (h c).2⟩) (Cert.ReferenceIdeal.HandRun.run (F := Ideal) m' ρ')
  obtain ⟨a0, a1, a2, a3, a4, a5, a6, a7, a8⟩ := hagree c
  rw [a0, a1, a2, a3, a4, a5, a6, a7, a8, Cert.ReferenceIdeal.Net.refOut_eq]
  show _ = Cert.KernelIdeal.Gen.W12 m ρ c (Proc.devRef .tc Cert.KernelIdeal.main_v62)
  rw [Cert.KernelIdeal.Net.value, layer1_same, layer2_same,
    Cert.ReferenceIdeal.Net.biasRow_eq (k := 128) (by decide) _ Cert.KernelIdeal.Gen.shapeCasts_S128_S1x128,
    Cert.ReferenceIdeal.Net.biasRow_eq (k := 40) (by decide) _ Cert.KernelIdeal.Gen.shapeCasts_S40_S1x40]

end Cert.Proof.Claims

end
-- ==== Proof.lean ====
/-
  The certificate: a two-layer graph network written as six pipelined kernel regions among host gathers and
  scatter-adds computes, at the ideal values, the same function of its nine arguments as its plain reference.

  Each layer transforms the node features by three 128-row matrices, gathers two of the products at the edges' source
  nodes, blends them by the edge coordinate, sums the blends at the edges' destination nodes, and combines the sum —
  as a mean over the arriving edges — with the third product and a bias; the first layer ends in `ELU`. The kernel
  program forms the mean as a product with `1 / max (count, 1)`, the reference as a quotient by `max (count, 1)`;
  the kernel spells `ELU` with `exp z − 1`, the reference with `1 · expm1 z`; the kernel narrows the matrix products'
  operands to bf16, which is the identity on extended reals. Those are the only differences, and each is an identity of
  the extended reals that holds at every value, so the precondition is never opened. The proof's parts:
  Spec (the four dense stages as functions), Dense128 / Blend128 / Combine128 / Dense40 / Blend40 / Combine40 (each
  region's output array as one function of the arrays it finds), KernelRun (the run with the result named), KernelNet
  (the fold of boundary contents read down to the arguments), RefRun (the reference's run), RefNet (the reference's
  layers are the same functions), Claims (the five claims).
-/
import proofs.«121759_j17231408791938_1_alg».proof.Defs
import proofs.«121759_j17231408791938_1_alg».proof.Proof.Gen.Kernel
import proofs.«121759_j17231408791938_1_alg».proof.Proof.Gen.Kernel.Skeleton
import proofs.«121759_j17231408791938_1_alg».proof.Proof.Gen.Kernel.Launch
import proofs.«121759_j17231408791938_1_alg».proof.Proof.Gen.Kernel.Points
import proofs.«121759_j17231408791938_1_alg».proof.Proof.Gen.Kernel.Frame
import proofs.«121759_j17231408791938_1_alg».proof.Proof.Gen.KernelIdeal
import proofs.«121759_j17231408791938_1_alg».proof.Proof.Gen.KernelIdeal.Skeleton
import proofs.«121759_j17231408791938_1_alg».proof.Proof.Gen.KernelIdeal.Launch
import proofs.«121759_j17231408791938_1_alg».proof.Proof.Gen.KernelIdeal.Points
import proofs.«121759_j17231408791938_1_alg».proof.Proof.Gen.KernelIdeal.Frame
import proofs.«121759_j17231408791938_1_alg».proof.Proof.Gen.ReferenceIdeal
import proofs.«121759_j17231408791938_1_alg».proof.Proof.Gen.Pre_finite_inputs
import proofs.«121759_j17231408791938_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
